-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x125 : Shape := ⟨2, ![50000, 125]⟩
abbrev S600000x4 : Shape := ⟨2, ![600000, 4]⟩
abbrev S50000x3 : Shape := ⟨2, ![50000, 3]⟩
abbrev S128x128 : Shape := ⟨2, ![128, 128]⟩
abbrev S128 : Shape := ⟨1, ![128]⟩
abbrev S4x128 : Shape := ⟨2, ![4, 128]⟩
abbrev S128x256 : Shape := ⟨2, ![128, 256]⟩
abbrev S256 : Shape := ⟨1, ![256]⟩
abbrev S256x128 : Shape := ⟨2, ![256, 128]⟩
abbrev S2x600000 : Shape := ⟨2, ![2, 600000]⟩
abbrev S_ : Shape := ⟨0, ![]⟩

class Facts : Prop where
  bcast_S_S50000x125 : S_.BroadcastsInDim S50000x125 (![] : Fin 0 → Fin S50000x125.rank)
  reducesTo_S50000x125_S_d0_1 : S50000x125.ReducesTo [0, 1] S_
  h_S_ : 0 < S_.numel
  bcast_S_S600000x4 : S_.BroadcastsInDim S600000x4 (![] : Fin 0 → Fin S600000x4.rank)
  reducesTo_S600000x4_S_d0_1 : S600000x4.ReducesTo [0, 1] S_
  bcast_S_S50000x3 : S_.BroadcastsInDim S50000x3 (![] : Fin 0 → Fin S50000x3.rank)
  reducesTo_S50000x3_S_d0_1 : S50000x3.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x128 : S_.BroadcastsInDim S4x128 (![] : Fin 0 → Fin S4x128.rank)
  reducesTo_S4x128_S_d0_1 : S4x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_

variable [Facts]

def fn_part6 {F : FTy → Type} [FloatOps F] (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  main_v103

def fn_part5 {F : FTy → Type} [FloatOps F] (main_arg18 : FVec F S128 .f32) (main_arg19 : FVec F S128 .f32) (main_arg20 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_v98 main_v101 main_c_39

def fn_part4 {F : FTy → Type} [FloatOps F] (main_arg14 : FVec F S256 .f32) (main_arg15 : FVec F S256x128 .f32) (main_arg16 : FVec F S128 .f32) (main_arg17 : FVec F S128 .f32) (main_arg18 : FVec F S128 .f32) (main_arg19 : FVec F S128 .f32) (main_arg20 : FVec F S128 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x128 .f32 := Host.absf main_arg15
  let main_cst_28 : FVec F S_ .f32 := constant S_ .f32 0x7F800000#32
  let main_v75 : FVec F S256x128 .f32 := broadcastInDim S256x128 ![] bcast_S_S256x128 main_cst_28
  let main_v76 : IVec S256x128 1 := cmpf .olt main_v74 main_v75
  let main_c_29 : IVec S_ 1 := constantI S_ 1 1#1
  let main_v77 : IVec S_ 1 := (fun x v => Host.reduce IntOp.andi x v reducesTo_S256x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S128 .f32) (main_arg12 : FVec F S128 .f32) (main_arg13 : FVec F S128x256 .f32) (main_arg14 : FVec F S256 .f32) (main_arg15 : FVec F S256x128 .f32) (main_arg16 : FVec F S128 .f32) (main_arg17 : FVec F S128 .f32) (main_arg18 : FVec F S128 .f32) (main_arg19 : FVec F S128 .f32) (main_arg20 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x256 .f32 := Host.absf main_arg13
  let main_cst_24 : FVec F S_ .f32 := constant S_ .f32 0x7F800000#32
  let main_v65 : FVec F S128x256 .f32 := broadcastInDim S128x256 ![] bcast_S_S128x256 main_cst_24
  let main_v66 : IVec S128x256 1 := cmpf .olt main_v64 main_v65
  let main_c_25 : IVec S_ 1 := constantI S_ 1 1#1
  let main_v67 : IVec S_ 1 := (fun x v => Host.reduce IntOp.andi x v reducesTo_S128x256_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S4x128 .f32) (main_arg8 : FVec F S128 .f32) (main_arg9 : FVec F S128x128 .f32) (main_arg10 : FVec F S128 .f32) (main_arg11 : FVec F S128 .f32) (main_arg12 : FVec F S128 .f32) (main_arg13 : FVec F S128x256 .f32) (main_arg14 : FVec F S256 .f32) (main_arg15 : FVec F S256x128 .f32) (main_arg16 : FVec F S128 .f32) (main_arg17 : FVec F S128 .f32) (main_arg18 : FVec F S128 .f32) (main_arg19 : FVec F S128 .f32) (main_arg20 : FVec F S128 .f32) (main_v33 : IVec S_ 1) : IVec S_ 1 :=
  let main_v34 : FVec F S4x128 .f32 := Host.absf main_arg7
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S128 .f32) (main_arg5 : FVec F S128x128 .f32) (main_arg6 : FVec F S128 .f32) (main_arg7 : FVec F S4x128 .f32) (main_arg8 : FVec F S128 .f32) (main_arg9 : FVec F S128x128 .f32) (main_arg10 : FVec F S128 .f32) (main_arg11 : FVec F S128 .f32) (main_arg12 : FVec F S128 .f32) (main_arg13 : FVec F S128x256 .f32) (main_arg14 : FVec F S256 .f32) (main_arg15 : FVec F S256x128 .f32) (main_arg16 : FVec F S128 .f32) (main_arg17 : FVec F S128 .f32) (main_arg18 : FVec F S128 .f32) (main_arg19 : FVec F S128 .f32) (main_arg20 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S50000x125 .f32) (main_arg1 : FVec F S600000x4 .f32) (main_arg2 : FVec F S50000x3 .f32) (main_arg3 : FVec F S128x128 .f32) (main_arg4 : FVec F S128 .f32) (main_arg5 : FVec F S128x128 .f32) (main_arg6 : FVec F S128 .f32) (main_arg7 : FVec F S4x128 .f32) (main_arg8 : FVec F S128 .f32) (main_arg9 : FVec F S128x128 .f32) (main_arg10 : FVec F S128 .f32) (main_arg11 : FVec F S128 .f32) (main_arg12 : FVec F S128 .f32) (main_arg13 : FVec F S128x256 .f32) (main_arg14 : FVec F S256 .f32) (main_arg15 : FVec F S256x128 .f32) (main_arg16 : FVec F S128 .f32) (main_arg17 : FVec F S128 .f32) (main_arg18 : FVec F S128 .f32) (main_arg19 : FVec F S128 .f32) (main_arg20 : FVec F S128 .f32) (main_arg21 : IVec S2x600000 32) : IVec S_ 1 :=
  let main_v0 : FVec F S50000x125 .f32 := Host.absf main_arg0
  let main_cst : FVec F S_ .f32 := constant S_ .f32 0x7F800000#32
  let main_v1 : FVec F S50000x125 .f32 := broadcastInDim S50000x125 ![] bcast_S_S50000x125 main_cst
  let main_v2 : IVec S50000x125 1 := cmpf .olt main_v0 main_v1
  let main_c : IVec S_ 1 := constantI S_ 1 1#1
  let main_v3 : IVec S_ 1 := (fun x v => Host.reduce IntOp.andi x v reducesTo_S50000x125_S_d0_1 h_S_) main_v2 main_c
  let main_v4 : FVec F S600000x4 .f32 := Host.absf main_arg1
  let main_cst_0 : FVec F S_ .f32 := constant S_ .f32 0x7F800000#32
  let main_v5 : FVec F S600000x4 .f32 := broadcastInDim S600000x4 ![] bcast_S_S600000x4 main_cst_0
  let main_v6 : IVec S600000x4 1 := cmpf .olt main_v4 main_v5
  let main_c_1 : IVec S_ 1 := constantI S_ 1 1#1
  let main_v7 : IVec S_ 1 := (fun x v => Host.reduce IntOp.andi x v reducesTo_S600000x4_S_d0_1 h_S_) main_v6 main_c_1
  let main_v8 : IVec S_ 1 := andi main_v3 main_v7
  let main_v9 : FVec F S50000x3 .f32 := Host.absf main_arg2
  let main_cst_2 : FVec F S_ .f32 := constant S_ .f32 0x7F800000#32
  let main_v10 : FVec F S50000x3 .f32 := broadcastInDim S50000x3 ![] bcast_S_S50000x3 main_cst_2
  let main_v11 : IVec S50000x3 1 := cmpf .olt main_v9 main_v10
  let main_c_3 : IVec S_ 1 := constantI S_ 1 1#1
  let main_v12 : IVec S_ 1 := (fun x v => Host.reduce IntOp.andi x v reducesTo_S50000x3_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S50000x125 : Shape := ⟨2, ![50000, 125]⟩
abbrev S600000x4 : Shape := ⟨2, ![600000, 4]⟩
abbrev S50000x3 : Shape := ⟨2, ![50000, 3]⟩
abbrev S128x128 : Shape := ⟨2, ![128, 128]⟩
abbrev S128 : Shape := ⟨1, ![128]⟩
abbrev S4x128 : Shape := ⟨2, ![4, 128]⟩
abbrev S128x256 : Shape := ⟨2, ![128, 256]⟩
abbrev S256 : Shape := ⟨1, ![256]⟩
abbrev S256x128 : Shape := ⟨2, ![256, 128]⟩
abbrev S2x600000 : Shape := ⟨2, ![2, 600000]⟩
abbrev S50000x128 : Shape := ⟨2, ![50000, 128]⟩
abbrev S1x128 : Shape := ⟨2, ![1, 128]⟩
abbrev S1x256 : Shape := ⟨2, ![1, 256]⟩
abbrev S2000x128 : Shape := ⟨2, ![2000, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S6000x4 : Shape := ⟨2, ![6000, 4]⟩
abbrev S6000x128 : Shape := ⟨2, ![6000, 128]⟩
abbrev S50000 : Shape := ⟨1, ![50000]⟩
abbrev S50000x1 : Shape := ⟨2, ![50000, 1]⟩
abbrev S2000x1 : Shape := ⟨2, ![2000, 1]⟩
abbrev S2000x256 : Shape := ⟨2, ![2000, 256]⟩

abbrev nBuf : Space → Nat
  | .hbm => 100
  | .vmem => 48
  | .smem => 0
  | _ => 0

abbrev bufTy : (tb : Table) → Fin (tcTables nBuf tb) → BufTy
  | .hbm, ⟨0, _⟩ => ⟨S50000x125, .f32⟩
  | .hbm, ⟨1, _⟩ => ⟨S600000x4, .f32⟩
  | .hbm, ⟨2, _⟩ => ⟨S50000x3, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S4x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128x256, .f32⟩
  | .hbm, ⟨14, _⟩ => ⟨S256, .f32⟩
  | .hbm, ⟨15, _⟩ => ⟨S256x128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S2x600000, .i32⟩
  | .hbm, ⟨22, _⟩ => ⟨S50000x128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x256, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S128x128, .bf16⟩
  | .hbm, ⟨36, _⟩ => ⟨S128x128, .bf16⟩
  | .hbm, ⟨37, _⟩ => ⟨S4x128, .bf16⟩
  | .hbm, ⟨38, _⟩ => ⟨S128x128, .bf16⟩
  | .hbm, ⟨39, _⟩ => ⟨S128x256, .bf16⟩
  | .hbm, ⟨40, _⟩ => ⟨S256x128, .bf16⟩
  | .hbm, ⟨41, _⟩ => ⟨S50000x128, .f32⟩
  | .hbm, ⟨42, _⟩ => ⟨S1x600000, .i32⟩
  | .hbm, ⟨43, _⟩ => ⟨S600000, .i32⟩
  | .hbm, ⟨44, _⟩ => ⟨S1x600000, .i32⟩
  | .hbm, ⟨45, _⟩ => ⟨S600000, .i32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x128, .f32⟩
  | .hbm, ⟨55, _⟩ => ⟨S600000x128, .f32⟩
  | .hbm, ⟨56, _⟩ => ⟨S_, .f32⟩
  | .hbm, ⟨57, _⟩ => ⟨S50000x128, .f32⟩
  | .hbm, ⟨58, _⟩ => ⟨S600000x1, .i32⟩
  | .hbm, ⟨59, _⟩ => ⟨S50000x128, .f32⟩
  | .hbm, ⟨60, _⟩ => ⟨S_, .f32⟩
  | .hbm, ⟨61, _⟩ => ⟨S600000, .f32⟩
  | .hbm, ⟨62, _⟩ => ⟨S_, .f32⟩
  | .hbm, ⟨63, _⟩ => ⟨S50000, .f32⟩
  | .hbm, ⟨64, _⟩ => ⟨S600000x1, .i32⟩
  | .hbm, ⟨65, _⟩ => ⟨S50000, .f32⟩
  | .hbm, ⟨66, _⟩ => ⟨S50000x1, .f32⟩
  | .hbm, ⟨67, _⟩ => ⟨S50000x128, .f32⟩
  | .hbm, ⟨68, _⟩ => ⟨S_, .f32⟩
  | .hbm, ⟨69, _⟩ => ⟨S128, .f32⟩
  | .hbm, ⟨70, _⟩ => ⟨S1x128, .f32⟩
  | .hbm, ⟨71, _⟩ => ⟨S_, .f32⟩
  | .hbm, ⟨72, _⟩ => ⟨S1x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S128, .f32⟩
  | .hbm, ⟨79, _⟩ => ⟨S1x128, .f32⟩
  | .hbm, ⟨80, _⟩ => ⟨S_, .f32⟩
  | .hbm, ⟨81, _⟩ => ⟨S1x128, .f32⟩
  | .hbm, ⟨82, _⟩ => ⟨S1x128, .f32⟩
  | .hbm, ⟨83, _⟩ => ⟨S50000x128, .f32⟩
  | .hbm, ⟨84, _⟩ => ⟨S_, .f32⟩
  | .hbm, ⟨85, _⟩ => ⟨S128, .f32⟩
  | .hbm, ⟨86, _⟩ => ⟨S1x128, .f32⟩
  | .hbm, ⟨87, _⟩ => ⟨S_, .f32⟩
  | .hbm, ⟨88, _⟩ => ⟨S1x128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S50000x128, .f32⟩
  | .hbm, ⟨93, _⟩ => ⟨S_, .f32⟩
  | .hbm, ⟨94, _⟩ => ⟨S128, .f32⟩
  | .hbm, ⟨95, _⟩ => ⟨S1x128, .f32⟩
  | .hbm, ⟨96, _⟩ => ⟨S_, .f32⟩
  | .hbm, ⟨97, _⟩ => ⟨S1x128, .f32⟩
  | .hbm, ⟨98, _⟩ => ⟨S1x128, .f32⟩
  | .hbm, ⟨99, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .bf16⟩
  | .local _ .vmem, ⟨3, _⟩ => ⟨S1x128, .f32⟩
  | .local _ .vmem, ⟨4, _⟩ => ⟨S128x128, .bf16⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S6000x4, .f32⟩
  | .local _ .vmem, ⟨9, _⟩ => ⟨S6000x4, .f32⟩
  | .local _ .vmem, ⟨10, _⟩ => ⟨S6000x128, .f32⟩
  | .local _ .vmem, ⟨11, _⟩ => ⟨S6000x128, .f32⟩
  | .local _ .vmem, ⟨12, _⟩ => ⟨S4x128, .bf16⟩
  | .local _ .vmem, ⟨13, _⟩ => ⟨S1x128, .f32⟩
  | .local _ .vmem, ⟨14, _⟩ => ⟨S128x128, .bf16⟩
  | .local _ .vmem, ⟨15, _⟩ => ⟨S1x128, .f32⟩
  | .local _ .vmem, ⟨16, _⟩ => ⟨S6000x128, .f32⟩
  | .local _ .vmem, ⟨17, _⟩ => ⟨S6000x128, .f32⟩
  | .local _ .vmem, ⟨18, _⟩ => ⟨S2000x128, .f32⟩
  | .local _ .vmem, ⟨19, _⟩ => ⟨S2000x128, .f32⟩
  | .local _ .vmem, ⟨20, _⟩ => ⟨S2000x1, .f32⟩
  | .local _ .vmem, ⟨21, _⟩ => ⟨S2000x1, .f32⟩
  | .local _ .vmem, ⟨22, _⟩ => ⟨S2000x128, .f32⟩
  | .local _ .vmem, ⟨23, _⟩ => ⟨S2000x128, .f32⟩
  | .local _ .vmem, ⟨24, _⟩ => ⟨S1x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S128x256, .bf16⟩
  | .local _ .vmem, ⟨35, _⟩ => ⟨S1x256, .f32⟩
  | .local _ .vmem, ⟨36, _⟩ => ⟨S256x128, .bf16⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S2000x128, .f32⟩
  | .local _ .vmem, ⟨47, _⟩ => ⟨S2000x128, .f32⟩
  | _, _ => ⟨S50000x125, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c : Ref sig .tc := ⟨.hbm, 46, rfl⟩
abbrev main_v24 : Ref sig .tc := ⟨.hbm, 47, rfl⟩
abbrev main_v25 : Ref sig .tc := ⟨.hbm, 48, rfl⟩
abbrev main_c_0 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_1 : Ref sig .tc := ⟨.hbm, 60, rfl⟩
abbrev main_v35 : Ref sig .tc := ⟨.hbm, 61, rfl⟩
abbrev main_cst_2 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_3 : Ref sig .tc := ⟨.hbm, 68, rfl⟩
abbrev main_v41 : Ref sig .tc := ⟨.hbm, 69, rfl⟩
abbrev main_v42 : Ref sig .tc := ⟨.hbm, 70, rfl⟩
abbrev main_cst_4 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_5 : Ref sig .tc := ⟨.hbm, 77, rfl⟩
abbrev main_v48 : Ref sig .tc := ⟨.hbm, 78, rfl⟩
abbrev main_v49 : Ref sig .tc := ⟨.hbm, 79, rfl⟩
abbrev main_cst_6 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_7 : Ref sig .tc := ⟨.hbm, 84, rfl⟩
abbrev main_v53 : Ref sig .tc := ⟨.hbm, 85, rfl⟩
abbrev main_v54 : Ref sig .tc := ⟨.hbm, 86, rfl⟩
abbrev main_cst_8 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_9 : Ref sig .tc := ⟨.hbm, 93, rfl⟩
abbrev main_v60 : Ref sig .tc := ⟨.hbm, 94, rfl⟩
abbrev main_v61 : Ref sig .tc := ⟨.hbm, 95, rfl⟩
abbrev main_cst_10 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg8_0 : Ref sig .tc := ⟨.vmem, 37, rfl⟩
abbrev cc3_stg9_0 : Ref sig .tc := ⟨.vmem, 38, rfl⟩
abbrev cc3_stg9_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg5_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem8_0 : DmaSem sig := 37
abbrev cc3_sem9_0 : DmaSem sig := 38
abbrev cc3_sem9_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem5_1 : DmaSem sig := 47

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S6000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x256 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S256x128 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S2000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  concatenates_S50000x125_S50000x3_S50000x128_d1 : Shape.Concatenates [S50000x125, S50000x3] S50000x128 1
  shapeCasts_S128_S1x128 : S128.ShapeCasts S1x128
  shapeCasts_S256_S1x256 : S256.ShapeCasts S1x256
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  inb_S6000x4_S6000x4_0_0 : ∀ a, (![0, 0] : Fin 2 → Nat) a + S6000x4.size a ≤ S6000x4.size a
  h_S6000x4 : 0 < S6000x4.numel
  inb_S4x128_S4x128_0_0 : ∀ a, (![0, 0] : Fin 2 → Nat) a + S4x128.size a ≤ S4x128.size a
  h_S4x128 : 0 < S4x128.numel
  shapeCasts_S4x128_S4x128 : S4x128.ShapeCasts S4x128
  broadcasts_S1x128_S6000x128 : S1x128.Broadcasts S6000x128
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  reducesTo_S50000x128_S128_d0 : S50000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  dot_S2000x128_S128x128_S2000x128_1_0_0_1_n_n_wf : DotDims.WF S2000x128 S128x128 S2000x128 [1] [0] [0] [1] [] []
  gather_S50000x128_S600000x1_S600000x128_1_0_n_n_0_1_1128_wf : GatherDims.WF S50000x128 S600000x1 S600000x128 [1] [0] [] [0] [] 1 ![1, 128]
  dot_S6000x4_S4x128_S6000x128_1_0_0_1_n_n_wf : DotDims.WF S6000x4 S4x128 S6000x128 [1] [0] [0] [1] [] []
  dot_S6000x128_S128x128_S6000x128_1_0_0_1_n_n_wf : DotDims.WF S6000x128 S128x128 S6000x128 [1] [0] [0] [1] [] []
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x4.size a ≤ S600000x4.size a
  hwx1_0 : ∀ i : grid1.Coords, EltTy.bits .f32 = 32 ∨ (Rect.block (s := S600000x4) S6000x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x128.size a ≤ S600000x128.size a
  hwx1_1 : ∀ i : grid1.Coords, EltTy.bits .f32 = 32 ∨ (Rect.block (s := S600000x128) S6000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x128.size a ≤ S4x128.size a
  hwx1_2 : ∀ i : grid1.Coords, EltTy.bits .bf16 = 32 ∨ (Rect.block (s := S4x128) S4x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S6000x128.size a ≤ S600000x128.size a
  hwx1_6 : ∀ i : grid1.Coords, EltTy.bits .f32 = 32 ∨ (Rect.block (s := S600000x128) S6000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x256.size a ≤ S128x256.size a
  hwx3_5 : ∀ i : grid3.Coords, EltTy.bits .bf16 = 32 ∨ (Rect.block (s := S128x256) S128x256.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S256x128.size a ≤ S256x128.size a
  hwx3_7 : ∀ i : grid3.Coords, EltTy.bits .bf16 = 32 ∨ (Rect.block (s := S256x128) S256x128.size (cc3_transform_7 i) (hinb3_7 i)).WholeWords (EltTy.packing .bf16)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2000x128.size a ≤ S50000x128.size a
  hwx3_9 : ∀ i : grid3.Coords, EltTy.bits .f32 = 32 ∨ (Rect.block (s := S50000x128) S2000x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S50000x128.size a
  hwx4_5 : ∀ i : grid4.Coords, EltTy.bits .f32 = 32 ∨ (Rect.block (s := S50000x128) S2000x128.size (cc4_transform_5 i) (hinb4_5 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S6000x4_S4x128_S6000x128_1_0_0_1_n_n : DotDims S6000x4 S4x128 S6000x128 where
  lhsContracting := [1]
  rhsContracting := [0]
  lhsNonContracting := [0]
  rhsNonContracting := [1]
  lhsBatch := []
  rhsBatch := []
  wf := dot_S6000x4_S4x128_S6000x128_1_0_0_1_n_n_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S6000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S6000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S4x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S6000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v34) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v40) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v9) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v10) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v17) S128x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v7) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v18) S256x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v8) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v52) S2000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v52) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v56) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v11) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v12) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v64) S2000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x125 : Shape := ⟨2, ![50000, 125]⟩
abbrev S600000x4 : Shape := ⟨2, ![600000, 4]⟩
abbrev S50000x3 : Shape := ⟨2, ![50000, 3]⟩
abbrev S128x128 : Shape := ⟨2, ![128, 128]⟩
abbrev S128 : Shape := ⟨1, ![128]⟩
abbrev S4x128 : Shape := ⟨2, ![4, 128]⟩
abbrev S128x256 : Shape := ⟨2, ![128, 256]⟩
abbrev S256 : Shape := ⟨1, ![256]⟩
abbrev S256x128 : Shape := ⟨2, ![256, 128]⟩
abbrev S2x600000 : Shape := ⟨2, ![2, 600000]⟩
abbrev S1x600000 : Shape := ⟨2, ![1, 600000]⟩
abbrev S600000 : Shape := ⟨1, ![600000]⟩
abbrev S50000x128 : Shape := ⟨2, ![50000, 128]⟩
abbrev S1x128 : Shape := ⟨2, ![1, 128]⟩
abbrev S_ : Shape := ⟨0, ![]⟩
abbrev S600000x128 : Shape := ⟨2, ![600000, 128]⟩
abbrev S600000x1 : Shape := ⟨2, ![600000, 1]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩

abbrev nBuf : Space → Nat
  | .hbm => 162
  | .vmem => 0
  | .smem => 0
  | _ => 0

abbrev hbmTy0_0 (i : Nat) : BufTy := match i % 128 with
  | 0 => ⟨S50000x125, .f32⟩
  | 1 => ⟨S600000x4, .f32⟩
  | 2 => ⟨S50000x3, .f32⟩
  | 3 => ⟨S128x128, .f32⟩
  | 4 => ⟨S128, .f32⟩
  | 5 => ⟨S128x128, .f32⟩
  | 6 => ⟨S128, .f32⟩
  | 7 => ⟨S4x128, .f32⟩
  | 8 => ⟨S128, .f32⟩
  | 9 => ⟨S128x128, .f32⟩
  | 10 => ⟨S128, .f32⟩
  | 11 => ⟨S128, .f32⟩
  | 12 => ⟨S128, .f32⟩
  | 13 => ⟨S128x256, .f32⟩
  | 14 => ⟨S256, .f32⟩
  | 15 => ⟨S256x128, .f32⟩
  | 16 => ⟨S128, .f32⟩
  | 17 => ⟨S128, .f32⟩
  | 18 => ⟨S128, .f32⟩
  | 19 => ⟨S128, .f32⟩
  | 20 => ⟨S128, .f32⟩
  | 21 => ⟨S2x600000, .i32⟩
  | 22 => ⟨S1x600000, .i32⟩
  | 23 => ⟨S600000, .i32⟩
  | 24 => ⟨S1x600000, .i32⟩
  | 25 => ⟨S600000, .i32⟩
  | 26 => ⟨S50000x128, .f32⟩
  | 27 => ⟨S50000x128, .f32⟩
  | 28 => ⟨S1x128, .f32⟩
  | 29 => ⟨S50000x128, .f32⟩
  | 30 => ⟨S50000x128, .f32⟩
  | 31 => ⟨S_, .f32⟩
  | 32 => ⟨S50000x128, .f32⟩
  | 33 => ⟨S50000x128, .f32⟩
  | 34 => ⟨S50000x128, .f32⟩
  | 35 => ⟨S1x128, .f32⟩
  | 36 => ⟨S50000x128, .f32⟩
  | 37 => ⟨S50000x128, .f32⟩
  | 38 => ⟨S600000x128, .f32⟩
  | 39 => ⟨S1x128, .f32⟩
  | 40 => ⟨S600000x128, .f32⟩
  | 41 => ⟨S600000x128, .f32⟩
  | 42 => ⟨S_, .f32⟩
  | 43 => ⟨S600000x128, .f32⟩
  | 44 => ⟨S600000x128, .f32⟩
  | 45 => ⟨S600000x128, .f32⟩
  | 46 => ⟨S1x128, .f32⟩
  | 47 => ⟨S600000x128, .f32⟩
  | 48 => ⟨S600000x128, .f32⟩
  | 49 => ⟨S_, .i32⟩
  | 50 => ⟨S600000, .i32⟩
  | 51 => ⟨S600000, .i1⟩
  | 52 => ⟨S_, .i32⟩
  | 53 => ⟨S600000, .i32⟩
  | 54 => ⟨S600000, .i32⟩
  | 55 => ⟨S600000, .i32⟩
  | 56 => ⟨S600000x1, .i32⟩
  | 57 => ⟨S600000x128, .f32⟩
  | 58 => ⟨S600000x128, .f32⟩
  | 59 => ⟨S_, .f32⟩
  | 60 => ⟨S50000x128, .f32⟩
  | 61 => ⟨S600000x1, .i32⟩
  | 62 => ⟨S50000x128, .f32⟩
  | 63 => ⟨S_, .f32⟩
  | 64 => ⟨S600000, .f32⟩
  | 65 => ⟨S_, .f32⟩
  | 66 => ⟨S50000, .f32⟩
  | 67 => ⟨S600000x1, .i32⟩
  | 68 => ⟨S50000, .f32⟩
  | 69 => ⟨S_, .f32⟩
  | 70 => ⟨S50000, .f32⟩
  | 71 => ⟨S50000, .f32⟩
  | 72 => ⟨S50000x1, .f32⟩
  | 73 => ⟨S50000x128, .f32⟩
  | 74 => ⟨S50000x128, .f32⟩
  | 75 => ⟨S_, .f32⟩
  | 76 => ⟨S50000, .f32⟩
  | 77 => ⟨S50000, .f32⟩
  | 78 => ⟨S50000, .f32⟩
  | 79 => ⟨S50000x1, .f32⟩
  | 80 => ⟨S1x128, .f32⟩
  | 81 => ⟨S50000x128, .f32⟩
  | 82 => ⟨S50000x128, .f32⟩
  | 83 => ⟨S50000x128, .f32⟩
  | 84 => ⟨S50000x128, .f32⟩
  | 85 => ⟨S1x128, .f32⟩
  | 86 => ⟨S50000x128, .f32⟩
  | 87 => ⟨S50000x128, .f32⟩
  | 88 => ⟨S50000x128, .f32⟩
  | 89 => ⟨S50000x128, .f32⟩
  | 90 => ⟨S_, .f32⟩
  | 91 => ⟨S128, .f32⟩
  | 92 => ⟨S_, .f32⟩
  | 93 => ⟨S128, .f32⟩
  | 94 => ⟨S128, .f32⟩
  | 95 => ⟨S1x128, .f32⟩
  | 96 => ⟨S50000x128, .f32⟩
  | 97 => ⟨S50000x128, .f32⟩
  | 98 => ⟨S50000x128, .f32⟩
  | 99 => ⟨S_, .f32⟩
  | 100 => ⟨S128, .f32⟩
  | 101 => ⟨S_, .f32⟩
  | 102 => ⟨S128, .f32⟩
  | 103 => ⟨S128, .f32⟩
  | 104 => ⟨S1x128, .f32⟩
  | 105 => ⟨S50000x128, .f32⟩
  | 106 => ⟨S50000x128, .f32⟩
  | 107 => ⟨S_, .f32⟩
  | 108 => ⟨S128, .f32⟩
  | 109 => ⟨S128, .f32⟩
  | 110 => ⟨S128, .f32⟩
  | 111 => ⟨S1x128, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S50000x256, .f32⟩
  | 121 => ⟨S1x256, .f32⟩
  | 122 => ⟨S50000x256, .f32⟩
  | 123 => ⟨S50000x256, .f32⟩
  | 124 => ⟨S_, .f32⟩
  | 125 => ⟨S50000x256, .f32⟩
  | 126 => ⟨S50000x256, .f32⟩
  | 127 => ⟨S50000x128, .f32⟩
  | _ => ⟨S50000x125, .f32⟩

abbrev hbmTy0_1 (i : Nat) : BufTy := match i % 128 with
  | 0 => ⟨S1x128, .f32⟩
  | 1 => ⟨S50000x128, .f32⟩
  | 2 => ⟨S50000x128, .f32⟩
  | 3 => ⟨S50000x128, .f32⟩
  | 4 => ⟨S_, .f32⟩
  | 5 => ⟨S128, .f32⟩
  | 6 => ⟨S_, .f32⟩
  | 7 => ⟨S128, .f32⟩
  | 8 => ⟨S128, .f32⟩
  | 9 => ⟨S1x128, .f32⟩
  | 10 => ⟨S50000x128, .f32⟩
  | 11 => ⟨S50000x128, .f32⟩
  | 12 => ⟨S50000x128, .f32⟩
  | 13 => ⟨S_, .f32⟩
  | 14 => ⟨S128, .f32⟩
  | 15 => ⟨S_, .f32⟩
  | 16 => ⟨S128, .f32⟩
  | 17 => ⟨S128, .f32⟩
  | 18 => ⟨S1x128, .f32⟩
  | 19 => ⟨S50000x128, .f32⟩
  | 20 => ⟨S50000x128, .f32⟩
  | 21 => ⟨S_, .f32⟩
  | 22 => ⟨S128, .f32⟩
  | 23 => ⟨S128, .f32⟩
  | 24 => ⟨S128, .f32⟩
  | 25 => ⟨S1x128, .f32⟩
  | 26 => ⟨S50000x128, .f32⟩
  | 27 => ⟨S50000x128, .f32⟩
  | 28 => ⟨S1x128, .f32⟩
  | 29 => ⟨S50000x128, .f32⟩
  | 30 => ⟨S50000x128, .f32⟩
  | 31 => ⟨S1x128, .f32⟩
  | 32 => ⟨S50000x128, .f32⟩
  | 33 => ⟨S50000x128, .f32⟩
  | _ => ⟨S50000x125, .f32⟩

abbrev hbmTy (i : Nat) : BufTy := match i / 128 with
  | 0 => hbmTy0_0 i
  | 1 => hbmTy0_1 i
  | _ => ⟨S50000x125, .f32⟩

abbrev bufTy : (tb : Table) → Fin (tcTables nBuf tb) → BufTy
  | .hbm, ⟨i, _⟩ => hbmTy i
  | _, _ => ⟨S50000x125, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_call0_cst : Ref sig .tc := ⟨.hbm, 31, rfl⟩
abbrev main_call0_v0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_call1_cst : Ref sig .tc := ⟨.hbm, 42, rfl⟩
abbrev main_call1_v0 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_c : Ref sig .tc := ⟨.hbm, 49, rfl⟩
abbrev main_v23 : Ref sig .tc := ⟨.hbm, 50, rfl⟩
abbrev main_v24 : Ref sig .tc := ⟨.hbm, 51, rfl⟩
abbrev main_c_0 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_1 : Ref sig .tc := ⟨.hbm, 63, rfl⟩
abbrev main_v34 : Ref sig .tc := ⟨.hbm, 64, rfl⟩
abbrev main_cst_2 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_3 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_4 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_5 : Ref sig .tc := ⟨.hbm, 90, rfl⟩
abbrev main_v57 : Ref sig .tc := ⟨.hbm, 91, rfl⟩
abbrev main_cst_6 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_7 : Ref sig .tc := ⟨.hbm, 99, rfl⟩
abbrev main_v64 : Ref sig .tc := ⟨.hbm, 100, rfl⟩
abbrev main_cst_8 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_9 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_call2_cst : Ref sig .tc := ⟨.hbm, 124, rfl⟩
abbrev main_call2_v0 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_10 : Ref sig .tc := ⟨.hbm, 132, rfl⟩
abbrev main_v92 : Ref sig .tc := ⟨.hbm, 133, rfl⟩
abbrev main_cst_11 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_12 : Ref sig .tc := ⟨.hbm, 141, rfl⟩
abbrev main_v99 : Ref sig .tc := ⟨.hbm, 142, rfl⟩
abbrev main_cst_13 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_14 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S50000x125_S50000x3_S50000x128_d1 : Shape.Concatenates [S50000x125, S50000x3] S50000x128 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  dot_S50000x128_S128x128_S50000x128_1_0_0_1_n_n_wf : DotDims.WF S50000x128 S128x128 S50000x128 [1] [0] [0] [1] [] []
  dot_S600000x4_S4x128_S600000x128_1_0_0_1_n_n_wf : DotDims.WF S600000x4 S4x128 S600000x128 [1] [0] [0] [1] [] []
  dot_S600000x128_S128x128_S600000x128_1_0_0_1_n_n_wf : DotDims.WF S600000x128 S128x128 S600000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S600000x4_S4x128_S600000x128_1_0_0_1_n_n : DotDims S600000x4 S4x128 S600000x128 where
  lhsContracting := [1]
  rhsContracting := [0]
  lhsNonContracting := [0]
  rhsNonContracting := [1]
  lhsBatch := []
  rhsBatch := []
  wf := dot_S600000x4_S4x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Stages.lean ====
/-
  The five places where the two programs meet.

  The kernel program computes, on each core, five arrays one after the other, each by one tiled kernel launch:
  the node transform `h`, the per-edge modulated features, the scaled aggregate plus the residual (the input of the
  first batch normalisation), the feed-forward block's output plus its input (the input of the second batch
  normalisation), and the final normalised result. Between the launches it applies host operations (a row gather,
  two segment sums, the column means and variances) that the reference applies in the same form.

  The reference computes the same five arrays as stages of one straight-line host program. This module names,
  for a launch memory `m` of the kernel program and a core `c`, the reference's five stage values at the kernel's
  own argument arrays, and states for each launch the equation "the array the launch leaves is the reference's
  stage". Each equation is proved in its own module from the previous one; the last one is the claim's result.
-/
import proofs.«159312_j3624952397870_2_alg».proof.Proof.Gen.KernelIdeal.Frame
import proofs.«159312_j3624952397870_2_alg».proof.Proof.RefRead

noncomputable section

namespace Cert.Stages

open Idealize.ShloMosaic Idealize.ShloMosaic.TcCoe Idealize.SL.Sem
open Cert.KernelIdeal Cert.KernelIdeal.Gen

/-- A launch memory of the kernel program at the exact instance. -/
abbrev KMem := (ℓ : Loc nD τ sig) → Buf (Elt Ideal) ℓ

variable (m : KMem) (ρ : Dev nD → PrngReg) (c : Dev nD)

/-! ## The kernel program's argument arrays on core `c` -/

abbrev x0 := m ((c : Thread nD τ).loc main_arg0)
abbrev x1 := m ((c : Thread nD τ).loc main_arg1)
abbrev x2 := m ((c : Thread nD τ).loc main_arg2)
abbrev x3 := m ((c : Thread nD τ).loc main_arg3)
abbrev x4 := m ((c : Thread nD τ).loc main_arg4)
abbrev x5 := m ((c : Thread nD τ).loc main_arg5)
abbrev x6 := m ((c : Thread nD τ).loc main_arg6)
abbrev x7 := m ((c : Thread nD τ).loc main_arg7)
abbrev x8 := m ((c : Thread nD τ).loc main_arg8)
abbrev x9 := m ((c : Thread nD τ).loc main_arg9)
abbrev x10 := m ((c : Thread nD τ).loc main_arg10)
abbrev x11 := m ((c : Thread nD τ).loc main_arg11)
abbrev x12 := m ((c : Thread nD τ).loc main_arg12)
abbrev x13 := m ((c : Thread nD τ).loc main_arg13)
abbrev x14 := m ((c : Thread nD τ).loc main_arg14)
abbrev x15 := m ((c : Thread nD τ).loc main_arg15)
abbrev x16 := m ((c : Thread nD τ).loc main_arg16)
abbrev x17 := m ((c : Thread nD τ).loc main_arg17)
abbrev x18 := m ((c : Thread nD τ).loc main_arg18)
abbrev x19 := m ((c : Thread nD τ).loc main_arg19)
abbrev x20 := m ((c : Thread nD τ).loc main_arg20)
abbrev x21 := m ((c : Thread nD τ).loc main_arg21)

/-! ## The reference's five stages at those arrays -/

/-- The node transform: relu(h0 · Wd + bd) · Wp + bp, with h0 the features joined with the pseudo-coordinates. -/
abbrev refNode : Cert.ReferenceIdeal.S50000x128.Idx → EReal :=
  Cert.ReferenceIdeal.Read.val_main_v13 (F := Ideal) (x0 m c) (x2 m c) (x3 m c) (x4 m c) (x5 m c) (x6 m c)

/-- The per-edge features: the gathered destination rows of the node transform times the edge modulation. -/
abbrev refEdge : Cert.ReferenceIdeal.S600000x128.Idx → EReal :=
  Cert.ReferenceIdeal.Read.val_main_v30 (F := Ideal) (x0 m c) (x1 m c) (x2 m c) (x3 m c) (x4 m c) (x5 m c) (x6 m c)
    (x7 m c) (x8 m c) (x9 m c) (x10 m c) (x21 m c)

/-- The degree-scaled segment mean plus the residual: the input of the first normalisation. -/
abbrev refPre1 : Cert.ReferenceIdeal.S50000x128.Idx → EReal :=
  Cert.ReferenceIdeal.Read.val_main_v56 (F := Ideal) (x0 m c) (x1 m c) (x2 m c) (x3 m c) (x4 m c) (x5 m c) (x6 m c)
    (x7 m c) (x8 m c) (x9 m c) (x10 m c) (x11 m c) (x12 m c) (x21 m c)

/-- The feed-forward block of the first normalisation's output, plus that output: the input of the second. -/
abbrev refPre2 : Cert.ReferenceIdeal.S50000x128.Idx → EReal :=
  Cert.ReferenceIdeal.Read.val_main_v91 (F := Ideal) (x0 m c) (x1 m c) (x2 m c) (x3 m c) (x4 m c) (x5 m c) (x6 m c)
    (x7 m c) (x8 m c) (x9 m c) (x10 m c) (x11 m c) (x12 m c) (x13 m c) (x14 m c) (x15 m c) (x16 m c) (x17 m c)
    (x18 m c) (x21 m c)

/-- The result: the second normalisation. -/
abbrev refOut : Cert.ReferenceIdeal.S50000x128.Idx → EReal :=
  Cert.ReferenceIdeal.Read.val_main_v116 (F := Ideal) (x0 m c) (x1 m c) (x2 m c) (x3 m c) (x4 m c) (x5 m c) (x6 m c)
    (x7 m c) (x8 m c) (x9 m c) (x10 m c) (x11 m c) (x12 m c) (x13 m c) (x14 m c) (x15 m c) (x16 m c) (x17 m c)
    (x18 m c) (x19 m c) (x20 m c) (x21 m c)

/-! ## The five equations: what each launch leaves is the reference's stage -/

/-- After the first launch the node-transform array holds the reference's node transform. -/
def AfterNode : Prop := W2 (F := Ideal) m ρ c (Proc.devRef .tc main_v19) = refNode m c
/-- After the second launch the edge array holds the reference's per-edge features. -/
def AfterEdge : Prop := W4 (F := Ideal) m ρ c (Proc.devRef .tc main_v31) = refEdge m c
/-- After the third launch: the input of the first normalisation. -/
def AfterScale : Prop := W6 (F := Ideal) m ρ c (Proc.devRef .tc main_v40) = refPre1 m c
/-- After the fourth launch: the input of the second normalisation. -/
def AfterFfn : Prop := W8 (F := Ideal) m ρ c (Proc.devRef .tc main_v52) = refPre2 m c
/-- After the fifth launch: the result. -/
def AfterNorm : Prop := W10 (F := Ideal) m ρ c (Proc.devRef .tc main_v64) = refOut m c

end Cert.Stages

end
-- ==== Proof.KernelRun.lean ====
/-
  The kernel program's run, with its result named.

  On every core the program's last launch leaves the result array at the contents the chain of launches and host
  stretches computes (the last boundary's contents of that buffer), and the argument arrays end as launched. This
  is the same launch argument that shows the arguments unchanged — every launch and every host stretch carries
  all unscoped buffers from one boundary's contents to the next — read once more at the result buffer.
-/
import proofs.«159312_j3624952397870_2_alg».proof.Proof.Gen.KernelIdeal.Frame

set_option maxRecDepth 16384

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program ends, nothing faulting, with the result buffer at the last
    boundary's contents and the arguments as launched. -/
theorem run : θ_run defs (onTc (τ := τ) (main (F := F))) ⟨m, fun _ => 0, ρ⟩ (fun r => ∀ c : Dev nD,
      r.2.mem ((c.tc : Thread nD τ).loc main_v64) = W10 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v64 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c),
       (h c _ (mem_uc main_arg19 (by decide))).trans (W10_main_arg19 m ρ c),
       (h c _ (mem_uc main_arg20 (by decide))).trans (W10_main_arg20 m ρ c),
       (h c _ (mem_uc main_arg21 (by decide))).trans (W10_main_arg21 m ρ c)⟩)

end Cert.KernelRun

end
-- ==== Proof.Claims.lean ====
/-
  The claims, from the two runs and the last stage equation.

  The three frames are the programs' runs with the result forgotten. The idealisation rewrote nothing, so there is
  nothing to preserve. For the value claim, both programs are run from memories that agree on the arguments: the
  kernel program's run ends with its result buffer at the contents its chain of launches computes, the
  reference's with its result at its last stage of its own arguments; the agreement of the arguments makes the
  latter the last stage at the kernel's arguments, and the last stage equation says the former is that too.
-/
import proofs.«159312_j3624952397870_2_alg».proof.Defs
import proofs.«159312_j3624952397870_2_alg».proof.Proof.Gen.Kernel.Frame
import proofs.«159312_j3624952397870_2_alg».proof.Proof.Gen.KernelIdeal.Frame
import proofs.«159312_j3624952397870_2_alg».proof.Proof.Gen.ReferenceIdeal
import proofs.«159312_j3624952397870_2_alg».proof.Proof.Gen.Pre_finite_inputs
import proofs.«159312_j3624952397870_2_alg».proof.Proof.RefRead
import proofs.«159312_j3624952397870_2_alg».proof.Proof.Stages
import proofs.«159312_j3624952397870_2_alg».proof.Proof.KernelRun

noncomputable section

namespace Cert.Claims

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The value claim, given that on every core the last launch leaves the reference's last stage at the kernel's
    own arguments. -/
theorem algebraic
    (hres : ∀ (m : Cert.Stages.KMem) (ρ : Dev Cert.KernelIdeal.nD → PrngReg) (c : Dev Cert.KernelIdeal.nD),
      Cert.Stages.AfterNorm m ρ c) :
    Cert.algebraic_KernelIdeal_ReferenceIdeal := by
  intro m ρ m' ρ' _ hagree
  refine ⟨fun c => Cert.Stages.refOut m c, ?_, ?_⟩
  · exact (θ_run Cert.KernelIdeal.defs _ _).mono (fun r h c => ⟨(h c).1.trans (hres m ρ c), (h c).2⟩)
      (Cert.KernelRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20, e21⟩ := hagree c
    rw [Cert.ReferenceIdeal.Read.val_main_v116_eq, e0, e1, e2, e3, e4, e5, e6, e7, e8, e9, e10, e11, e12, e13, e14, e15, e16, e17, e18, e19, e20, e21]

end Cert.Claims

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotSums.lean ====
/-
  Matrix products at the exact values, read entry by entry.

  For operands of shapes [A, K] and [K, B] whose dimension numbers say "no batch axes, contract axis 1 of the left
  against axis 0 of the right", both the in-kernel product accumulated into a zero tile and the host's `dot_general`
  have, at the entry (p, q), the value `∑ k < K, x (p, k) * y (k, q)`: over the extended reals neither carries a rounding
  or an order of summation, so the two are the same finite sum. The re-indexing of the contraction's own index set to
  `Fin K` is the rows-by-columns lemma for such records.
-/
import proofs.«159312_j3624952397870_2_alg».proof.Proof.LibPlainDot

open scoped BigOperators

namespace Cert.DotSums

open Idealize.ShloMosaic Idealize.ShloMosaic.ValueIdx

variable {A K B : Nat} (d : DotDims ⟨2, ![A, K]⟩ ⟨2, ![K, B]⟩ ⟨2, ![A, B]⟩)

/-- The in-kernel product into a zero accumulator, at (p, q): the plain sum along row p and column q. -/
theorem matmul_zero_ix2 {φ₁ φ₂ : FTy} (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.matmul d prec x y (constant ⟨2, ![A, B]⟩ .f32 0x00000000#32) (ix2 p q)
      = ∑ k : Fin K, (x (ix2 p k) : EReal) * (y (ix2 k q) : EReal) :=
  (Ideal.matmul_constant_zero_apply d prec x y (ix2 p q)).trans
    (Cert.PlainDot.sum_eq d hlb hln hlc hrb hrn hrc hr hs x y p q)

/-- The host's `dot_general`, at (p, q): the same plain sum, whatever the schedule key. -/
theorem dotGeneral_ix2 {φ₁ φ₂ : FTy} (prec : Option ContractPrecision) (sched : HostSchedule)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.dotGeneral d prec sched x y (ix2 p q)
      = ∑ k : Fin K, (x (ix2 p k) : EReal) * (y (ix2 k q) : EReal) :=
  (Ideal.dotGeneral_apply d prec sched x y (ix2 p q)).trans
    (Cert.PlainDot.sum_eq d hlb hln hlc hrb hrn hrc hr hs x y p q)

end Cert.DotSums
-- ==== Proof.NodePayload.lean ====
/-
  What one row tile of the node transform stores, entry by entry.

  The tile holds 2000 rows of the joined features h0. With Wd, Wp the two weight matrices and bd, bp the two bias rows,
  the stored entry at (r, j) is
      (∑ k, max ((∑ l, h0 (r, l) * Wd (l, k)) + bd (0, k)) 0 * Wp (k, j)) + bp (0, j):
  a product into a zero tile is the plain sum of products, a row repeated down the tile reads its own entry of the
  column, the narrowing casts are the identity on the exact values, and the rectifier is the maximum with the zero word.
-/
import proofs.«159312_j3624952397870_2_alg».proof.Proof.Gen.KernelIdeal.Frame
import proofs.«159312_j3624952397870_2_alg».proof.Proof.LibDotSums
import Idealize.ShloMosaic.Lib.ValueLayout

open scoped BigOperators

noncomputable section

namespace Cert.NodePayload

open Idealize.ShloMosaic Idealize.ShloMosaic.ValueIdx
open Cert.KernelIdeal Cert.KernelIdeal.Gen

theorem zero_offsets : (![0, 0] : Fin 2 → Nat) = fun _ => 0 := funext fun a => by fin_cases a <;> rfl

/-- The tile's stored entry at (r, j). -/
theorem stored_apply (x0 : Vec Ideal S2000x128 .f32) (x1 : Vec Ideal S128x128 .bf16) (x2 : Vec Ideal S1x128 .f32)
    (x3 : Vec Ideal S128x128 .bf16) (x4 : Vec Ideal S1x128 .f32) (r : Fin 2000) (j : Fin 128) :
    out0_5 x0 x1 x2 x3 x4 (ix2 r j)
      = (∑ k : Fin 128, max ((∑ l : Fin 128, x0 (ix2 r l) * x1 (ix2 l k)) + x2 (ix2 (0 : Fin 1) k))
            (Ideal.ofBits .f32 0x00000000#32) * x3 (ix2 k j)) + x4 (ix2 (0 : Fin 1) j) := by
  unfold out0_5
  rw [View.canon_unit_zero zero_offsets]
  simp only [View.ld_unit_zero (S := S2000x128) zero_offsets, View.ld_unit_zero (S := S128x128) zero_offsets,
    View.ld_unit_zero (S := S1x128) zero_offsets]
  unfold k0_pay1
  simp only [shapeCast_self]
  rw [addf_apply, broadcastTo_1b_ab_apply]
  refine congrArg (· + x4 (ix2 (0 : Fin 1) j)) ?_
  refine (Cert.DotSums.matmul_zero_ix2 (A := 2000) (K := 128) (B := 128) (φ₁ := .bf16) (φ₂ := .bf16)
    dot_S2000x128_S128x128_S2000x128_1_0_0_1_n_n none rfl rfl rfl rfl rfl rfl rfl rfl _ x3 r j).trans ?_
  refine Finset.sum_congr rfl fun k _ => ?_
  refine congrArg (· * x3 (ix2 k j)) ?_
  rw [truncf_apply, maximumf_apply, addf_apply, broadcast_apply, broadcastTo_1b_ab_apply]
  refine congrArg (fun z => max (z + x2 (ix2 (0 : Fin 1) k)) (Ideal.ofBits .f32 0x00000000#32)) ?_
  refine (Cert.DotSums.matmul_zero_ix2 (A := 2000) (K := 128) (B := 128) (φ₁ := .bf16) (φ₂ := .bf16)
    dot_S2000x128_S128x128_S2000x128_1_0_0_1_n_n none rfl rfl rfl rfl rfl rfl rfl rfl _ x1 r k).trans ?_
  rfl

end Cert.NodePayload

end
-- ==== Proof.NodeBlocks.lean ====
/-
  Where one row tile of the node transform reads and writes, and what it writes back.

  Tile t of the 25 row tiles reads rows 2000 t … 2000 t + 1999 of the joined features and the whole of the two weight
  matrices and the two bias rows, and writes back rows 2000 t … 2000 t + 1999 of the result. So what it writes back is
  the block of ONE function of the arrays the launch finds: at (n, j),
      (∑ k, max ((∑ l, h0 (n, l) * Wd (l, k)) + bd (0, k)) 0 * Wp (k, j)) + bp (0, j).
  The 25 blocks tile the 50000 rows, so the result array ends holding that function.
-/
import proofs.«159312_j3624952397870_2_alg».proof.Proof.NodePayload
import Idealize.ShloMosaic.Lib.Pipeline.Value

set_option maxRecDepth 16384

open scoped BigOperators

noncomputable section

namespace Cert.NodeBlocks

open Idealize.ShloMosaic Idealize.ShloMosaic.TcCoe Idealize.ShloMosaic.ValueIdx Idealize.SL.Sem
open Idealize.ShloMosaic.Pipeline (Dat)
open Cert.KernelIdeal Cert.KernelIdeal.Gen

/-- The node transform of a feature array with given weights and bias rows, entry by entry. -/
def nodeOf (h0 : S50000x128.Idx → EReal) (wd : S128x128.Idx → EReal) (bd : S1x128.Idx → EReal)
    (wp : S128x128.Idx → EReal) (bp : S1x128.Idx → EReal) : S50000x128.Idx → EReal := fun i =>
  (∑ k : Fin 128, max ((∑ l : Fin 128, h0 (ix2 (i 0 : Fin 50000) l) * wd (ix2 l k)) + bd (ix2 (0 : Fin 1) k))
      (Ideal.ofBits .f32 0x00000000#32) * wp (ix2 k (i 1 : Fin 128))) + bp (ix2 (0 : Fin 1) (i 1 : Fin 128))

/-- The block index maps over the grid: the feature and result windows move down one tile per point, the weights and
    bias rows stay. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- A tile's row number in the whole array. -/
theorem row_lt (t : Fin cfg0.N) (r : Fin 2000) : t.val * 2000 + r.val < 50000 := by
  have ht : t.val < 25 := lt_of_lt_of_eq t.isLt (show cfg0.N = 25 from N_0)
  have hr := r.isLt
  omega

/-- Row r of the tile's feature block is row 2000 t + r of the feature array. -/
theorem features_read (c : Dev nD) (t : Fin cfg0.N) (r : Fin 2000) (l : Fin 128) :
    iblk0 V c 0 t (ix2 r l) = V c main_v0 (ix2 (⟨t.val * 2000 + r.val, row_lt t r⟩ : Fin 50000) l) := by
  obtain ⟨e0, e1, -⟩ := index_facts t
  show V c main_v0 (((cfg0.win 0).blk t).view.emb (ix2 r l)) = _
  refine congrArg (V c main_v0) (funext fun a => Fin.ext ?_)
  match a with
  | ⟨0, _⟩ => show win0_0.index t (0 : Fin 2) * 2000 + 1 * r.val = t.val * 2000 + r.val; omega
  | ⟨1, _⟩ => show win0_0.index t (1 : Fin 2) * 128 + 1 * l.val = l.val; omega

/-- The first weight matrix is read whole. -/
theorem weights1_read (c : Dev nD) (t : Fin cfg0.N) (l k : Fin 128) :
    iblk0 V c 1 t (ix2 l k) = V c main_v13 (ix2 l k) := by
  obtain ⟨-, -, e0, e1, -⟩ := index_facts t
  show V c main_v13 (((cfg0.win 1).blk t).view.emb (ix2 l k)) = _
  refine congrArg (V c main_v13) (funext fun a => Fin.ext ?_)
  match a with
  | ⟨0, _⟩ => show win0_1.index t (0 : Fin 2) * 128 + 1 * l.val = l.val; omega
  | ⟨1, _⟩ => show win0_1.index t (1 : Fin 2) * 128 + 1 * k.val = k.val; omega

/-- The first bias row is read whole. -/
theorem bias1_read (c : Dev nD) (t : Fin cfg0.N) (k : Fin 128) :
    iblk0 V c 2 t (ix2 (0 : Fin 1) k) = V c main_v1 (ix2 (0 : Fin 1) k) := by
  obtain ⟨-, -, -, -, e0, e1, -⟩ := index_facts t
  show V c main_v1 (((cfg0.win 2).blk t).view.emb (ix2 (0 : Fin 1) k)) = _
  refine congrArg (V c main_v1) (funext fun a => Fin.ext ?_)
  match a with
  | ⟨0, _⟩ => show win0_2.index t (0 : Fin 2) * 1 + 1 * 0 = 0; omega
  | ⟨1, _⟩ => show win0_2.index t (1 : Fin 2) * 128 + 1 * k.val = k.val; omega

/-- The second weight matrix is read whole. -/
theorem weights2_read (c : Dev nD) (t : Fin cfg0.N) (k j : Fin 128) :
    iblk0 V c 3 t (ix2 k j) = V c main_v14 (ix2 k j) := by
  obtain ⟨-, -, -, -, -, -, e0, e1, -⟩ := index_facts t
  show V c main_v14 (((cfg0.win 3).blk t).view.emb (ix2 k j)) = _
  refine congrArg (V c main_v14) (funext fun a => Fin.ext ?_)
  match a with
  | ⟨0, _⟩ => show win0_3.index t (0 : Fin 2) * 128 + 1 * k.val = k.val; omega
  | ⟨1, _⟩ => show win0_3.index t (1 : Fin 2) * 128 + 1 * j.val = j.val; omega

/-- The second bias row is read whole. -/
theorem bias2_read (c : Dev nD) (t : Fin cfg0.N) (j : Fin 128) :
    iblk0 V c 4 t (ix2 (0 : Fin 1) j) = V c main_v2 (ix2 (0 : Fin 1) j) := by
  obtain ⟨-, -, -, -, -, -, -, -, e0, e1, -⟩ := index_facts t
  show V c main_v2 (((cfg0.win 4).blk t).view.emb (ix2 (0 : Fin 1) j)) = _
  refine congrArg (V c main_v2) (funext fun a => Fin.ext ?_)
  match a with
  | ⟨0, _⟩ => show win0_4.index t (0 : Fin 2) * 1 + 1 * 0 = 0; omega
  | ⟨1, _⟩ => show win0_4.index t (1 : Fin 2) * 128 + 1 * j.val = j.val; omega

/-- Entry (r, j) of the tile's result block is entry (2000 t + r, j) of the result array. -/
theorem result_emb (t : Fin cfg0.N) (r : Fin 2000) (j : Fin 128) :
    ((cfg0.win 5).blk t).view.emb (ix2 r j) = (ix2 (⟨t.val * 2000 + r.val, row_lt t r⟩ : Fin 50000) j : S50000x128.Idx) := by
  obtain ⟨-, -, -, -, -, -, -, -, -, -, e0, e1⟩ := index_facts t
  refine funext fun a => Fin.ext ?_
  match a with
  | ⟨0, _⟩ => show win0_5.index t (0 : Fin 2) * 2000 + 1 * r.val = t.val * 2000 + r.val; omega
  | ⟨1, _⟩ => show win0_5.index t (1 : Fin 2) * 128 + 1 * j.val = j.val; omega

/-- WHAT TILE t WRITES BACK is block t of the node transform of the arrays the launch finds. -/
theorem flushed_eq (c : Dev nD) (t : Fin cfg0.N) :
    (dat0 V c).flushed 5 t = ((cfg0.win 5).blk t).view.read (Elt Ideal)
      (nodeOf (V c main_v0) (V c main_v13) (V c main_v1) (V c main_v14) (V c main_v2)) := by
  show (cfg0.win 5).cut (grid0.coords t) ((dat0 V c).after 5 t) = _
  rw [after0_5]
  funext y
  obtain ⟨r, j, rfl⟩ : ∃ (r : Fin 2000) (j : Fin 128), y = ix2 r j := ⟨y 0, y 1, eq_ix2 y⟩
  show out0_5 (iblk0 V c 0 t) (iblk0 V c 1 t) (iblk0 V c 2 t) (iblk0 V c 3 t) (iblk0 V c 4 t) (ix2 r j)
    = nodeOf (V c main_v0) (V c main_v13) (V c main_v1) (V c main_v14) (V c main_v2) (((cfg0.win 5).blk t).view.emb (ix2 r j))
  rw [Cert.NodePayload.stored_apply, result_emb]
  simp only [features_read, weights1_read, bias1_read, weights2_read, bias2_read]
  rfl

end Cert.NodeBlocks

end
-- ==== Proof.NodeCover.lean ====
/-
  The 25 row tiles of the node transform fill its result array.

  Row n of the 50000 rows lies in the block of tile n / 2000, and every tile writes its block back. So after the
  launch the result array holds the node transform of the arrays the launch found.
-/
import proofs.«159312_j3624952397870_2_alg».proof.Proof.NodeBlocks

set_option maxRecDepth 16384

noncomputable section

namespace Cert.NodeBlocks

open Idealize.ShloMosaic Idealize.ShloMosaic.TcCoe Idealize.ShloMosaic.ValueIdx Idealize.SL.Sem
open Idealize.ShloMosaic.Pipeline (Dat)
open Cert.KernelIdeal Cert.KernelIdeal.Gen

/-- An index of the result array is in tile t's block iff each coordinate is in the block's range on its axis. -/
theorem mem_block (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v19).slice (win0_5.rect t)).set ↔ _
  rw [View.set_slice_whole, Rect.mem_set_unit]
  exact Iff.rfl

/-- Every entry of the result array is in the block of the tile its row falls in. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hlt : (i 0).val / 2000 < cfg0.N := by rw [show cfg0.N = 25 from N_0]; omega
  obtain ⟨-, -, -, -, -, -, -, -, -, -, e0, e1⟩ := index_facts ⟨(i 0).val / 2000, hlt⟩
  have e0' : win0_5.index ⟨(i 0).val / 2000, hlt⟩ (0 : Fin 2) = (i 0).val / 2000 := e0
  refine ⟨⟨(i 0).val / 2000, hlt⟩, flush0_5 _, ?_⟩
  rw [mem_block]
  intro a
  match a with
  | ⟨0, _⟩ =>
    show win0_5.index ⟨(i 0).val / 2000, hlt⟩ (0 : Fin 2) * 2000 ≤ (i 0).val
      ∧ (i 0).val < win0_5.index ⟨(i 0).val / 2000, hlt⟩ (0 : Fin 2) * 2000 + 2000
    omega
  | ⟨1, _⟩ =>
    show win0_5.index ⟨(i 0).val / 2000, hlt⟩ (1 : Fin 2) * 128 ≤ (i 1).val
      ∧ (i 1).val < win0_5.index ⟨(i 0).val / 2000, hlt⟩ (1 : Fin 2) * 128 + 128
    omega

variable (V : (c : Dev nD) → (b : Ref sig .tc) → Buf (Elt Ideal) ((c : Thread nD τ).loc b))

/-- THE RESULT ARRAY after the launch: the node transform of the arrays the launch found. -/
theorem array_eq (c : Dev nD) :
    (dat0 V c).arrAt 5 cfg0.N = nodeOf (V c main_v0) (V c main_v13) (V c main_v1) (V c main_v14) (V c main_v2) :=
  (dat0 V c).arrAt_eq_of_cover 5 _ (fun t _ => flushed_eq V c t) covered

end Cert.NodeBlocks

end
-- ==== Proof.NodeInputs.lean ====
/-
  The arrays the node-transform launch finds.

  Before the launch the program joins the node features with the pseudo-coordinates, lays each bias vector out as a
  one-row matrix, and narrows the weight matrices. Each of these arrays is read off the launch memory here: the joined
  features as the join of the two argument arrays, each bias row as its argument vector recast to one row, each narrowed
  weight matrix as the narrowing of its argument matrix.
-/
import proofs.«159312_j3624952397870_2_alg».proof.Proof.Gen.KernelIdeal.Frame
import Idealize.ShloMosaic.PureOps.Ideal.Laws

set_option maxRecDepth 16384

noncomputable section

namespace Cert.NodeInputs

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The joined features. -/
theorem features :
    (V1 m ρ c main_v0 : S50000x128.Idx → EReal)
      = concatenate S50000x128 1 [⟨S50000x125, m ((c : Thread nD τ).loc main_arg0)⟩, ⟨S50000x3, m ((c : Thread nD τ).loc main_arg2)⟩]
          concatenates_S50000x125_S50000x3_S50000x128_d1 := by
  show StableHlo.after hostOps0 (W0 m ρ c) (Proc.devRef .tc main_v0) = _
  after_results

/-- The first weight matrix, narrowed. -/
theorem weights1 :
    @Eq (FVec Ideal S128x128 .bf16) (V1 m ρ c main_v13)
      (truncf .bf16 (m ((c : Thread nD τ).loc main_arg3) : FVec Ideal S128x128 .f32) bitsLt_bf16_f32) := by
  show StableHlo.after hostOps0 (W0 m ρ c) (Proc.devRef .tc main_v13) = _
  after_results
  try rfl

/-- The first bias vector as a row. -/
theorem bias1 :
    (V1 m ρ c main_v1 : S1x128.Idx → EReal) = shapeCast S1x128 (m ((c : Thread nD τ).loc main_arg4)) shapeCasts_S128_S1x128 := by
  show StableHlo.after hostOps0 (W0 m ρ c) (Proc.devRef .tc main_v1) = _
  after_results
  try rfl

/-- The second weight matrix, narrowed. -/
theorem weights2 :
    @Eq (FVec Ideal S128x128 .bf16) (V1 m ρ c main_v14)
      (truncf .bf16 (m ((c : Thread nD τ).loc main_arg5) : FVec Ideal S128x128 .f32) bitsLt_bf16_f32) := by
  show StableHlo.after hostOps0 (W0 m ρ c) (Proc.devRef .tc main_v14) = _
  after_results
  try rfl

/-- The second bias vector as a row. -/
theorem bias2 :
    (V1 m ρ c main_v2 : S1x128.Idx → EReal) = shapeCast S1x128 (m ((c : Thread nD τ).loc main_arg6)) shapeCasts_S128_S1x128 := by
  show StableHlo.after hostOps0 (W0 m ρ c) (Proc.devRef .tc main_v2) = _
  after_results
  try rfl

end Cert.NodeInputs

end
-- ==== Proof.NodeRef.lean ====
/-
  The reference's node transform, entry by entry.

  The reference computes relu(h0 · Wd + bd) · Wp + bp on the whole arrays, with h0 the node features joined with the
  pseudo-coordinates. Read at (n, j), its two matrix products are the plain sums of products, its two bias
  vectors — placed as one row and repeated down the rows — read their entry of the column, and its rectifier is the
  maximum with the zero word. That is the node transform of the joined array with the weights and the bias rows:
  a weight matrix narrowed entry by entry is itself at the exact values, and a vector recast to one row reads the same
  entries as the vector placed as one row.
-/
import proofs.«159312_j3624952397870_2_alg».proof.Proof.RefRead
import proofs.«159312_j3624952397870_2_alg».proof.Proof.NodeBlocks

open scoped BigOperators

noncomputable section

namespace Cert.NodeRef

open Idealize.ShloMosaic Idealize.ShloMosaic.ValueIdx
open Cert.ReferenceIdeal Cert.ReferenceIdeal.Read

/-- The reference's node transform is the node transform of the joined features, the (narrowed) weights and the bias
    vectors recast as rows. -/
theorem node_eq (x0 : (⟨S50000x125, .f32⟩ : BufTy).Contents (Elt Ideal)) (x2 : (⟨S50000x3, .f32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (hb : FTy.bf16.bits < FTy.f32.bits) (hs : (⟨1, ![128]⟩ : Shape).ShapeCasts ⟨2, ![1, 128]⟩) :
    val_main_v13 (F := Ideal) x0 x2 x3 x4 x5 x6
      = Cert.NodeBlocks.nodeOf (val_main_v4 (F := Ideal) x0 x2) (truncf (F := Ideal) .bf16 (x3 : FVec Ideal S128x128 .f32) hb)
          (shapeCast ⟨2, ![1, 128]⟩ x4 hs) (truncf (F := Ideal) .bf16 (x5 : FVec Ideal S128x128 .f32) hb) (shapeCast ⟨2, ![1, 128]⟩ x6 hs) := by
  funext i
  obtain ⟨n, j, rfl⟩ : ∃ (n : Fin 50000) (j : Fin 128), i = ix2 n j := ⟨i 0, i 1, eq_ix2 i⟩
  have el10 : ∀ k : Fin 128, lidx_main_v10 (ix2 n j) k = ix2 n k := fun k =>
    funext fun a => Fin.ext (by match a with | ⟨0, _⟩ => rfl | ⟨1, _⟩ => rfl)
  have er10 : ∀ k : Fin 128, ridx_main_v10 (ix2 n j) k = ix2 k j := fun k =>
    funext fun a => Fin.ext (by match a with | ⟨0, _⟩ => rfl | ⟨1, _⟩ => rfl)
  have el5 : ∀ k l : Fin 128, lidx_main_v5 (ix2 n k) l = ix2 n l := fun k l =>
    funext fun a => Fin.ext (by match a with | ⟨0, _⟩ => rfl | ⟨1, _⟩ => rfl)
  have er5 : ∀ k l : Fin 128, ridx_main_v5 (ix2 n k) l = ix2 l k := fun k l =>
    funext fun a => Fin.ext (by match a with | ⟨0, _⟩ => rfl | ⟨1, _⟩ => rfl)
  have eb2 : idx_main_v11 (idx_main_v12 (ix2 n j)) = ix1 j :=
    funext fun a => Fin.ext (by match a with | ⟨0, _⟩ => rfl)
  have eb1 : ∀ k : Fin 128, idx_main_v6 (idx_main_v7 (ix2 n k)) = ix1 k := fun k =>
    funext fun a => Fin.ext (by match a with | ⟨0, _⟩ => rfl)
  rw [val_main_v13_apply, val_main_v10_apply, val_main_v12_apply, val_main_v11_apply]
  simp only [el10, er10, eb2, val_main_v9_apply, val_main_v8_apply, val_main_v5_apply, val_main_v7_apply,
    val_main_v6_apply, val_main_call0_v0_apply, val_main_call0_cst_apply, el5, er5, eb1]
  unfold Cert.NodeBlocks.nodeOf
  rw [shapeCast_a_1a_apply x6 hs (0 : Fin 1) j]
  simp only [shapeCast_a_1a_apply x4 hs (0 : Fin 1)]
  rfl

end Cert.NodeRef

end
-- ==== Proof.NodeStage.lean ====
/-
  After the first launch the node-transform array holds the reference's node transform.

  The launch leaves in its result array the node transform of the arrays it finds: the joined features, the narrowed
  weight matrices and the bias rows. Those are the join, the narrowings and the one-row layouts of the program's
  arguments, and the reference's node transform is the same function of the same arrays.
-/
import proofs.«159312_j3624952397870_2_alg».proof.Proof.Stages
import proofs.«159312_j3624952397870_2_alg».proof.Proof.NodeCover
import proofs.«159312_j3624952397870_2_alg».proof.Proof.NodeInputs
import proofs.«159312_j3624952397870_2_alg».proof.Proof.NodeRef

set_option maxRecDepth 16384

noncomputable section

namespace Cert.NodeStage

open Idealize.ShloMosaic Idealize.ShloMosaic.TcCoe Idealize.SL.Sem
open Cert.KernelIdeal Cert.KernelIdeal.Gen

/-- After the first launch the node-transform array holds the reference's node transform. -/
theorem afterNode (m : Cert.Stages.KMem) (ρ : Dev Cert.KernelIdeal.nD → PrngReg) (c : Dev Cert.KernelIdeal.nD) :
    Cert.Stages.AfterNode m ρ c := by
  unfold Cert.Stages.AfterNode
  refine (show W2 m ρ c (Proc.devRef .tc main_v19) = (dat0 (V1 m ρ) c).arrAt 5 cfg0.N from W2_arr m ρ c 5).trans ?_
  rw [Cert.NodeBlocks.array_eq (V1 m ρ) c, Cert.NodeInputs.features m ρ c, Cert.NodeInputs.weights1 m ρ c,
    Cert.NodeInputs.bias1 m ρ c, Cert.NodeInputs.weights2 m ρ c, Cert.NodeInputs.bias2 m ρ c]
  exact (Cert.NodeRef.node_eq _ _ _ _ _ _ bitsLt_bf16_f32 shapeCasts_S128_S1x128).symm

end Cert.NodeStage

end
-- ==== Proof.EdgePayload.lean ====
/-
  What one row tile of the edge kernel stores, entry by entry.

  The tile holds 6000 edges: their 4 relative coordinates and the gathered rows of the node transform. With W1, W2 the
  two weight matrices of the edge modulation and b1, b2 its bias rows, the stored entry at (r, j) is
      ((∑ k, max ((∑ l, rel (r, l) * W1 (l, k)) + b1 (0, k)) 0 * W2 (k, j)) + b2 (0, j)) * hdst (r, j):
  a product into a zero tile is the plain sum of products, a row repeated down the tile reads its own entry of the
  column, the narrowing casts are the identity on the exact values, and the rectifier is the maximum with the zero word.
-/
import proofs.«159312_j3624952397870_2_alg».proof.Proof.Gen.KernelIdeal.Frame
import proofs.«159312_j3624952397870_2_alg».proof.Proof.LibDotSums
import Idealize.ShloMosaic.Lib.ValueLayout

open scoped BigOperators

noncomputable section

namespace Cert.EdgePayload

open Idealize.ShloMosaic Idealize.ShloMosaic.ValueIdx
open Cert.KernelIdeal Cert.KernelIdeal.Gen

theorem zero_offsets : (![0, 0] : Fin 2 → Nat) = fun _ => 0 := funext fun a => by fin_cases a <;> rfl

/-- The tile's stored entry at (r, j). -/
theorem stored_apply (x0 : Vec Ideal S6000x4 .f32) (x1 : Vec Ideal S6000x128 .f32) (x2 : Vec Ideal S4x128 .bf16)
    (x3 : Vec Ideal S1x128 .f32) (x4 : Vec Ideal S128x128 .bf16) (x5 : Vec Ideal S1x128 .f32) (r : Fin 6000) (j : Fin 128) :
    out1_6 x0 x1 x2 x3 x4 x5 (ix2 r j)
      = ((∑ k : Fin 128, max ((∑ l : Fin 4, x0 (ix2 r l) * x2 (ix2 l k)) + x3 (ix2 (0 : Fin 1) k))
            (Ideal.ofBits .f32 0x00000000#32) * x4 (ix2 k j)) + x5 (ix2 (0 : Fin 1) j)) * x1 (ix2 r j) := by
  unfold out1_6
  rw [View.canon_unit_zero zero_offsets]
  simp only [View.ld_unit_zero (S := S6000x4) zero_offsets, View.ld_unit_zero (S := S6000x128) zero_offsets,
    View.ld_unit_zero (S := S4x128) zero_offsets, View.ld_unit_zero (S := S128x128) zero_offsets,
    View.ld_unit_zero (S := S1x128) zero_offsets]
  unfold k1_pay1
  simp only [shapeCast_self]
  rw [mulf_apply, addf_apply, broadcastTo_1b_ab_apply]
  refine congrArg (fun z => (z + x5 (ix2 (0 : Fin 1) j)) * x1 (ix2 r j)) ?_
  refine (Cert.DotSums.matmul_zero_ix2 (A := 6000) (K := 128) (B := 128) (φ₁ := .bf16) (φ₂ := .bf16)
    dot_S6000x128_S128x128_S6000x128_1_0_0_1_n_n none rfl rfl rfl rfl rfl rfl rfl rfl _ x4 r j).trans ?_
  refine Finset.sum_congr rfl fun k _ => ?_
  refine congrArg (· * x4 (ix2 k j)) ?_
  rw [truncf_apply, maximumf_apply, addf_apply, broadcast_apply, broadcastTo_1b_ab_apply]
  refine congrArg (fun z => max (z + x3 (ix2 (0 : Fin 1) k)) (Ideal.ofBits .f32 0x00000000#32)) ?_
  refine (Cert.DotSums.matmul_zero_ix2 (A := 6000) (K := 4) (B := 128) (φ₁ := .bf16) (φ₂ := .bf16)
    dot_S6000x4_S4x128_S6000x128_1_0_0_1_n_n none rfl rfl rfl rfl rfl rfl rfl rfl _ x2 r k).trans ?_
  rfl

end Cert.EdgePayload

end
-- ==== Proof.EdgeBlocks.lean ====
/-
  Where one row tile of the edge kernel reads and writes, and what it writes back.

  Tile t of the 100 row tiles reads rows 6000 t … 6000 t + 5999 of the relative coordinates and of the gathered rows
  of the node transform, and the whole of the two weight matrices and the two bias rows, and writes back rows
  6000 t … 6000 t + 5999 of the result. So what it writes back is the block of ONE function of the arrays the launch
  finds: at (e, j),
      ((∑ k, max ((∑ l, rel (e, l) * W1 (l, k)) + b1 (0, k)) 0 * W2 (k, j)) + b2 (0, j)) * hdst (e, j).
-/
import proofs.«159312_j3624952397870_2_alg».proof.Proof.EdgePayload
import Idealize.ShloMosaic.Lib.Pipeline.Value

set_option maxRecDepth 16384

open scoped BigOperators

noncomputable section

namespace Cert.EdgeBlocks

open Idealize.ShloMosaic Idealize.ShloMosaic.TcCoe Idealize.ShloMosaic.ValueIdx Idealize.SL.Sem
open Idealize.ShloMosaic.Pipeline (Dat)
open Cert.KernelIdeal Cert.KernelIdeal.Gen

/-- The modulated edge features from the relative coordinates, the gathered rows, the weights and the bias rows,
    entry by entry. -/
def edgeOf (rel : S600000x4.Idx → EReal) (hdst : S600000x128.Idx → EReal) (w1 : S4x128.Idx → EReal)
    (b1 : S1x128.Idx → EReal) (w2 : S128x128.Idx → EReal) (b2 : S1x128.Idx → EReal) : S600000x128.Idx → EReal := fun i =>
  ((∑ k : Fin 128, max ((∑ l : Fin 4, rel (ix2 (i 0 : Fin 600000) l) * w1 (ix2 l k)) + b1 (ix2 (0 : Fin 1) k))
      (Ideal.ofBits .f32 0x00000000#32) * w2 (ix2 k (i 1 : Fin 128))) + b2 (ix2 (0 : Fin 1) (i 1 : Fin 128)))
    * hdst (ix2 (i 0 : Fin 600000) (i 1 : Fin 128))

/-- The block index maps over the grid: the two per-edge windows and the result window move down one tile per point,
    the weights and bias rows stay. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- A tile's row number in the whole array. -/
theorem row_lt (t : Fin cfg1.N) (r : Fin 6000) : t.val * 6000 + r.val < 600000 := by
  have ht : t.val < 100 := lt_of_lt_of_eq t.isLt (show cfg1.N = 100 from N_1)
  have hr := r.isLt
  omega

/-- Row r of the tile's block of relative coordinates is row 6000 t + r of that array. -/
theorem rel_read (c : Dev nD) (t : Fin cfg1.N) (r : Fin 6000) (l : Fin 4) :
    iblk1 V c 0 t (ix2 r l) = V c main_arg1 (ix2 (⟨t.val * 6000 + r.val, row_lt t r⟩ : Fin 600000) l) := by
  obtain ⟨e0, e1, -⟩ := index_facts t
  show V c main_arg1 (((cfg1.win 0).blk t).view.emb (ix2 r l)) = _
  refine congrArg (V c main_arg1) (funext fun a => Fin.ext ?_)
  match a with
  | ⟨0, _⟩ => show win1_0.index t (0 : Fin 2) * 6000 + 1 * r.val = t.val * 6000 + r.val; omega
  | ⟨1, _⟩ => show win1_0.index t (1 : Fin 2) * 4 + 1 * l.val = l.val; omega

/-- Row r of the tile's block of gathered rows is row 6000 t + r of that array. -/
theorem gathered_read (c : Dev nD) (t : Fin cfg1.N) (r : Fin 6000) (j : Fin 128) :
    iblk1 V c 1 t (ix2 r j) = V c main_v30 (ix2 (⟨t.val * 6000 + r.val, row_lt t r⟩ : Fin 600000) j) := by
  obtain ⟨-, -, e0, e1, -⟩ := index_facts t
  show V c main_v30 (((cfg1.win 1).blk t).view.emb (ix2 r j)) = _
  refine congrArg (V c main_v30) (funext fun a => Fin.ext ?_)
  match a with
  | ⟨0, _⟩ => show win1_1.index t (0 : Fin 2) * 6000 + 1 * r.val = t.val * 6000 + r.val; omega
  | ⟨1, _⟩ => show win1_1.index t (1 : Fin 2) * 128 + 1 * j.val = j.val; omega

/-- The first weight matrix is read whole. -/
theorem weights1_read (c : Dev nD) (t : Fin cfg1.N) (l : Fin 4) (k : Fin 128) :
    iblk1 V c 2 t (ix2 l k) = V c main_v15 (ix2 l k) := by
  obtain ⟨-, -, -, -, e0, e1, -⟩ := index_facts t
  show V c main_v15 (((cfg1.win 2).blk t).view.emb (ix2 l k)) = _
  refine congrArg (V c main_v15) (funext fun a => Fin.ext ?_)
  match a with
  | ⟨0, _⟩ => show win1_2.index t (0 : Fin 2) * 4 + 1 * l.val = l.val; omega
  | ⟨1, _⟩ => show win1_2.index t (1 : Fin 2) * 128 + 1 * k.val = k.val; omega

/-- The first bias row is read whole. -/
theorem bias1_read (c : Dev nD) (t : Fin cfg1.N) (k : Fin 128) :
    iblk1 V c 3 t (ix2 (0 : Fin 1) k) = V c main_v3 (ix2 (0 : Fin 1) k) := by
  obtain ⟨-, -, -, -, -, -, e0, e1, -⟩ := index_facts t
  show V c main_v3 (((cfg1.win 3).blk t).view.emb (ix2 (0 : Fin 1) k)) = _
  refine congrArg (V c main_v3) (funext fun a => Fin.ext ?_)
  match a with
  | ⟨0, _⟩ => show win1_3.index t (0 : Fin 2) * 1 + 1 * 0 = 0; omega
  | ⟨1, _⟩ => show win1_3.index t (1 : Fin 2) * 128 + 1 * k.val = k.val; omega

/-- The second weight matrix is read whole. -/
theorem weights2_read (c : Dev nD) (t : Fin cfg1.N) (k j : Fin 128) :
    iblk1 V c 4 t (ix2 k j) = V c main_v16 (ix2 k j) := by
  obtain ⟨-, -, -, -, -, -, -, -, e0, e1, -⟩ := index_facts t
  show V c main_v16 (((cfg1.win 4).blk t).view.emb (ix2 k j)) = _
  refine congrArg (V c main_v16) (funext fun a => Fin.ext ?_)
  match a with
  | ⟨0, _⟩ => show win1_4.index t (0 : Fin 2) * 128 + 1 * k.val = k.val; omega
  | ⟨1, _⟩ => show win1_4.index t (1 : Fin 2) * 128 + 1 * j.val = j.val; omega

/-- The second bias row is read whole. -/
theorem bias2_read (c : Dev nD) (t : Fin cfg1.N) (j : Fin 128) :
    iblk1 V c 5 t (ix2 (0 : Fin 1) j) = V c main_v4 (ix2 (0 : Fin 1) j) := by
  obtain ⟨-, -, -, -, -, -, -, -, -, -, e0, e1, -⟩ := index_facts t
  show V c main_v4 (((cfg1.win 5).blk t).view.emb (ix2 (0 : Fin 1) j)) = _
  refine congrArg (V c main_v4) (funext fun a => Fin.ext ?_)
  match a with
  | ⟨0, _⟩ => show win1_5.index t (0 : Fin 2) * 1 + 1 * 0 = 0; omega
  | ⟨1, _⟩ => show win1_5.index t (1 : Fin 2) * 128 + 1 * j.val = j.val; omega

/-- Entry (r, j) of the tile's result block is entry (6000 t + r, j) of the result array. -/
theorem result_emb (t : Fin cfg1.N) (r : Fin 6000) (j : Fin 128) :
    ((cfg1.win 6).blk t).view.emb (ix2 r j)
      = (ix2 (⟨t.val * 6000 + r.val, row_lt t r⟩ : Fin 600000) j : S600000x128.Idx) := by
  obtain ⟨-, -, -, -, -, -, -, -, -, -, -, -, e0, e1⟩ := index_facts t
  refine funext fun a => Fin.ext ?_
  match a with
  | ⟨0, _⟩ => show win1_6.index t (0 : Fin 2) * 6000 + 1 * r.val = t.val * 6000 + r.val; omega
  | ⟨1, _⟩ => show win1_6.index t (1 : Fin 2) * 128 + 1 * j.val = j.val; omega

/-- WHAT TILE t WRITES BACK is block t of the modulated edge features of the arrays the launch finds. -/
theorem flushed_eq (c : Dev nD) (t : Fin cfg1.N) :
    (dat1 V c).flushed 6 t = ((cfg1.win 6).blk t).view.read (Elt Ideal)
      (edgeOf (V c main_arg1) (V c main_v30) (V c main_v15) (V c main_v3) (V c main_v16) (V c main_v4)) := by
  show (cfg1.win 6).cut (grid1.coords t) ((dat1 V c).after 6 t) = _
  rw [after1_6]
  funext y
  obtain ⟨r, j, rfl⟩ : ∃ (r : Fin 6000) (j : Fin 128), y = ix2 r j := ⟨y 0, y 1, eq_ix2 y⟩
  show out1_6 (iblk1 V c 0 t) (iblk1 V c 1 t) (iblk1 V c 2 t) (iblk1 V c 3 t) (iblk1 V c 4 t) (iblk1 V c 5 t) (ix2 r j)
    = edgeOf (V c main_arg1) (V c main_v30) (V c main_v15) (V c main_v3) (V c main_v16) (V c main_v4)
        (((cfg1.win 6).blk t).view.emb (ix2 r j))
  rw [Cert.EdgePayload.stored_apply, result_emb]
  simp only [rel_read, gathered_read, weights1_read, bias1_read, weights2_read, bias2_read]
  rfl

end Cert.EdgeBlocks

end
-- ==== Proof.EdgeCover.lean ====
/-
  The 100 row tiles of the edge kernel fill its result array.

  Row e of the 600000 rows lies in the block of tile e / 6000, and every tile writes its block back. So after the
  launch the result array holds the modulated edge features of the arrays the launch found.
-/
import proofs.«159312_j3624952397870_2_alg».proof.Proof.EdgeBlocks

set_option maxRecDepth 16384

noncomputable section

namespace Cert.EdgeBlocks

open Idealize.ShloMosaic Idealize.ShloMosaic.TcCoe Idealize.ShloMosaic.ValueIdx Idealize.SL.Sem
open Idealize.ShloMosaic.Pipeline (Dat)
open Cert.KernelIdeal Cert.KernelIdeal.Gen

/-- An index of the result array is in tile t's block iff each coordinate is in the block's range on its axis. -/
theorem mem_block (t : Fin cfg1.N) (i : S600000x128.Idx) :
    i ∈ ((cfg1.win 6).blk t).view.set ↔ ∀ a : Fin 2, win1_6.index t a * S6000x128.size a ≤ (i a).val
      ∧ (i a).val < win1_6.index t a * S6000x128.size a + S6000x128.size a := by
  show i ∈ ((View.whole main_v31).slice (win1_6.rect t)).set ↔ _
  rw [View.set_slice_whole, Rect.mem_set_unit]
  exact Iff.rfl

/-- Every entry of the result array is in the block of the tile its row falls in. -/
theorem covered (i : S600000x128.Idx) :
    ∃ t : Fin cfg1.N, (cfg1.win 6).flush t = true ∧ i ∈ ((cfg1.win 6).blk t).view.set := by
  have hi0 : (i 0).val < 600000 := (i 0).isLt
  have hi1 : (i 1).val < 128 := (i 1).isLt
  have hlt : (i 0).val / 6000 < cfg1.N := by rw [show cfg1.N = 100 from N_1]; omega
  obtain ⟨-, -, -, -, -, -, -, -, -, -, -, -, e0, e1⟩ := index_facts ⟨(i 0).val / 6000, hlt⟩
  have e0' : win1_6.index ⟨(i 0).val / 6000, hlt⟩ (0 : Fin 2) = (i 0).val / 6000 := e0
  refine ⟨⟨(i 0).val / 6000, hlt⟩, flush1_6 _, ?_⟩
  rw [mem_block]
  intro a
  match a with
  | ⟨0, _⟩ =>
    show win1_6.index ⟨(i 0).val / 6000, hlt⟩ (0 : Fin 2) * 6000 ≤ (i 0).val
      ∧ (i 0).val < win1_6.index ⟨(i 0).val / 6000, hlt⟩ (0 : Fin 2) * 6000 + 6000
    omega
  | ⟨1, _⟩ =>
    show win1_6.index ⟨(i 0).val / 6000, hlt⟩ (1 : Fin 2) * 128 ≤ (i 1).val
      ∧ (i 1).val < win1_6.index ⟨(i 0).val / 6000, hlt⟩ (1 : Fin 2) * 128 + 128
    omega

variable (V : (c : Dev nD) → (b : Ref sig .tc) → Buf (Elt Ideal) ((c : Thread nD τ).loc b))

/-- THE RESULT ARRAY after the launch: the modulated edge features of the arrays the launch found. -/
theorem array_eq (c : Dev nD) :
    (dat1 V c).arrAt 6 cfg1.N
      = edgeOf (V c main_arg1) (V c main_v30) (V c main_v15) (V c main_v3) (V c main_v16) (V c main_v4) :=
  (dat1 V c).arrAt_eq_of_cover 6 _ (fun t _ => flushed_eq V c t) covered

end Cert.EdgeBlocks

end
-- ==== Proof.EdgeInputs.lean ====
/-
  The arrays the edge launch finds.

  Between the node-transform launch and the edge launch the program reads the destination row of the edge list, wraps
  negative entries around, and gathers the rows of the node transform at those destinations. The edge launch also
  reads the relative coordinates (an argument), the narrowed weight matrices and the bias rows laid out before the
  first launch. Each of these arrays is read off here: the gathered rows as the gather of the first launch's result
  array at the destination column, the others off the launch memory.
-/
import proofs.«159312_j3624952397870_2_alg».proof.Proof.Gen.KernelIdeal.Frame
import Idealize.ShloMosaic.PureOps.Ideal.Laws

set_option maxRecDepth 16384

noncomputable section

namespace Cert.EdgeInputs

open Idealize.ShloMosaic Idealize.ShloMosaic.TcCoe Idealize.SL.Sem
open Cert.KernelIdeal Cert.KernelIdeal.Gen

/-- The destination column of the edge list: its second row, entries below zero moved up by the number of nodes,
    laid out as one column. -/
def destColumn (x21 : (⟨S2x600000, .i32⟩ : BufTy).Contents (Elt Ideal)) : (⟨S600000x1, .i32⟩ : BufTy).Contents (Elt Ideal) :=
  broadcastInDim S600000x1 ![0] bcast_S600000_S600000x1_0
    (select
      (cmpi .slt (fun i => shapeCast S600000 (extractStridedSlice S1x600000 ![1, 0] x21 slices_S2x600000_S1x600000_1_0) shapeCasts_S1x600000_S600000 i)
        (broadcastInDim S600000 ![] bcast_S_S600000 (constantI S_ 32 0#32)))
      (addi (fun i => shapeCast S600000 (extractStridedSlice S1x600000 ![1, 0] x21 slices_S2x600000_S1x600000_1_0) shapeCasts_S1x600000_S600000 i)
        (broadcastInDim S600000 ![] bcast_S_S600000 (constantI S_ 32 50000#32)))
      (fun i => shapeCast S600000 (extractStridedSlice S1x600000 ![1, 0] x21 slices_S2x600000_S1x600000_1_0) shapeCasts_S1x600000_S600000 i))

variable (m : (ℓ : Loc nD τ sig) → Buf (Elt Ideal) ℓ) (ρ : Dev nD → PrngReg) (c : Dev nD)

/-- The edge list reaches the stretch before the edge launch as launched. -/
theorem edges_kept : W2 m ρ c (Proc.devRef .tc main_arg21) = m ((c : Thread nD τ).loc main_arg21) := by
  rw [W2_of_ne m ρ c main_arg21 (by decide)]
  show StableHlo.after hostOps0 (W0 m ρ c) (Proc.devRef .tc main_arg21) = _
  after_results
  try rfl

/-- The gathered rows: the first launch's result array gathered at the destination column. -/
theorem gathered :
    (V3 m ρ c main_v30 : S600000x128.Idx → EReal)
      = Host.gather gather_S50000x128_S600000x1_S600000x128_1_0_n_n_0_1_1128
          (W2 m ρ c (Proc.devRef .tc main_v19)) (destColumn (m ((c : Thread nD τ).loc main_arg21))) := by
  show StableHlo.after hostOps1 (W2 m ρ c) (Proc.devRef .tc main_v30) = _
  after_results
  rw [edges_kept]
  try rfl

/-- The relative coordinates reach the edge launch as launched. -/
theorem rel : (V3 m ρ c main_arg1 : S600000x4.Idx → EReal) = m ((c : Thread nD τ).loc main_arg1) := by
  show StableHlo.after hostOps1 (W2 m ρ c) (Proc.devRef .tc main_arg1) = _
  after_results
  rw [W2_of_ne m ρ c main_arg1 (by decide)]
  show StableHlo.after hostOps0 (W0 m ρ c) (Proc.devRef .tc main_arg1) = _
  after_results
  try rfl

/-- The first weight matrix of the edge modulation, narrowed. -/
theorem weights1 :
    @Eq (FVec Ideal S4x128 .bf16) (V3 m ρ c main_v15)
      (truncf .bf16 (m ((c : Thread nD τ).loc main_arg7) : FVec Ideal S4x128 .f32) bitsLt_bf16_f32) := by
  show StableHlo.after hostOps1 (W2 m ρ c) (Proc.devRef .tc main_v15) = _
  after_results
  rw [W2_of_ne m ρ c main_v15 (by decide)]
  show StableHlo.after hostOps0 (W0 m ρ c) (Proc.devRef .tc main_v15) = _
  after_results
  try rfl

/-- Its first bias vector as a row. -/
theorem bias1 :
    (V3 m ρ c main_v3 : S1x128.Idx → EReal) = shapeCast S1x128 (m ((c : Thread nD τ).loc main_arg8)) shapeCasts_S128_S1x128 := by
  show StableHlo.after hostOps1 (W2 m ρ c) (Proc.devRef .tc main_v3) = _
  after_results
  rw [W2_of_ne m ρ c main_v3 (by decide)]
  show StableHlo.after hostOps0 (W0 m ρ c) (Proc.devRef .tc main_v3) = _
  after_results
  try rfl

/-- Its second weight matrix, narrowed. -/
theorem weights2 :
    @Eq (FVec Ideal S128x128 .bf16) (V3 m ρ c main_v16)
      (truncf .bf16 (m ((c : Thread nD τ).loc main_arg9) : FVec Ideal S128x128 .f32) bitsLt_bf16_f32) := by
  show StableHlo.after hostOps1 (W2 m ρ c) (Proc.devRef .tc main_v16) = _
  after_results
  rw [W2_of_ne m ρ c main_v16 (by decide)]
  show StableHlo.after hostOps0 (W0 m ρ c) (Proc.devRef .tc main_v16) = _
  after_results
  try rfl

/-- Its second bias vector as a row. -/
theorem bias2 :
    (V3 m ρ c main_v4 : S1x128.Idx → EReal) = shapeCast S1x128 (m ((c : Thread nD τ).loc main_arg10)) shapeCasts_S128_S1x128 := by
  show StableHlo.after hostOps1 (W2 m ρ c) (Proc.devRef .tc main_v4) = _
  after_results
  rw [W2_of_ne m ρ c main_v4 (by decide)]
  show StableHlo.after hostOps0 (W0 m ρ c) (Proc.devRef .tc main_v4) = _
  after_results
  try rfl

end Cert.EdgeInputs

end
-- ==== Proof.EdgeRef.lean ====
/-
  The reference's per-edge features, entry by entry.

  The reference multiplies the gathered rows of the node transform by the edge modulation
  relu(rel · W1 + b1) · W2 + b2. Read at (e, j), the two matrix products are the plain sums of products, the two bias
  vectors — placed as one row and repeated down the rows — read their entry of the column, and the rectifier is the
  maximum with the zero word. That is the modulated edge features of the relative coordinates, the gathered rows, the
  weights and the bias rows, with the two factors of the final product in the other order.
-/
import proofs.«159312_j3624952397870_2_alg».proof.Proof.RefRead
import proofs.«159312_j3624952397870_2_alg».proof.Proof.EdgeBlocks

open scoped BigOperators

noncomputable section

namespace Cert.EdgeRef

open Idealize.ShloMosaic Idealize.ShloMosaic.ValueIdx
open Cert.ReferenceIdeal Cert.ReferenceIdeal.Read

/-- The reference's per-edge features are the modulated edge features of the relative coordinates, the gathered rows,
    the (narrowed) weights and the bias vectors recast as rows. -/
theorem edge_eq (x0 : (⟨S50000x125, .f32⟩ : BufTy).Contents (Elt Ideal)) (x1 : (⟨S600000x4, .f32⟩ : BufTy).Contents (Elt Ideal))
    (x2 : (⟨S50000x3, .f32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S4x128, .f32⟩ : BufTy).Contents (Elt Ideal)) (x8 : (⟨S128, .f32⟩ : BufTy).Contents (Elt Ideal))
    (x9 : (⟨S128x128, .f32⟩ : BufTy).Contents (Elt Ideal)) (x10 : (⟨S128, .f32⟩ : BufTy).Contents (Elt Ideal))
    (x21 : (⟨S2x600000, .i32⟩ : BufTy).Contents (Elt Ideal))
    (hb : FTy.bf16.bits < FTy.f32.bits) (hs : (⟨1, ![128]⟩ : Shape).ShapeCasts ⟨2, ![1, 128]⟩) :
    val_main_v30 (F := Ideal) x0 x1 x2 x3 x4 x5 x6 x7 x8 x9 x10 x21
      = Cert.EdgeBlocks.edgeOf x1 (val_main_v29 (F := Ideal) x0 x2 x3 x4 x5 x6 x21)
          (truncf (F := Ideal) .bf16 (x7 : FVec Ideal S4x128 .f32) hb) (shapeCast ⟨2, ![1, 128]⟩ x8 hs)
          (truncf (F := Ideal) .bf16 (x9 : FVec Ideal S128x128 .f32) hb) (shapeCast ⟨2, ![1, 128]⟩ x10 hs) := by
  funext i
  obtain ⟨e, j, rfl⟩ : ∃ (e : Fin 600000) (j : Fin 128), i = ix2 e j := ⟨i 0, i 1, eq_ix2 i⟩
  have el19 : ∀ k : Fin 128, lidx_main_v19 (ix2 e j) k = ix2 e k := fun k =>
    funext fun a => Fin.ext (by match a with | ⟨0, _⟩ => rfl | ⟨1, _⟩ => rfl)
  have er19 : ∀ k : Fin 128, ridx_main_v19 (ix2 e j) k = ix2 k j := fun k =>
    funext fun a => Fin.ext (by match a with | ⟨0, _⟩ => rfl | ⟨1, _⟩ => rfl)
  have el14 : ∀ (k : Fin 128) (l : Fin 4), lidx_main_v14 (ix2 e k) l = ix2 e l := fun k l =>
    funext fun a => Fin.ext (by match a with | ⟨0, _⟩ => rfl | ⟨1, _⟩ => rfl)
  have er14 : ∀ (k : Fin 128) (l : Fin 4), ridx_main_v14 (ix2 e k) l = ix2 l k := fun k l =>
    funext fun a => Fin.ext (by match a with | ⟨0, _⟩ => rfl | ⟨1, _⟩ => rfl)
  have eb2 : idx_main_v20 (idx_main_v21 (ix2 e j)) = ix1 j :=
    funext fun a => Fin.ext (by match a with | ⟨0, _⟩ => rfl)
  have eb1 : ∀ k : Fin 128, idx_main_v15 (idx_main_v16 (ix2 e k)) = ix1 k := fun k =>
    funext fun a => Fin.ext (by match a with | ⟨0, _⟩ => rfl)
  rw [val_main_v30_apply, val_main_v22_apply, val_main_v19_apply, val_main_v21_apply, val_main_v20_apply]
  simp only [el19, er19, eb2, val_main_v18_apply, val_main_v17_apply, val_main_v14_apply, val_main_v16_apply,
    val_main_v15_apply, val_main_call1_v0_apply, val_main_call1_cst_apply, el14, er14, eb1]
  unfold Cert.EdgeBlocks.edgeOf
  rw [shapeCast_a_1a_apply x10 hs (0 : Fin 1) j]
  simp only [shapeCast_a_1a_apply x8 hs (0 : Fin 1)]
  exact mul_comm _ _

end Cert.EdgeRef

end
-- ==== Proof.EdgeStage.lean ====
/-
  After the second launch the edge array holds the reference's per-edge features.

  The launch leaves in its result array the modulated edge features of the arrays it finds: the relative coordinates,
  the gathered rows of the first launch's result, the narrowed weight matrices and the bias rows. The first launch's
  result is the reference's node transform, the destination column is computed from the edge list by the same
  operations in both programs, so the gathered rows are the reference's gathered rows; and the reference's per-edge
  features are the same function of the same arrays.
-/
import proofs.«159312_j3624952397870_2_alg».proof.Proof.Stages
import proofs.«159312_j3624952397870_2_alg».proof.Proof.EdgeCover
import proofs.«159312_j3624952397870_2_alg».proof.Proof.EdgeInputs
import proofs.«159312_j3624952397870_2_alg».proof.Proof.EdgeRef

set_option maxRecDepth 16384

noncomputable section

namespace Cert.EdgeStage

open Idealize.ShloMosaic Idealize.ShloMosaic.TcCoe Idealize.SL.Sem
open Cert.KernelIdeal Cert.KernelIdeal.Gen

/-- Both programs compute the destination column from the edge list by the same operations. -/
theorem dest_eq (x21 : (⟨S2x600000, .i32⟩ : BufTy).Contents (Elt Ideal)) :
    Cert.EdgeInputs.destColumn x21 = Cert.ReferenceIdeal.Read.val_main_v28 (F := Ideal) x21 := rfl

/-- After the second launch the edge array holds the reference's per-edge features. -/
theorem afterEdge (m : Cert.Stages.KMem) (ρ : Dev Cert.KernelIdeal.nD → PrngReg) (c : Dev Cert.KernelIdeal.nD)
    (h : Cert.Stages.AfterNode m ρ c) : Cert.Stages.AfterEdge m ρ c := by
  unfold Cert.Stages.AfterNode at h
  unfold Cert.Stages.AfterEdge
  refine (show W4 m ρ c (Proc.devRef .tc main_v31) = (dat1 (V3 m ρ) c).arrAt 6 cfg1.N from W4_arr m ρ c 6).trans ?_
  rw [Cert.EdgeBlocks.array_eq (V3 m ρ) c, Cert.EdgeInputs.rel m ρ c, Cert.EdgeInputs.gathered m ρ c, h,
    Cert.EdgeInputs.weights1 m ρ c, Cert.EdgeInputs.bias1 m ρ c, Cert.EdgeInputs.weights2 m ρ c,
    Cert.EdgeInputs.bias2 m ρ c, dest_eq]
  exact (Cert.EdgeRef.edge_eq _ _ _ _ _ _ _ _ _ _ _ _ bitsLt_bf16_f32 shapeCasts_S128_S1x128).symm

end Cert.EdgeStage

end
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.ScaleBlocks.lean ====
/-
  The scale-and-residual launch, from one tile's stored entry to the whole array.

  A tile loads a [2000,128] block of the aggregated edge features, the matching [2000,1] column of degrees, the two
  [1,128] coefficient rows and the [2000,128] block of the residual. With a = agg / max(deg, 1) (the degree column
  repeated along the row) it stores a · c1 + (sqrt(deg + ε) · a) · c2 + residual, each row vector repeated down the
  rows: the stored entry at (r, j) reads the aggregated features and the residual at (r, j), the degree column at
  (r, 0) and the rows at (0, j).

  The launch runs 25 tiles; tile t loads rows 2000·t … 2000·t + 1999 of the aggregated features, of the degree column
  and of the residual, the two coefficient rows whole, and writes back the same rows of the result. So the entry the
  launch leaves at row n, column j depends on the arrays it finds only through row n (and the coefficient rows at
  column j): it is one function `scaleArr` of those arrays, read index by index, and every row n lies in the tile
  n / 2000.
-/
import proofs.«159312_j3624952397870_2_alg».proof.Proof.Gen.KernelIdeal.Frame
import proofs.«159312_j3624952397870_2_alg».proof.Proof.LibColumnLayout
import Idealize.ShloMosaic.Lib.ValueLayout

noncomputable section

namespace Cert.ScalePayload

open Idealize.ShloMosaic Idealize.ShloMosaic.ValueIdx Cert.KernelIdeal Cert.KernelIdeal.Gen

/-- The zero offset of a whole-block load or store. -/
theorem hz : (![0, 0] : Fin 2 → Nat) = fun _ => 0 := funext fun a => by fin_cases a <;> rfl

/-- A square root taken entry by entry. -/
theorem sqrt_apply {s : Shape} {φ : FTy} (a : FVec Ideal s φ) (i : s.Idx) : sqrt a i = Ideal.sqrt (a i) := rfl

/-- The stored entry at row `r`, column `j` of the tile: with `a = agg (r, j) / max (deg (r, 0)) 1`,
    `a · c1 (0, j) + (sqrt (deg (r, 0) + ε) · a) · c2 (0, j) + res (r, j)`. -/
theorem out_apply (agg : Vec Ideal S2000x128 .f32) (deg : Vec Ideal S2000x1 .f32) (res : Vec Ideal S2000x128 .f32)
    (c1 c2 : Vec Ideal S1x128 .f32) (r : Fin 2000) (j : Fin 128) :
    out2_5 agg deg res c1 c2 (ix2 r j) =
      Ideal.div (agg (ix2 r j)) (max (deg (ix2 r (0 : Fin 1))) (Ideal.ofBits .f32 0x3F800000#32)) * c1 (ix2 (0 : Fin 1) j)
      + Ideal.sqrt (deg (ix2 r (0 : Fin 1)) + Ideal.ofBits .f32 0x358637BD#32)
          * Ideal.div (agg (ix2 r j)) (max (deg (ix2 r (0 : Fin 1))) (Ideal.ofBits .f32 0x3F800000#32)) * c2 (ix2 (0 : Fin 1) j)
      + res (ix2 r j) := by
  unfold out2_5
  rw [View.canon_unit_zero hz]
  simp only [View.ld_unit_zero (S := S2000x128) hz, View.ld_unit_zero (S := S2000x1) hz, View.ld_unit_zero (S := S1x128) hz]
  unfold k2_pay1
  simp only [shapeCast_self, addf_apply, mulf_apply, divf_apply, broadcastTo_1b_ab_apply,
    Cert.ColumnLayout.broadcastTo_a1_ab_apply, maximumf_apply, sqrt_apply, broadcast_apply, Ideal.ofBits_def]

end Cert.ScalePayload

namespace Cert.ScaleBlocks

open Idealize.ShloMosaic Idealize.ShloMosaic.TcCoe Idealize.SL.Sem Idealize.ShloMosaic.ValueIdx
open Cert.KernelIdeal Cert.KernelIdeal.Gen
open Idealize.ShloMosaic.Pipeline (Dat)

/-- The result as a function of whole arrays: at (n, j), with `a = agg (n, j) / max (deg (n, 0)) 1`,
    `a · c1 (0, j) + (sqrt (deg (n, 0) + ε) · a) · c2 (0, j) + res (n, j)`. -/
def scaleArr (agg : FVec Ideal S50000x128 .f32) (deg : FVec Ideal S50000x1 .f32) (res : FVec Ideal S50000x128 .f32)
    (c1 c2 : FVec Ideal S1x128 .f32) : FVec Ideal S50000x128 .f32 := fun i =>
  Ideal.div (agg i) (max (deg (ix2 (i 0) (0 : Fin 1))) (Ideal.ofBits .f32 0x3F800000#32)) * c1 (ix2 (0 : Fin 1) (i 1))
    + Ideal.sqrt (deg (ix2 (i 0) (0 : Fin 1)) + Ideal.ofBits .f32 0x358637BD#32)
        * Ideal.div (agg i) (max (deg (ix2 (i 0) (0 : Fin 1))) (Ideal.ofBits .f32 0x3F800000#32)) * c2 (ix2 (0 : Fin 1) (i 1))
    + res i

/-- `scaleArr` read at row `n`, column `j`. -/
theorem scaleArr_apply (agg : FVec Ideal S50000x128 .f32) (deg : FVec Ideal S50000x1 .f32) (res : FVec Ideal S50000x128 .f32)
    (c1 c2 : FVec Ideal S1x128 .f32) (n : Fin 50000) (j : Fin 128) :
    scaleArr agg deg res c1 c2 (ix2 n j) =
      Ideal.div (agg (ix2 n j)) (max (deg (ix2 n (0 : Fin 1))) (Ideal.ofBits .f32 0x3F800000#32)) * c1 (ix2 (0 : Fin 1) j)
        + Ideal.sqrt (deg (ix2 n (0 : Fin 1)) + Ideal.ofBits .f32 0x358637BD#32)
            * Ideal.div (agg (ix2 n j)) (max (deg (ix2 n (0 : Fin 1))) (Ideal.ofBits .f32 0x3F800000#32)) * c2 (ix2 (0 : Fin 1) j)
        + res (ix2 n j) := rfl

variable (V : (c : Dev nD) → (b : Ref sig .tc) → Buf (Elt Ideal) ((c : Thread nD τ).loc b))

/-- The block indices of the six windows at tile t: the row-tiled windows sit at block row t, the coefficient rows at
    block (0, 0). Decided over the 25 tiles. -/
theorem idx_facts : ∀ t : Fin cfg2.N,
    win2_0.index t (0 : Fin 2) = t.val ∧ win2_0.index t (1 : Fin 2) = 0
  ∧ win2_1.index t (0 : Fin 2) = t.val ∧ win2_1.index t (1 : Fin 2) = 0
  ∧ win2_2.index t (0 : Fin 2) = t.val ∧ win2_2.index t (1 : Fin 2) = 0
  ∧ win2_3.index t (0 : Fin 2) = 0 ∧ win2_3.index t (1 : Fin 2) = 0
  ∧ win2_4.index t (0 : Fin 2) = 0 ∧ win2_4.index t (1 : Fin 2) = 0
  ∧ win2_5.index t (0 : Fin 2) = t.val ∧ win2_5.index t (1 : Fin 2) = 0 :=
  (by decide +kernel : ∀ t : Fin grid2.N, _)

/-- Tile t's block of the aggregated features at (r, j) is the array's entry at row 2000·t + r, column j. -/
theorem blk_agg (c : Dev nD) (t : Fin cfg2.N) (r : Fin 2000) (j : Fin 128) (i : S50000x128.Idx)
    (h0 : (i 0).val = 2000 * t.val + r.val) (h1 : (i 1).val = j.val) :
    iblk2 V c 0 t (ix2 r j) = V c main_v34 i := by
  obtain ⟨e0, e1, -⟩ := idx_facts t
  unfold iblk2
  rw [View.read_apply]
  show V c main_v34 _ = V c main_v34 _
  congr 1
  funext a
  apply Fin.ext
  match a with
  | ⟨0, _⟩ => show win2_0.index t (0 : Fin 2) * 2000 + 1 * r.val = (i 0).val; rw [e0, h0]; omega
  | ⟨1, _⟩ => show win2_0.index t (1 : Fin 2) * 128 + 1 * j.val = (i 1).val; rw [e1, h1]; omega

/-- Tile t's block of the degree column at (r, 0) is the column's entry at row 2000·t + r. -/
theorem blk_deg (c : Dev nD) (t : Fin cfg2.N) (r : Fin 2000) (u : Fin 1) (i : S50000x1.Idx)
    (h0 : (i 0).val = 2000 * t.val + r.val) :
    iblk2 V c 1 t (ix2 r u) = V c main_v39 i := by
  obtain ⟨-, -, e0, e1, -⟩ := idx_facts t
  unfold iblk2
  rw [View.read_apply]
  show V c main_v39 _ = V c main_v39 _
  congr 1
  funext a
  apply Fin.ext
  match a with
  | ⟨0, _⟩ => show win2_1.index t (0 : Fin 2) * 2000 + 1 * r.val = (i 0).val; rw [e0, h0]; omega
  | ⟨1, _⟩ =>
    show win2_1.index t (1 : Fin 2) * 1 + 1 * u.val = (i 1).val
    rw [e1]; have hi : (i 1).val < 1 := (i 1).isLt; have hu : u.val < 1 := u.isLt; omega

/-- Tile t's block of the residual at (r, j) is the array's entry at row 2000·t + r, column j. -/
theorem blk_res (c : Dev nD) (t : Fin cfg2.N) (r : Fin 2000) (j : Fin 128) (i : S50000x128.Idx)
    (h0 : (i 0).val = 2000 * t.val + r.val) (h1 : (i 1).val = j.val) :
    iblk2 V c 2 t (ix2 r j) = V c main_v0 i := by
  obtain ⟨-, -, -, -, e0, e1, -⟩ := idx_facts t
  unfold iblk2
  rw [View.read_apply]
  show V c main_v0 _ = V c main_v0 _
  congr 1
  funext a
  apply Fin.ext
  match a with
  | ⟨0, _⟩ => show win2_2.index t (0 : Fin 2) * 2000 + 1 * r.val = (i 0).val; rw [e0, h0]; omega
  | ⟨1, _⟩ => show win2_2.index t (1 : Fin 2) * 128 + 1 * j.val = (i 1).val; rw [e1, h1]; omega

/-- Every tile's block of the first coefficient row is the row itself. -/
theorem blk_c1 (c : Dev nD) (t : Fin cfg2.N) (u : Fin 1) (j : Fin 128) (i : S1x128.Idx)
    (h1 : (i 1).val = j.val) :
    iblk2 V c 3 t (ix2 u j) = V c main_v5 i := by
  obtain ⟨-, -, -, -, -, -, e0, e1, -⟩ := idx_facts t
  unfold iblk2
  rw [View.read_apply]
  show V c main_v5 _ = V c main_v5 _
  congr 1
  funext a
  apply Fin.ext
  match a with
  | ⟨0, _⟩ =>
    show win2_3.index t (0 : Fin 2) * 1 + 1 * u.val = (i 0).val
    rw [e0]; have hi : (i 0).val < 1 := (i 0).isLt; have hu : u.val < 1 := u.isLt; omega
  | ⟨1, _⟩ => show win2_3.index t (1 : Fin 2) * 128 + 1 * j.val = (i 1).val; rw [e1, h1]; omega

/-- Every tile's block of the second coefficient row is the row itself. -/
theorem blk_c2 (c : Dev nD) (t : Fin cfg2.N) (u : Fin 1) (j : Fin 128) (i : S1x128.Idx)
    (h1 : (i 1).val = j.val) :
    iblk2 V c 4 t (ix2 u j) = V c main_v6 i := by
  obtain ⟨-, -, -, -, -, -, -, -, e0, e1, -⟩ := idx_facts t
  unfold iblk2
  rw [View.read_apply]
  show V c main_v6 _ = V c main_v6 _
  congr 1
  funext a
  apply Fin.ext
  match a with
  | ⟨0, _⟩ =>
    show win2_4.index t (0 : Fin 2) * 1 + 1 * u.val = (i 0).val
    rw [e0]; have hi : (i 0).val < 1 := (i 0).isLt; have hu : u.val < 1 := u.isLt; omega
  | ⟨1, _⟩ => show win2_4.index t (1 : Fin 2) * 128 + 1 * j.val = (i 1).val; rw [e1, h1]; omega

/-- What tile t writes back is rows 2000·t … 2000·t + 1999 of `scaleArr` of the arrays the launch finds. -/
theorem flushed_eq (c : Dev nD) (t : Fin cfg2.N) :
    (dat2 V c).flushed 5 t = ((cfg2.win 5).blk t).view.read (Elt Ideal)
      (scaleArr (V c main_v34) (V c main_v39) (V c main_v0) (V c main_v5) (V c main_v6)) := by
  show (cfg2.win 5).cut (grid2.coords t) ((dat2 V c).after 5 t) = _
  rw [after2_5]
  funext y
  obtain ⟨r, j, rfl⟩ : ∃ (r : Fin 2000) (j : Fin 128), y = ix2 r j := ⟨y 0, y 1, eq_ix2 y⟩
  rw [View.read_apply]
  obtain ⟨-, -, -, -, -, -, -, -, -, -, e0, e1⟩ := idx_facts t
  generalize hi : ((cfg2.win 5).blk t).view.emb (ix2 r j) = i
  have h0 : (i 0).val = 2000 * t.val + r.val := by
    rw [← hi]; show win2_5.index t (0 : Fin 2) * 2000 + 1 * r.val = _; rw [e0]; omega
  have h1 : (i 1).val = j.val := by
    rw [← hi]; show win2_5.index t (1 : Fin 2) * 128 + 1 * j.val = _; rw [e1]; omega
  show out2_5 (iblk2 V c 0 t) (iblk2 V c 1 t) (iblk2 V c 2 t) (iblk2 V c 3 t) (iblk2 V c 4 t) (ix2 r j) = _
  rw [Cert.ScalePayload.out_apply (iblk2 V c 0 t) (iblk2 V c 1 t) (iblk2 V c 2 t) (iblk2 V c 3 t) (iblk2 V c 4 t) r j,
    blk_agg V c t r j i h0 h1, blk_deg V c t r 0 (ix2 (i 0) (0 : Fin 1)) h0, blk_res V c t r j i h0 h1,
    blk_c1 V c t 0 j (ix2 (0 : Fin 1) (i 1)) h1, blk_c2 V c t 0 j (ix2 (0 : Fin 1) (i 1)) h1]
  rfl

/-- An index of the result lies in tile t's block iff each coordinate lies in the block's range on its axis. -/
theorem mem_blk (t : Fin cfg2.N) (i : S50000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v40).slice (win2_5.rect t)).set ↔ _
  rw [View.set_slice_whole, Rect.mem_set_unit]
  exact Iff.rfl

/-- Row n of the result lies in the block of tile n / 2000. -/
theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  obtain ⟨-, -, -, -, -, -, -, -, -, -, e0, e1⟩ := idx_facts t
  have ht : t.val = (i 0).val / 2000 := rfl
  refine ⟨t, flush2_5 t, ?_⟩
  rw [mem_blk]
  intro a
  match a with
  | ⟨0, _⟩ =>
    show win2_5.index t (0 : Fin 2) * 2000 ≤ (i 0).val ∧ (i 0).val < win2_5.index t (0 : Fin 2) * 2000 + 2000
    rw [e0, ht]; omega
  | ⟨1, _⟩ =>
    show win2_5.index t (1 : Fin 2) * 128 ≤ (i 1).val ∧ (i 1).val < win2_5.index t (1 : Fin 2) * 128 + 128
    rw [e1]; omega

/-- The array the launch leaves is `scaleArr` of the arrays it finds. -/
theorem arr_eq (c : Dev nD) :
    (dat2 V c).arrAt 5 cfg2.N = scaleArr (V c main_v34) (V c main_v39) (V c main_v0) (V c main_v5) (V c main_v6) :=
  (dat2 V c).arrAt_eq_of_cover 5 _ (fun t _ => flushed_eq V c t) cover

end Cert.ScaleBlocks

end
-- ==== Proof.ScaleInputs.lean ====
/-
  The arrays the scale-and-residual launch finds, as terms of the launch memory and of the previous launch's array.

  Before the launch the host sums the per-edge rows into the rows of their source nodes (a segment sum from zero
  along the source column of the edge list) and counts each node's edges the same way (the segment sum of ones),
  placing the counts as an [N, 1] column. The residual is the features joined with the pseudo-coordinates, written
  before the first launch and only read since; the two coefficient rows are [128] arguments placed as [1, 128] rows
  before the first launch. Each array is read back here through the launches and host stretches that leave it alone.
-/
import proofs.«159312_j3624952397870_2_alg».proof.Proof.Gen.KernelIdeal.Frame
import Idealize.ShloMosaic.PureOps.Ideal
import Idealize.ShloMosaic.Lib.ValueIdx

noncomputable section

namespace Cert.ScaleInputs
open Idealize.ShloMosaic Idealize.ShloMosaic.TcCoe Idealize.SL.Sem Cert.KernelIdeal Cert.KernelIdeal.Gen
open Idealize.ShloMosaic.Pipeline (Dat)

/-- A buffer that no operation of a host stretch writes holds after the stretch what it held before. -/
macro "unwritten " h:ident : tactic => `(tactic|
  exact StableHlo.after_of_forall_not_mem _ _ (List.forall_iff_forall_mem.mp (by
    simp only [$h:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- The source column of the edge list: row 0 of the [2, E] index pairs, as a vector of length E. -/
def srcCol (e : (⟨S2x600000, .i32⟩ : BufTy).Contents (Elt Ideal)) : (⟨S600000, .i32⟩ : BufTy).Contents (Elt Ideal) :=
  shapeCast S600000 (extractStridedSlice S1x600000 ![0, 0] e slices_S2x600000_S1x600000_0_0) shapeCasts_S1x600000_S600000

/-- The segment sum of per-edge rows into the rows of their source nodes, from zero. -/
def segSum (e : (⟨S2x600000, .i32⟩ : BufTy).Contents (Elt Ideal)) (u : (⟨S600000x128, .f32⟩ : BufTy).Contents (Elt Ideal)) :
    (⟨S50000x128, .f32⟩ : BufTy).Contents (Elt Ideal) :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 (srcCol e)) u

/-- The out-degree of every node: the segment sum of ones over the edges' source column, from zero. -/
def degVec (e : (⟨S2x600000, .i32⟩ : BufTy).Contents (Elt Ideal)) : (⟨S50000, .f32⟩ : BufTy).Contents (Elt Ideal) :=
  Host.scatterAdd scatter_S50000_S600000x1_S600000_n_0_0_1
    (broadcastInDim S50000 ![] bcast_S_S50000 (constant (F := Ideal) S_ .f32 0x00000000#32))
    (broadcastInDim S600000x1 ![0] bcast_S600000_S600000x1_0 (srcCol e))
    (broadcastInDim S600000 ![] bcast_S_S600000 (constant (F := Ideal) S_ .f32 0x3F800000#32))

variable (m : (ℓ : Loc nD τ sig) → Buf (Elt Ideal) ℓ) (ρ : Dev nD → PrngReg) (c : Dev nD)

/-- An argument array nobody writes is, after the first launch, what it was at the start. -/
theorem arg21_after_first : W2 (F := Ideal) m ρ c (Proc.devRef .tc main_arg21) = m ((c : Thread nD τ).loc main_arg21) :=
  calc W2 (F := Ideal) m ρ c (Proc.devRef .tc main_arg21)
    _ = W1 (F := Ideal) m ρ c (Proc.devRef .tc main_arg21) := W2_of_ne m ρ c main_arg21 (by decide)
    _ = W0 (F := Ideal) m ρ c (Proc.devRef .tc main_arg21) := by unwritten hostOps0
    _ = m ((c : Thread nD τ).loc main_arg21) := rfl

/-- The source column as the third launch's host stretch finds it. -/
theorem src_entry : W4 (F := Ideal) m ρ c (Proc.devRef .tc main_v21) = srcCol (m ((c : Thread nD τ).loc main_arg21)) :=
  calc W4 (F := Ideal) m ρ c (Proc.devRef .tc main_v21)
    _ = W3 (F := Ideal) m ρ c (Proc.devRef .tc main_v21) := W4_of_ne m ρ c main_v21 (by decide)
    _ = srcCol (W2 (F := Ideal) m ρ c (Proc.devRef .tc main_arg21)) := by
        show StableHlo.after hostOps1 (W2 (F := Ideal) m ρ c) (Proc.devRef .tc main_v21) = _
        after_results
        rfl
    _ = srcCol (m ((c : Thread nD τ).loc main_arg21)) := by rw [arg21_after_first]

/-- The aggregated edge features the third launch finds: the segment sum of the second launch's array. -/
theorem agg_entry : V5 (F := Ideal) m ρ c main_v34
    = segSum (m ((c : Thread nD τ).loc main_arg21)) (W4 (F := Ideal) m ρ c (Proc.devRef .tc main_v31)) := by
  show StableHlo.after hostOps2 (W4 (F := Ideal) m ρ c) (Proc.devRef .tc main_v34) = _
  after_results
  rw [src_entry]
  rfl

/-- The degree column the third launch finds: the degree vector as an [N, 1] column. -/
theorem deg_entry : V5 (F := Ideal) m ρ c main_v39
    = shapeCast S50000x1 (degVec (m ((c : Thread nD τ).loc main_arg21))) shapeCasts_S50000_S50000x1 := by
  show StableHlo.after hostOps2 (W4 (F := Ideal) m ρ c) (Proc.devRef .tc main_v39) = _
  after_results
  rw [src_entry]
  rfl

/-- The residual the third launch finds: the features joined with the pseudo-coordinates, as the first host stretch
    wrote them (the first launch only reads that array; nothing writes it afterwards). -/
theorem res_entry : V5 (F := Ideal) m ρ c main_v0
    = concatenate S50000x128 1 [⟨S50000x125, m ((c : Thread nD τ).loc main_arg0)⟩, ⟨S50000x3, m ((c : Thread nD τ).loc main_arg2)⟩]
        concatenates_S50000x125_S50000x3_S50000x128_d1 :=
  calc V5 (F := Ideal) m ρ c main_v0
    _ = W4 (F := Ideal) m ρ c (Proc.devRef .tc main_v0) := by unwritten hostOps2
    _ = W3 (F := Ideal) m ρ c (Proc.devRef .tc main_v0) := W4_of_ne m ρ c main_v0 (by decide)
    _ = W2 (F := Ideal) m ρ c (Proc.devRef .tc main_v0) := by unwritten hostOps1
    _ = (dat0 (V1 (F := Ideal) m ρ) c).arrAt 0 cfg0.N := W2_arr m ρ c 0
    _ = (dat0 (V1 (F := Ideal) m ρ) c).A 0 := (dat0 (V1 (F := Ideal) m ρ) c).arrAt_in 0 rfl cfg0.N
    _ = V1 (F := Ideal) m ρ c main_v0 := A_eq0 (V1 (F := Ideal) m ρ) c 0
    _ = _ := by
        show StableHlo.after hostOps0 (W0 (F := Ideal) m ρ c) (Proc.devRef .tc main_v0) = _
        after_results

/-- The first coefficient row the third launch finds: the [128] argument as a [1, 128] row. -/
theorem c1_entry : V5 (F := Ideal) m ρ c main_v5
    = shapeCast S1x128 (m ((c : Thread nD τ).loc main_arg11)) shapeCasts_S128_S1x128 :=
  calc V5 (F := Ideal) m ρ c main_v5
    _ = W4 (F := Ideal) m ρ c (Proc.devRef .tc main_v5) := by unwritten hostOps2
    _ = W3 (F := Ideal) m ρ c (Proc.devRef .tc main_v5) := W4_of_ne m ρ c main_v5 (by decide)
    _ = W2 (F := Ideal) m ρ c (Proc.devRef .tc main_v5) := by unwritten hostOps1
    _ = W1 (F := Ideal) m ρ c (Proc.devRef .tc main_v5) := W2_of_ne m ρ c main_v5 (by decide)
    _ = _ := by
        show StableHlo.after hostOps0 (W0 (F := Ideal) m ρ c) (Proc.devRef .tc main_v5) = _
        after_results
        rfl

/-- The second coefficient row the third launch finds. -/
theorem c2_entry : V5 (F := Ideal) m ρ c main_v6
    = shapeCast S1x128 (m ((c : Thread nD τ).loc main_arg12)) shapeCasts_S128_S1x128 :=
  calc V5 (F := Ideal) m ρ c main_v6
    _ = W4 (F := Ideal) m ρ c (Proc.devRef .tc main_v6) := by unwritten hostOps2
    _ = W3 (F := Ideal) m ρ c (Proc.devRef .tc main_v6) := W4_of_ne m ρ c main_v6 (by decide)
    _ = W2 (F := Ideal) m ρ c (Proc.devRef .tc main_v6) := by unwritten hostOps1
    _ = W1 (F := Ideal) m ρ c (Proc.devRef .tc main_v6) := W2_of_ne m ρ c main_v6 (by decide)
    _ = _ := by
        show StableHlo.after hostOps0 (W0 (F := Ideal) m ρ c) (Proc.devRef .tc main_v6) = _
        after_results
        rfl

end Cert.ScaleInputs

end
-- ==== Proof.ScaleRef.lean ====
/-
  The reference's input of the first normalisation, read at an index, and its agreement with the kernel's
  specification of the scale-and-residual launch.

  The reference divides the segment sum of the per-edge rows by max(degree, 1), multiplies by the first coefficient
  vector, adds sqrt(degree + ε) times the quotient times the second coefficient vector, and adds the residual; the
  degree and the coefficient vectors are repeated over the other axis by broadcasts. Read at row n, column j this is
  the same expression, product by product and sum by sum, as the kernel's specification, whose degree column and
  coefficient rows are the same vectors placed as an [N, 1] column and as [1, 128] rows. The segment sum, the degree
  vector and the residual are the same host terms on both sides and are compared as whole arrays, never opened.
-/
import proofs.«159312_j3624952397870_2_alg».proof.Proof.Stages
import proofs.«159312_j3624952397870_2_alg».proof.Proof.ScaleBlocks
import proofs.«159312_j3624952397870_2_alg».proof.Proof.ScaleInputs
import proofs.«159312_j3624952397870_2_alg».proof.Proof.LibColumnLayout
import Idealize.ShloMosaic.Lib.ValueLayout

noncomputable section

namespace Cert.ScaleRef

open Idealize.ShloMosaic Idealize.ShloMosaic.ValueIdx
open Cert.ReferenceIdeal Cert.ReferenceIdeal.Read

variable (x0 : (⟨S50000x125, .f32⟩ : BufTy).Contents (Elt Ideal)) (x1 : (⟨S600000x4, .f32⟩ : BufTy).Contents (Elt Ideal))
  (x2 : (⟨S50000x3, .f32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S4x128, .f32⟩ : BufTy).Contents (Elt Ideal))
  (x8 : (⟨S128, .f32⟩ : BufTy).Contents (Elt Ideal)) (x9 : (⟨S128x128, .f32⟩ : BufTy).Contents (Elt Ideal))
  (x10 x11 x12 : (⟨S128, .f32⟩ : BufTy).Contents (Elt Ideal)) (x21 : (⟨S2x600000, .i32⟩ : BufTy).Contents (Elt Ideal))

/-- The reference's stage at row `n`, column `j`. -/
theorem ref_apply (n : Fin 50000) (j : Fin 128) :
    val_main_v56 (F := Ideal) x0 x1 x2 x3 x4 x5 x6 x7 x8 x9 x10 x11 x12 x21 (ix2 n j) =
      Ideal.div (val_main_v33 (F := Ideal) x0 x1 x2 x3 x4 x5 x6 x7 x8 x9 x10 x21 (ix2 n j))
          (max (val_main_v37 (F := Ideal) x21 (ix1 n)) (Ideal.ofBits .f32 0x3F800000#32)) * x11 (ix1 j)
        + Ideal.sqrt (val_main_v37 (F := Ideal) x21 (ix1 n) + Ideal.ofBits .f32 0x358637BD#32)
            * Ideal.div (val_main_v33 (F := Ideal) x0 x1 x2 x3 x4 x5 x6 x7 x8 x9 x10 x21 (ix2 n j))
                (max (val_main_v37 (F := Ideal) x21 (ix1 n)) (Ideal.ofBits .f32 0x3F800000#32)) * x12 (ix1 j)
        + val_main_v4 (F := Ideal) x0 x2 (ix2 n j) := by
  have e47 : idx_main_v47 (idx_main_v48 (ix2 n j)) = ix1 j := funext fun a => Fin.ext (by match a with | ⟨0, _⟩ => rfl)
  have e52 : idx_main_v52 (idx_main_v53 (ix2 n j)) = ix1 j := funext fun a => Fin.ext (by match a with | ⟨0, _⟩ => rfl)
  have e40 : idx_main_v40 (idx_main_v41 (ix2 n j)) = ix1 n := funext fun a => Fin.ext (by match a with | ⟨0, _⟩ => rfl)
  have e46 : idx_main_v46 (idx_main_v50 (ix2 n j)) = ix1 n := funext fun a => Fin.ext (by match a with | ⟨0, _⟩ => rfl)
  simp only [val_main_v56_apply, val_main_v55_apply, val_main_v49_apply, val_main_v54_apply, val_main_v51_apply,
    val_main_v42_apply, val_main_v48_apply, val_main_v47_apply, val_main_v53_apply, val_main_v52_apply,
    val_main_v50_apply, val_main_v46_apply, val_main_v45_apply, val_main_v44_apply, val_main_v43_apply,
    val_main_cst_4_apply, val_main_v41_apply, val_main_v40_apply, val_main_v39_apply, val_main_v38_apply,
    val_main_cst_3_apply, e47, e52, e40, e46, Ideal.mulf_def, Ideal.addf_def, Ideal.hostDivf_def,
    Ideal.hostUnary_sqrt_def, Ideal.maximumf_def, Ideal.ofBits_def]

/-- The segment sum of the per-edge rows is the same host term on both sides. -/
theorem segSum_eq (u : (⟨S600000x128, .f32⟩ : BufTy).Contents (Elt Ideal))
    (hu : u = val_main_v30 (F := Ideal) x0 x1 x2 x3 x4 x5 x6 x7 x8 x9 x10 x21) :
    Cert.ScaleInputs.segSum x21 u = val_main_v33 (F := Ideal) x0 x1 x2 x3 x4 x5 x6 x7 x8 x9 x10 x21 := by
  unfold val_main_v33
  rw [← hu]
  rfl

/-- The degree vector is the same host term on both sides. -/
theorem degVec_eq : Cert.ScaleInputs.degVec x21 = val_main_v37 (F := Ideal) x21 := rfl

/-- The residual is the same join on both sides. -/
theorem res_eq : concatenate Cert.KernelIdeal.S50000x128 1 [⟨Cert.KernelIdeal.S50000x125, x0⟩, ⟨Cert.KernelIdeal.S50000x3, x2⟩]
      Cert.KernelIdeal.Gen.concatenates_S50000x125_S50000x3_S50000x128_d1 = val_main_v4 (F := Ideal) x0 x2 := rfl

/-- The kernel's specification at the shared host terms is the reference's stage. -/
theorem spec_eq :
    Cert.ScaleBlocks.scaleArr (Cert.ScaleInputs.segSum x21 (val_main_v30 (F := Ideal) x0 x1 x2 x3 x4 x5 x6 x7 x8 x9 x10 x21))
      (shapeCast Cert.KernelIdeal.S50000x1 (Cert.ScaleInputs.degVec x21) Cert.KernelIdeal.Gen.shapeCasts_S50000_S50000x1)
      (concatenate Cert.KernelIdeal.S50000x128 1 [⟨Cert.KernelIdeal.S50000x125, x0⟩, ⟨Cert.KernelIdeal.S50000x3, x2⟩]
        Cert.KernelIdeal.Gen.concatenates_S50000x125_S50000x3_S50000x128_d1)
      (shapeCast Cert.KernelIdeal.S1x128 x11 Cert.KernelIdeal.Gen.shapeCasts_S128_S1x128)
      (shapeCast Cert.KernelIdeal.S1x128 x12 Cert.KernelIdeal.Gen.shapeCasts_S128_S1x128)
    = val_main_v56 (F := Ideal) x0 x1 x2 x3 x4 x5 x6 x7 x8 x9 x10 x11 x12 x21 := by
  funext i
  obtain ⟨n, j, rfl⟩ : ∃ (n : Fin 50000) (j : Fin 128), i = ix2 n j := ⟨i 0, i 1, eq_ix2 i⟩
  rw [ref_apply, Cert.ScaleBlocks.scaleArr_apply, Cert.ColumnLayout.shapeCast_a_a1_apply, shapeCast_a_1a_apply,
    shapeCast_a_1a_apply, segSum_eq x0 x1 x2 x3 x4 x5 x6 x7 x8 x9 x10 x21 _ rfl, degVec_eq, res_eq]

end Cert.ScaleRef

end
-- ==== Proof.ScaleStage.lean ====
/-
  The third launch leaves the reference's input of the first normalisation.

  The launch's result array is the specification `scaleArr` of the five arrays the launch finds; those are the
  segment sum of the second launch's array (the reference's per-edge features, by hypothesis), the degree column,
  the residual and the two coefficient rows; and the specification at those arrays is the reference's stage.
-/
import proofs.«159312_j3624952397870_2_alg».proof.Proof.Stages
import proofs.«159312_j3624952397870_2_alg».proof.Proof.ScaleBlocks
import proofs.«159312_j3624952397870_2_alg».proof.Proof.ScaleInputs
import proofs.«159312_j3624952397870_2_alg».proof.Proof.ScaleRef

noncomputable section

namespace Cert.ScaleStage

open Idealize.ShloMosaic Idealize.ShloMosaic.TcCoe Idealize.SL.Sem
open Cert.KernelIdeal Cert.KernelIdeal.Gen Cert.Stages

/-- If the second launch leaves the reference's per-edge features, the third leaves the reference's input of the
    first normalisation. -/
theorem afterScale (m : KMem) (ρ : Dev nD → PrngReg) (c : Dev nD) (h : AfterEdge m ρ c) : AfterScale m ρ c := by
  have hE : W4 (F := Ideal) m ρ c (Proc.devRef .tc main_v31) = refEdge m c := h
  show W6 (F := Ideal) m ρ c (Proc.devRef .tc main_v40) = refPre1 m c
  refine (W6_arr m ρ c 5).trans ?_
  rw [Cert.ScaleBlocks.arr_eq (V5 (F := Ideal) m ρ) c, Cert.ScaleInputs.agg_entry, Cert.ScaleInputs.deg_entry,
    Cert.ScaleInputs.res_entry, Cert.ScaleInputs.c1_entry, Cert.ScaleInputs.c2_entry, hE]
  exact Cert.ScaleRef.spec_eq (x0 m c) (x1 m c) (x2 m c) (x3 m c) (x4 m c) (x5 m c) (x6 m c) (x7 m c) (x8 m c) (x9 m c)
    (x10 m c) (x11 m c) (x12 m c) (x21 m c)

end Cert.ScaleStage

end
-- ==== Proof.LibBiasRow.lean ====
/-
  A bias vector as a row, read at an index: a vector `[b]` placed as the one row of `[1, b]` reads its entry of the
  column; a row `[1, b]` repeated down `a` rows reads, at `(p, q)`, its entry `q`. (A `broadcast_in_dim` reads the
  operand's unit axes at coordinate zero and its other axes at the result's coordinate on the axis they are sent to.)
-/
import Idealize.ShloMosaic.Lib.ValueIdx
import Idealize.ShloMosaic.Lib.Pipeline.Value

noncomputable section

namespace Cert.BiasRow

open Idealize.ShloMosaic Idealize.ShloMosaic.ValueIdx

variable {α : Type}

/-- A vector `[b]` placed as the row of `[1, b]` reads, at `(u, q)`, its entry `q`. -/
theorem row_apply {b : ℕ} (x : (⟨1, ![b]⟩ : Shape).Idx → α) (h : (⟨1, ![b]⟩ : Shape).BroadcastsInDim ⟨2, ![1, b]⟩ ![1])
    (u : Fin 1) (q : Fin b) : broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A row `[1, b]` repeated down `a` rows reads, at `(p, q)`, the row's entry `q`. -/
theorem down_apply {a b : ℕ} (x : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

end Cert.BiasRow

end
-- ==== Proof.LibBroadcastInDim.lean ====
/-
  `broadcast_in_dim` of the small shapes around a column, read at an index: a scalar repeated over any shape reads the
  scalar; a vector `[a]` placed as a column `[a, 1]` reads its entry of the row; a column `[a, 1]` repeated along rows of
  width `b` reads the row's one entry. (The operand's unit axes read coordinate zero, its other axes the result's
  coordinate on the axis they are sent to.)
-/
import Idealize.ShloMosaic.Lib.ValueIdx
import Idealize.ShloMosaic.Lib.Pipeline.Value

noncomputable section

namespace Cert.BroadcastInDim

open Idealize.ShloMosaic Idealize.ShloMosaic.ValueIdx

variable {α : Type}

/-- A scalar repeated over a shape reads the scalar everywhere. -/
theorem scalar_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

/-- A vector `[a]` placed as a column `[a, 1]` reads, at `(i, u)`, its entry `i`. -/
theorem column_apply {a : ℕ} (x : (⟨1, ![a]⟩ : Shape).Idx → α) (h : (⟨1, ![a]⟩ : Shape).BroadcastsInDim ⟨2, ![a, 1]⟩ ![0])
    (i : Fin a) (u : Fin 1) : broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A column `[a, 1]` repeated along rows of width `b` reads, at `(p, c)`, the column's entry of row `p`. -/
theorem rows_apply {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.BroadcastInDim

end
-- ==== Proof.LibNormLaw.lean ====
/-
  The normalisation law on the extended reals, and the positivity that licenses it.

  A batch normalisation divides a centred value by the square root of "variance plus epsilon"; a kernel
  multiplies by the reciprocal square root instead. On the extended reals the two agree exactly when the argument
  of the root is positive (a positive real or plus infinity): at a negative argument, at zero and at minus
  infinity the quotient and the product are different extended reals. A variance computed as a sum of squares
  from zero, divided by a positive count, is nonnegative whatever the summands are (a square of an extended real
  is never negative, the infinities included), so adding a positive epsilon makes it positive: no finiteness of
  the data is needed.
-/
import Idealize.ShloMosaic.PureOps.Ideal
import Idealize.ShloMosaic.PureOps.Ideal.Laws

noncomputable section

open scoped BigOperators

namespace Cert.NormLaw

open Idealize.ShloMosaic

/-- Dividing by the square root of a positive extended real is multiplying by its reciprocal square root. -/
theorem div_sqrt_eq_mul_rsqrt (a y : EReal) (hy : 0 < y) : Ideal.div a (Ideal.sqrt y) = a * Ideal.rsqrt y := by
  induction y using EReal.rec with
  | bot => exact absurd hy (not_lt_bot)
  | top => rw [Ideal.sqrt_top, Ideal.rsqrt_top, Ideal.div, if_neg EReal.top_ne_zero, EReal.inv_top]
  | coe r =>
    have hr : 0 < r := by exact_mod_cast hy
    have hs : Real.sqrt r ≠ 0 := (Real.sqrt_pos.mpr hr).ne'
    rw [Ideal.sqrt_coe, Ideal.rsqrt_coe, if_neg (not_lt.mpr hr.le), if_neg (not_lt.mpr hr.le), if_neg hr.ne',
      Ideal.div, if_neg (by exact_mod_cast hs), EReal.coe_inv]

/-- The square of an extended real is nonnegative: the infinities square to plus infinity. -/
theorem mul_self_nonneg (z : EReal) : 0 ≤ z * z := by
  induction z using EReal.rec with
  | bot => rw [EReal.bot_mul_bot]; exact le_top
  | top => rw [EReal.top_mul_top]; exact le_top
  | coe r => rw [← EReal.coe_mul]; exact_mod_cast _root_.mul_self_nonneg r

/-- A sum of squares is nonnegative. -/
theorem sum_mul_self_nonneg {ι : Type*} (s : Finset ι) (z : ι → EReal) : 0 ≤ ∑ n ∈ s, z n * z n :=
  Finset.sum_nonneg fun n _ => mul_self_nonneg (z n)

/-- A nonnegative extended real divided by a positive real is nonnegative. -/
theorem div_nonneg_of_pos {x : EReal} (hx : 0 ≤ x) {d : ℝ} (hd : 0 < d) : 0 ≤ Ideal.div x (d : EReal) := by
  rw [Ideal.div_coe hd.ne']
  exact EReal.mul_nonneg hx (by exact_mod_cast (one_div_pos.mpr hd).le)

/-- "Variance plus epsilon" is positive: a sum of squares from a zero initial value, divided by a positive real
    count, plus a positive epsilon. -/
theorem var_add_eps_pos {ι : Type*} [Fintype ι] (z : ι → EReal) (init cnt eps : EReal) (d : ℝ)
    (hinit : init = 0) (hcnt : cnt = (d : EReal)) (hd : 0 < d) (heps : 0 < eps) :
    0 < Ideal.div (init + ∑ n, z n * z n) cnt + eps := by
  subst hinit hcnt
  rw [zero_add]
  have hv : 0 ≤ Ideal.div (∑ n, z n * z n) (d : EReal) := div_nonneg_of_pos (sum_mul_self_nonneg _ z) hd
  calc (0 : EReal) < eps := heps
    _ = 0 + eps := (zero_add eps).symm
    _ ≤ Ideal.div (∑ n, z n * z n) (d : EReal) + eps := add_le_add_left hv eps

/-- The f32 pattern of 50000.0 denotes the real 50000. -/
theorem ofBits_50000 : Ideal.ofBits .f32 0x47435000#32 = ((50000 : ℝ) : EReal) := by
  simp [Ideal.ofBits, Ideal.ieee, -EReal.coe_mul]; norm_num

/-- The f32 pattern nearest to 1e-5 denotes a positive real. -/
theorem ofBits_eps_pos : 0 < Ideal.ofBits .f32 0x3727C5AC#32 := by
  simp [Ideal.ofBits, Ideal.ieee, -EReal.coe_mul]

end Cert.NormLaw

end
-- ==== Proof.ColumnStats.lean ====
/-
  Column statistics, as the kernel program's host stretches compute them.

  Before each normalising launch the program computes, from an array `P` of 50000 rows and 128 columns, two rows
  of 128 entries: the column means (each column summed from zero, divided by 50000) and the column variances
  (each column of the squared deviations from the mean summed from zero, divided by 50000). This module names
  those two rows as functions of `P`, reads them at an entry as those sums, shows that a variance plus the
  normalisation's epsilon is positive whatever `P` holds, and identifies the buffers the two stretches write
  with these functions of the array the preceding launch left.
-/
import proofs.«159312_j3624952397870_2_alg».proof.Proof.Gen.KernelIdeal.Frame
import proofs.«159312_j3624952397870_2_alg».proof.Proof.LibBiasRow
import proofs.«159312_j3624952397870_2_alg».proof.Proof.LibBroadcastInDim
import proofs.«159312_j3624952397870_2_alg».proof.Proof.LibNormLaw
import Idealize.ShloMosaic.Lib.ValueIdx
import Idealize.ShloMosaic.PureOps.Ideal.Laws
import Idealize.ShloMosaic.Lib.StableHlo.Run

set_option maxRecDepth 16384

noncomputable section

open scoped BigOperators

namespace Cert.ColumnStats

open Idealize.ShloMosaic Idealize.ShloMosaic.TcCoe Idealize.SL.Sem Idealize.ShloMosaic.ValueIdx
open Cert.KernelIdeal Cert.KernelIdeal.Gen

/-- Each column of `P` summed from zero. -/
def colSum (P : FVec Ideal S50000x128 .f32) : FVec Ideal S128 .f32 :=
  Host.reduceAdd P (constant (F := Ideal) S_ .f32 0x00000000#32) reducesTo_S50000x128_S128_d0 h_S_

/-- A vector of 128 entries laid as a row and divided, entry by entry, by the count 50000. -/
def overCount (v : FVec Ideal S128 .f32) : FVec Ideal S1x128 .f32 :=
  Host.divf (broadcastInDim S1x128 ![1] bcast_S128_S1x128_1 v)
    (broadcastInDim S1x128 ![] bcast_S_S1x128 (constant (F := Ideal) S_ .f32 0x47435000#32))

/-- The row of column means. -/
def meanRow (P : FVec Ideal S50000x128 .f32) : FVec Ideal S1x128 .f32 := overCount (colSum P)

/-- `P` with its column mean subtracted from every entry. -/
def centred (P : FVec Ideal S50000x128 .f32) : FVec Ideal S50000x128 .f32 :=
  subf P (broadcastInDim S50000x128 ![0, 1] bcast_S1x128_S50000x128_0_1 (meanRow P))

/-- The row of column variances: the mean of the squared deviations. -/
def varRow (P : FVec Ideal S50000x128 .f32) : FVec Ideal S1x128 .f32 :=
  overCount (colSum (mulf (centred P) (centred P)))

/-- A column sum at column `j`: zero's pattern plus the sum of the column's entries. -/
theorem colSum_apply (P : FVec Ideal S50000x128 .f32) (j : Fin 128) :
    colSum P (ix1 j) = Ideal.ofBits .f32 0x00000000#32 + ∑ n : Fin 50000, P (ix2 n j) := by
  unfold colSum
  simp only [Host.reduceAdd, Ideal.hostReduceAdd_def]
  rw [Ideal.hostReduceAdd_single reducesTo_S50000x128_S128_d0 (by decide)]
  refine congrArg (_ + ·) (Finset.sum_congr rfl fun k _ => ?_)
  exact congrArg P (funext fun a => Fin.ext (by match a with | ⟨0, _⟩ => rfl | ⟨1, _⟩ => rfl))

/-- The row form divided by the count, at column `j`. -/
theorem overCount_apply (v : FVec Ideal S128 .f32) (u : Fin 1) (j : Fin 128) :
    overCount v (ix2 u j) = Ideal.div (v (ix1 j)) (Ideal.ofBits .f32 0x47435000#32) := by
  unfold overCount
  show Ideal.div (broadcastInDim S1x128 ![1] bcast_S128_S1x128_1 v (ix2 u j))
      (broadcastInDim S1x128 ![] bcast_S_S1x128 (constant (F := Ideal) S_ .f32 0x47435000#32) (ix2 u j)) = _
  rw [Cert.BiasRow.row_apply, Cert.BroadcastInDim.scalar_apply]
  rfl

/-- The mean of column `j`. -/
theorem meanRow_apply (P : FVec Ideal S50000x128 .f32) (u : Fin 1) (j : Fin 128) :
    meanRow P (ix2 u j)
      = Ideal.div (Ideal.ofBits .f32 0x00000000#32 + ∑ n : Fin 50000, P (ix2 n j)) (Ideal.ofBits .f32 0x47435000#32) := by
  unfold meanRow
  rw [overCount_apply, colSum_apply]

/-- A centred entry: the entry minus its column's mean. -/
theorem centred_apply (P : FVec Ideal S50000x128 .f32) (n : Fin 50000) (j : Fin 128) :
    centred P (ix2 n j) = P (ix2 n j) - meanRow P (ix2 (0 : Fin 1) j) := by
  unfold centred
  rw [subf_apply, Cert.BiasRow.down_apply]

/-- The variance of column `j`: the squared deviations summed from zero, over the count. -/
theorem varRow_apply (P : FVec Ideal S50000x128 .f32) (u : Fin 1) (j : Fin 128) :
    varRow P (ix2 u j)
      = Ideal.div (Ideal.ofBits .f32 0x00000000#32
          + ∑ n : Fin 50000, (P (ix2 n j) - meanRow P (ix2 (0 : Fin 1) j)) * (P (ix2 n j) - meanRow P (ix2 (0 : Fin 1) j)))
        (Ideal.ofBits .f32 0x47435000#32) := by
  unfold varRow
  rw [overCount_apply, colSum_apply]
  have hsum : (∑ n : Fin 50000, mulf (centred P) (centred P) (ix2 n j))
      = ∑ n : Fin 50000, (P (ix2 n j) - meanRow P (ix2 (0 : Fin 1) j)) * (P (ix2 n j) - meanRow P (ix2 (0 : Fin 1) j)) :=
    Finset.sum_congr rfl fun n _ => by rw [mulf_apply, centred_apply]
  rw [hsum]

/-- A column variance plus the normalisation's epsilon is positive, whatever the array holds: the variance is a
    sum of squares from zero over a positive count. -/
theorem varRow_add_eps_pos (P : FVec Ideal S50000x128 .f32) (u : Fin 1) (j : Fin 128) :
    0 < varRow P (ix2 u j) + Ideal.ofBits .f32 0x3727C5AC#32 := by
  rw [varRow_apply]
  exact Cert.NormLaw.var_add_eps_pos _ _ _ _ 50000 Ideal.ofBits_zero_f32 Cert.NormLaw.ofBits_50000 (by norm_num)
    Cert.NormLaw.ofBits_eps_pos

variable (m : (ℓ : Loc nD τ sig) → Buf (Elt Ideal) ℓ) (ρ : Dev nD → PrngReg) (c : Dev nD)

/-- Entering the fourth launch, the mean-row buffer holds the column means of the array the third launch left. -/
theorem mean_first : V7 (F := Ideal) m ρ c main_v44 = meanRow (W6 (F := Ideal) m ρ c (Proc.devRef .tc main_v40)) := by
  show StableHlo.after hostOps3 (W6 (F := Ideal) m ρ c) (Proc.devRef .tc main_v44) = _
  after_results <;> rfl

/-- … and the variance-row buffer its column variances. -/
theorem var_first : V7 (F := Ideal) m ρ c main_v51 = varRow (W6 (F := Ideal) m ρ c (Proc.devRef .tc main_v40)) := by
  show StableHlo.after hostOps3 (W6 (F := Ideal) m ρ c) (Proc.devRef .tc main_v51) = _
  after_results <;> rfl

/-- Entering the fifth launch, the mean-row buffer holds the column means of the array the fourth launch left. -/
theorem mean_second : V9 (F := Ideal) m ρ c main_v56 = meanRow (W8 (F := Ideal) m ρ c (Proc.devRef .tc main_v52)) := by
  show StableHlo.after hostOps4 (W8 (F := Ideal) m ρ c) (Proc.devRef .tc main_v56) = _
  after_results <;> rfl

/-- … and the variance-row buffer its column variances. -/
theorem var_second : V9 (F := Ideal) m ρ c main_v63 = varRow (W8 (F := Ideal) m ρ c (Proc.devRef .tc main_v52)) := by
  show StableHlo.after hostOps4 (W8 (F := Ideal) m ρ c) (Proc.devRef .tc main_v63) = _
  after_results <;> rfl

end Cert.ColumnStats

end
-- ==== Proof.FfnSpec.lean ====
/-
  The feed-forward stage, entry by entry.

  The stage takes an array P of 50000 rows and 128 columns. Each column j has a mean (the column's sum from zero,
  divided by the count 50000) and a variance (the sum from zero of the squared deviations from that mean, divided by
  the same count). An entry is normalised by centring it, scaling by the inverse root of "variance plus epsilon",
  multiplying by a per-column gain and adding a per-column offset. A row h of 128 normalised entries then goes
  through two dense layers with a rectifier between them, and the row itself is added back:
  (relu(h · W1 + b1) · W2 + b2) + h.

  One program scales by dividing by the square root, the other by multiplying by the reciprocal square root. The
  two agree on the extended reals because the argument of the root is positive: the variance is a sum of squares
  from zero over a positive count, so it is nonnegative, and epsilon is positive.
-/
import proofs.«159312_j3624952397870_2_alg».proof.Proof.LibNormLaw

noncomputable section

open scoped BigOperators

namespace Cert.FfnSpec

open Idealize.ShloMosaic

/-- The f32 word of zero: the initial value of every sum and the rectifier's floor. -/
abbrev zeroW : EReal := Ideal.ofBits .f32 0x00000000#32
/-- The f32 word of 50000.0: the row count. -/
abbrev cntW : EReal := Ideal.ofBits .f32 0x47435000#32
/-- The f32 word nearest to 1e-5: epsilon. -/
abbrev epsW : EReal := Ideal.ofBits .f32 0x3727C5AC#32

/-! ## One entry normalised -/

/-- Centre, multiply by the reciprocal square root of "variance plus epsilon", apply gain and offset. -/
def scaleMul (p mean var g be : EReal) : EReal := ((p - mean) * Ideal.rsqrt (var + epsW)) * g + be

/-- Centre, divide by the square root of "variance plus epsilon", apply gain and offset. -/
def scaleDiv (p mean var g be : EReal) : EReal := Ideal.div (p - mean) (Ideal.sqrt (var + epsW)) * g + be

/-- The two agree where "variance plus epsilon" is positive. -/
theorem scaleDiv_eq_scaleMul (p mean var g be : EReal) (h : 0 < var + epsW) :
    scaleDiv p mean var g be = scaleMul p mean var g be := by
  unfold scaleDiv scaleMul
  rw [Cert.NormLaw.div_sqrt_eq_mul_rsqrt _ _ h]

/-! ## The column statistics -/

variable (P : Fin 50000 → Fin 128 → EReal)

/-- The mean of column j. -/
def colMean (j : Fin 128) : EReal := Ideal.div (zeroW + ∑ n : Fin 50000, P n j) cntW

/-- The variance of column j about a given centre. -/
def colVarAbout (centre : EReal) (j : Fin 128) : EReal :=
  Ideal.div (zeroW + ∑ n : Fin 50000, (P n j - centre) * (P n j - centre)) cntW

/-- "Variance plus epsilon" is positive, about any centre, whatever the entries are. -/
theorem colVarAbout_add_eps_pos (centre : EReal) (j : Fin 128) : 0 < colVarAbout P centre j + epsW :=
  Cert.NormLaw.var_add_eps_pos (fun n => P n j - centre) zeroW cntW epsW 50000
    Ideal.ofBits_zero_f32 Cert.NormLaw.ofBits_50000 (by norm_num) Cert.NormLaw.ofBits_eps_pos

/-! ## The dense layers -/

/-- Two dense layers with a rectifier between them, plus the input row: entry j of the result for the row h. -/
def ffn (h : Fin 128 → EReal) (W1 : Fin 128 → Fin 256 → EReal) (b1 : Fin 256 → EReal)
    (W2 : Fin 256 → Fin 128 → EReal) (b2 : Fin 128 → EReal) (j : Fin 128) : EReal :=
  ((∑ k : Fin 256, max ((∑ l : Fin 128, h l * W1 l k) + b1 k) zeroW * W2 k j) + b2 j) + h j

/-- The whole stage at row n, column j, for an array P with given mean and variance rows, in the multiplying form. -/
def stageMul (mean var g be : Fin 128 → EReal) (W1 : Fin 128 → Fin 256 → EReal) (b1 : Fin 256 → EReal)
    (W2 : Fin 256 → Fin 128 → EReal) (b2 : Fin 128 → EReal) (n : Fin 50000) (j : Fin 128) : EReal :=
  ffn (fun l => scaleMul (P n l) (mean l) (var l) (g l) (be l)) W1 b1 W2 b2 j

/-- The same in the dividing form. -/
def stageDiv (mean var g be : Fin 128 → EReal) (W1 : Fin 128 → Fin 256 → EReal) (b1 : Fin 256 → EReal)
    (W2 : Fin 256 → Fin 128 → EReal) (b2 : Fin 128 → EReal) (n : Fin 50000) (j : Fin 128) : EReal :=
  ffn (fun l => scaleDiv (P n l) (mean l) (var l) (g l) (be l)) W1 b1 W2 b2 j

/-- With the variance row a variance about some centre row, the two forms of the stage agree. -/
theorem stageDiv_eq_stageMul (mean centre g be : Fin 128 → EReal) (W1 : Fin 128 → Fin 256 → EReal)
    (b1 : Fin 256 → EReal) (W2 : Fin 256 → Fin 128 → EReal) (b2 : Fin 128 → EReal) (n : Fin 50000) (j : Fin 128) :
    stageDiv P mean (fun l => colVarAbout P (centre l) l) g be W1 b1 W2 b2 n j
      = stageMul P mean (fun l => colVarAbout P (centre l) l) g be W1 b1 W2 b2 n j := by
  unfold stageDiv stageMul
  refine congrArg (fun h => ffn h W1 b1 W2 b2 j) (funext fun l => ?_)
  exact scaleDiv_eq_scaleMul _ _ _ _ _ (colVarAbout_add_eps_pos P (centre l) l)

end Cert.FfnSpec

end
-- ==== Proof.FfnPayload.lean ====
/-
  What one row tile of the feed-forward launch stores, entry by entry.

  The tile holds 2000 rows of the array to normalise, the mean row, the variance row, the gain and offset rows,
  and the two dense layers' weights and bias rows. At row r, column j it stores the feed-forward block of the
  normalised row r (centre, multiply by the reciprocal square root of "variance plus epsilon", gain, offset), plus
  that normalised row's own entry j. The two in-tile matrix products accumulate into zero tiles, so each is the
  plain sum of products along the contracted axis; a row of shape [1, b] repeated down the tile reads its entry of
  the column.
-/
import proofs.«159312_j3624952397870_2_alg».proof.Proof.Gen.KernelIdeal.Frame
import proofs.«159312_j3624952397870_2_alg».proof.Proof.LibDotSums
import proofs.«159312_j3624952397870_2_alg».proof.Proof.FfnSpec
import Idealize.ShloMosaic.Lib.ValueIdx
import Idealize.ShloMosaic.Lib.ValueLayout
import Idealize.ShloMosaic.Lib.Pipeline.Value

noncomputable section

open scoped BigOperators

namespace Cert.FfnPayload

open Idealize.ShloMosaic Idealize.ShloMosaic.ValueIdx
open Cert.KernelIdeal Cert.KernelIdeal.Gen
open Cert.FfnSpec

/-- The zero offsets of a whole-block access, as the constant function. -/
theorem offsets_zero : (![0, 0] : Fin 2 → Nat) = fun _ => 0 := funext fun a => by fin_cases a <;> rfl

/-- The normalised tile at (r, j): the entry centred by the mean row, scaled by the reciprocal root of the variance
    row plus epsilon, times the gain row, plus the offset row. -/
theorem normalised_apply (v0 : Vec Ideal S2000x128 .f32) (v2 v7 v13 v17 : Vec Ideal S1x128 .f32)
    (r : Fin 2000) (j : Fin 128) :
    k3_pay2 (F := Ideal) v0 v2 v7 v13 v17 (ix2 r j)
      = scaleMul (v0 (ix2 r j)) (v7 (ix2 (0 : Fin 1) j)) (v2 (ix2 (0 : Fin 1) j)) (v13 (ix2 (0 : Fin 1) j))
          (v17 (ix2 (0 : Fin 1) j)) := by
  unfold k3_pay2 scaleMul
  simp only [shapeCast_self, addf_apply, mulf_apply, subf_apply, broadcastTo_1b_ab_apply]
  rfl

/-- The hidden layer of the tile at (r, k): the rectified sum of products of the normalised row r with column k of
    the first weights, plus the first bias row. -/
theorem hidden_apply (h : FVec Ideal S2000x128 .bf16) (v22 : FVec Ideal S128x256 .bf16) (v25 : FVec Ideal S1x256 .f32)
    (r : Fin 2000) (k : Fin 256) :
    maximumf (addf (matmul dot_S2000x128_S128x256_S2000x256_1_0_0_1_n_n none h v22
        (constant (F := Ideal) S2000x256 .f32 0x00000000#32)) (broadcastTo S2000x256 v25 broadcasts_S1x256_S2000x256))
      (broadcast S2000x256 (Scalar.ofBits (F := Ideal) .f32 0x00000000#32)) (ix2 r k)
      = max ((∑ l : Fin 128, (h (ix2 r l) : EReal) * (v22 (ix2 l k) : EReal)) + v25 (ix2 (0 : Fin 1) k)) zeroW := by
  rw [maximumf_apply, addf_apply, broadcastTo_1b_ab_apply, broadcast_apply]
  refine congrArg (fun s => max (s + v25 (ix2 (0 : Fin 1) k)) _) ?_
  exact Cert.DotSums.matmul_zero_ix2 (φ₁ := .bf16) (φ₂ := .bf16) dot_S2000x128_S128x256_S2000x256_1_0_0_1_n_n none
    rfl rfl rfl rfl rfl rfl rfl rfl h v22 r k

/-- The feed-forward product of the tile at (r, j): the hidden row r times column j of the second weights. -/
theorem dense_apply (v0 : Vec Ideal S2000x128 .f32) (v2 v7 v13 v17 : Vec Ideal S1x128 .f32)
    (v22 : Vec Ideal S128x256 .bf16) (v25 : Vec Ideal S1x256 .f32) (v32 : Vec Ideal S256x128 .bf16)
    (r : Fin 2000) (j : Fin 128) :
    k3_pay3 (F := Ideal) v0 v2 v7 v13 v17 v22 v25 v32 (ix2 r j)
      = ∑ k : Fin 256, max ((∑ l : Fin 128, k3_pay2 (F := Ideal) v0 v2 v7 v13 v17 (ix2 r l) * v22 (ix2 l k))
          + v25 (ix2 (0 : Fin 1) k)) zeroW * v32 (ix2 k j) := by
  unfold k3_pay3
  simp only [shapeCast_self]
  refine (Cert.DotSums.matmul_zero_ix2 (φ₁ := .bf16) (φ₂ := .bf16) dot_S2000x256_S256x128_S2000x128_1_0_0_1_n_n none
    rfl rfl rfl rfl rfl rfl rfl rfl _ v32 r j).trans ?_
  refine Finset.sum_congr rfl fun k _ => ?_
  refine congrArg (· * (v32 (ix2 k j) : EReal)) ?_
  rw [truncf_apply]
  exact hidden_apply _ v22 v25 r k

/-- WHAT THE TILE STORES at (r, j): the feed-forward block of the normalised row r, plus that row's entry j. -/
theorem stored_apply (x0 : Vec Ideal S2000x128 .f32) (x1 x2 x3 x4 : Vec Ideal S1x128 .f32)
    (x5 : Vec Ideal S128x256 .bf16) (x6 : Vec Ideal S1x256 .f32) (x7 : Vec Ideal S256x128 .bf16)
    (x8 : Vec Ideal S1x128 .f32) (r : Fin 2000) (j : Fin 128) :
    out3_9 (F := Ideal) x0 x1 x2 x3 x4 x5 x6 x7 x8 (ix2 r j)
      = ffn (fun l => scaleMul (x0 (ix2 r l)) (x1 (ix2 (0 : Fin 1) l)) (x2 (ix2 (0 : Fin 1) l))
            (x3 (ix2 (0 : Fin 1) l)) (x4 (ix2 (0 : Fin 1) l)))
          (fun l k => x5 (ix2 l k)) (fun k => x6 (ix2 (0 : Fin 1) k)) (fun k j' => x7 (ix2 k j'))
          (fun j' => x8 (ix2 (0 : Fin 1) j')) j := by
  unfold out3_9
  rw [View.canon_unit_zero offsets_zero]
  simp only [View.ld_unit_zero (S := S2000x128) offsets_zero, View.ld_unit_zero (S := S1x128) offsets_zero,
    View.ld_unit_zero (S := S128x256) offsets_zero, View.ld_unit_zero (S := S1x256) offsets_zero,
    View.ld_unit_zero (S := S256x128) offsets_zero]
  unfold k3_pay1 k3_pay4 ffn
  simp only [shapeCast_self, addf_apply, broadcastTo_1b_ab_apply, dense_apply, normalised_apply]

end Cert.FfnPayload

end
-- ==== Proof.FfnBlocks.lean ====
/-
  From row tiles to the array: what the feed-forward launch leaves.

  The launch runs over 25 row tiles. Tile t reads rows 2000·t … 2000·t + 1999 of the array to normalise and the whole
  of every other operand (the mean row, the variance row, the gain and offset rows, both weight matrices and both
  bias rows), and writes back rows 2000·t … 2000·t + 1999 of the result. An entry of a block sits in its array at
  "block index × block size + its own coordinate" on each axis; the row-tiled windows have block index (t, 0) and
  the whole windows (0, 0). So row n of the result is written by tile n / 2000, the tiles cover all 50000 rows, and
  the array the launch leaves is one function of the arrays it found: at (n, j), the feed-forward block of the
  normalised row n plus that row's entry j.
-/
import proofs.«159312_j3624952397870_2_alg».proof.Proof.Gen.KernelIdeal.Frame
import proofs.«159312_j3624952397870_2_alg».proof.Proof.FfnPayload
import Idealize.ShloMosaic.Lib.Pipeline.Value
import Idealize.ShloMosaic.Lib.ValueIdx

noncomputable section

open scoped BigOperators

namespace Cert.FfnBlocks

open Idealize.ShloMosaic Idealize.ShloMosaic.TcCoe Idealize.ShloMosaic.ValueIdx Idealize.SL.Sem
open Idealize.ShloMosaic.Pipeline (Dat)
open Cert.KernelIdeal Cert.KernelIdeal.Gen
open Cert.FfnSpec

-- The arrays the launch finds, on every core, are a parameter.
variable (V : (c : Dev nD) → (b : Ref sig .tc) → Buf (Elt Ideal) ((c : Thread nD τ).loc b))
variable (c : Dev nD)

/-- A two-axis array given by rows and columns. -/
def ofRows {a b : ℕ} {α : Type} (R : Fin a → Fin b → α) : (⟨2, ![a, b]⟩ : Shape).Idx → α := fun i => R (i 0) (i 1)

theorem ofRows_ix2 {a b : ℕ} {α : Type} (R : Fin a → Fin b → α) (n : Fin a) (j : Fin b) :
    ofRows R (ix2 n j) = R n j := rfl

/-- THE RESULT, by rows and columns, from the arrays the launch finds: the feed-forward block of the normalised
    row n, plus that row's entry j. -/
def resultRows (n : Fin 50000) (j : Fin 128) : EReal :=
  ffn (fun l => scaleMul ((V c main_v40 : S50000x128.Idx → EReal) (ix2 n l))
        ((V c main_v44 : S1x128.Idx → EReal) (ix2 (0 : Fin 1) l)) ((V c main_v51 : S1x128.Idx → EReal) (ix2 (0 : Fin 1) l))
        ((V c main_v9 : S1x128.Idx → EReal) (ix2 (0 : Fin 1) l)) ((V c main_v10 : S1x128.Idx → EReal) (ix2 (0 : Fin 1) l)))
    (fun l k => (V c main_v17 : S128x256.Idx → EReal) (ix2 l k))
    (fun k => (V c main_v7 : S1x256.Idx → EReal) (ix2 (0 : Fin 1) k))
    (fun k j' => (V c main_v18 : S256x128.Idx → EReal) (ix2 k j'))
    (fun j' => (V c main_v8 : S1x128.Idx → EReal) (ix2 (0 : Fin 1) j')) j

/-! ## The block index maps, decided once over the 25 tiles -/

/-- The row-tiled windows (the array to normalise, the result) have block index (t, 0); every other window (0, 0). -/
theorem block_indices : ∀ t : Fin cfg3.N,
    (win3_0.index t (0 : Fin 2) = t.val ∧ win3_0.index t (1 : Fin 2) = 0)
    ∧ (win3_9.index t (0 : Fin 2) = t.val ∧ win3_9.index t (1 : Fin 2) = 0)
    ∧ (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0) :=
  (by decide +kernel : ∀ t : Fin grid3.N, _)

theorem tile_lt (t : Fin cfg3.N) : t.val < 25 := Nat.lt_of_lt_of_eq t.isLt N_3

/-- Row r of tile t is row 2000·t + r of the array. -/
def tileRow (t : Fin cfg3.N) (r : Fin 2000) : Fin 50000 :=
  ⟨t.val * 2000 + r.val, by have := tile_lt t; have := r.isLt; omega⟩

/-! ## Each input block as entries of its array -/

/-- The tile of the array to normalise. -/
theorem input_block (t : Fin cfg3.N) (r : Fin 2000) (l : Fin 128) :
    (iblk3 V c 0 t : S2000x128.Idx → EReal) (ix2 r l) = (V c main_v40 : S50000x128.Idx → EReal) (ix2 (tileRow t r) l) := by
  obtain ⟨⟨e0, e1⟩, -⟩ := block_indices t
  unfold iblk3
  rw [View.read_apply]
  show V c main_v40 _ = V c main_v40 _
  refine congrArg (V c main_v40) (funext fun a => Fin.ext ?_)
  match a with
  | ⟨0, _⟩ => show win3_0.index t (0 : Fin 2) * 2000 + 1 * r.val = t.val * 2000 + r.val; rw [e0]; omega
  | ⟨1, _⟩ => show win3_0.index t (1 : Fin 2) * 128 + 1 * l.val = l.val; rw [e1]; omega

/-- The mean row is read whole by every tile. -/
theorem mean_block (t : Fin cfg3.N) (u : Fin 1) (l : Fin 128) :
    (iblk3 V c 1 t : S1x128.Idx → EReal) (ix2 u l) = (V c main_v44 : S1x128.Idx → EReal) (ix2 u l) := by
  obtain ⟨-, -, ⟨e0, e1⟩, -⟩ := block_indices t
  unfold iblk3
  rw [View.read_apply]
  show V c main_v44 _ = V c main_v44 _
  refine congrArg (V c main_v44) (funext fun a => Fin.ext ?_)
  match a with
  | ⟨0, _⟩ => show win3_1.index t (0 : Fin 2) * 1 + 1 * u.val = u.val; rw [e0]; omega
  | ⟨1, _⟩ => show win3_1.index t (1 : Fin 2) * 128 + 1 * l.val = l.val; rw [e1]; omega

/-- The variance row is read whole by every tile. -/
theorem variance_block (t : Fin cfg3.N) (u : Fin 1) (l : Fin 128) :
    (iblk3 V c 2 t : S1x128.Idx → EReal) (ix2 u l) = (V c main_v51 : S1x128.Idx → EReal) (ix2 u l) := by
  obtain ⟨-, -, -, ⟨e0, e1⟩, -⟩ := block_indices t
  unfold iblk3
  rw [View.read_apply]
  show V c main_v51 _ = V c main_v51 _
  refine congrArg (V c main_v51) (funext fun a => Fin.ext ?_)
  match a with
  | ⟨0, _⟩ => show win3_2.index t (0 : Fin 2) * 1 + 1 * u.val = u.val; rw [e0]; omega
  | ⟨1, _⟩ => show win3_2.index t (1 : Fin 2) * 128 + 1 * l.val = l.val; rw [e1]; omega

/-- The gain row is read whole by every tile. -/
theorem gain_block (t : Fin cfg3.N) (u : Fin 1) (l : Fin 128) :
    (iblk3 V c 3 t : S1x128.Idx → EReal) (ix2 u l) = (V c main_v9 : S1x128.Idx → EReal) (ix2 u l) := by
  obtain ⟨-, -, -, -, ⟨e0, e1⟩, -⟩ := block_indices t
  unfold iblk3
  rw [View.read_apply]
  show V c main_v9 _ = V c main_v9 _
  refine congrArg (V c main_v9) (funext fun a => Fin.ext ?_)
  match a with
  | ⟨0, _⟩ => show win3_3.index t (0 : Fin 2) * 1 + 1 * u.val = u.val; rw [e0]; omega
  | ⟨1, _⟩ => show win3_3.index t (1 : Fin 2) * 128 + 1 * l.val = l.val; rw [e1]; omega

/-- The offset row is read whole by every tile. -/
theorem offset_block (t : Fin cfg3.N) (u : Fin 1) (l : Fin 128) :
    (iblk3 V c 4 t : S1x128.Idx → EReal) (ix2 u l) = (V c main_v10 : S1x128.Idx → EReal) (ix2 u l) := by
  obtain ⟨-, -, -, -, -, ⟨e0, e1⟩, -⟩ := block_indices t
  unfold iblk3
  rw [View.read_apply]
  show V c main_v10 _ = V c main_v10 _
  refine congrArg (V c main_v10) (funext fun a => Fin.ext ?_)
  match a with
  | ⟨0, _⟩ => show win3_4.index t (0 : Fin 2) * 1 + 1 * u.val = u.val; rw [e0]; omega
  | ⟨1, _⟩ => show win3_4.index t (1 : Fin 2) * 128 + 1 * l.val = l.val; rw [e1]; omega

/-- The first weight matrix is read whole by every tile. -/
theorem weights1_block (t : Fin cfg3.N) (l : Fin 128) (k : Fin 256) :
    (iblk3 V c 5 t : S128x256.Idx → EReal) (ix2 l k) = (V c main_v17 : S128x256.Idx → EReal) (ix2 l k) := by
  obtain ⟨-, -, -, -, -, -, ⟨e0, e1⟩, -⟩ := block_indices t
  unfold iblk3
  rw [View.read_apply]
  show V c main_v17 _ = V c main_v17 _
  refine congrArg (V c main_v17) (funext fun a => Fin.ext ?_)
  match a with
  | ⟨0, _⟩ => show win3_5.index t (0 : Fin 2) * 128 + 1 * l.val = l.val; rw [e0]; omega
  | ⟨1, _⟩ => show win3_5.index t (1 : Fin 2) * 256 + 1 * k.val = k.val; rw [e1]; omega

/-- The first bias row is read whole by every tile. -/
theorem bias1_block (t : Fin cfg3.N) (u : Fin 1) (k : Fin 256) :
    (iblk3 V c 6 t : S1x256.Idx → EReal) (ix2 u k) = (V c main_v7 : S1x256.Idx → EReal) (ix2 u k) := by
  obtain ⟨-, -, -, -, -, -, -, ⟨e0, e1⟩, -⟩ := block_indices t
  unfold iblk3
  rw [View.read_apply]
  show V c main_v7 _ = V c main_v7 _
  refine congrArg (V c main_v7) (funext fun a => Fin.ext ?_)
  match a with
  | ⟨0, _⟩ => show win3_6.index t (0 : Fin 2) * 1 + 1 * u.val = u.val; rw [e0]; omega
  | ⟨1, _⟩ => show win3_6.index t (1 : Fin 2) * 256 + 1 * k.val = k.val; rw [e1]; omega

/-- The second weight matrix is read whole by every tile. -/
theorem weights2_block (t : Fin cfg3.N) (k : Fin 256) (l : Fin 128) :
    (iblk3 V c 7 t : S256x128.Idx → EReal) (ix2 k l) = (V c main_v18 : S256x128.Idx → EReal) (ix2 k l) := by
  obtain ⟨-, -, -, -, -, -, -, -, ⟨e0, e1⟩, -⟩ := block_indices t
  unfold iblk3
  rw [View.read_apply]
  show V c main_v18 _ = V c main_v18 _
  refine congrArg (V c main_v18) (funext fun a => Fin.ext ?_)
  match a with
  | ⟨0, _⟩ => show win3_7.index t (0 : Fin 2) * 256 + 1 * k.val = k.val; rw [e0]; omega
  | ⟨1, _⟩ => show win3_7.index t (1 : Fin 2) * 128 + 1 * l.val = l.val; rw [e1]; omega

/-- The second bias row is read whole by every tile. -/
theorem bias2_block (t : Fin cfg3.N) (u : Fin 1) (l : Fin 128) :
    (iblk3 V c 8 t : S1x128.Idx → EReal) (ix2 u l) = (V c main_v8 : S1x128.Idx → EReal) (ix2 u l) := by
  obtain ⟨-, -, -, -, -, -, -, -, -, e0, e1⟩ := block_indices t
  unfold iblk3
  rw [View.read_apply]
  show V c main_v8 _ = V c main_v8 _
  refine congrArg (V c main_v8) (funext fun a => Fin.ext ?_)
  match a with
  | ⟨0, _⟩ => show win3_8.index t (0 : Fin 2) * 1 + 1 * u.val = u.val; rw [e0]; omega
  | ⟨1, _⟩ => show win3_8.index t (1 : Fin 2) * 128 + 1 * l.val = l.val; rw [e1]; omega

/-! ## What a tile writes back, and the array after all of them -/

/-- WHAT TILE t WRITES BACK is rows 2000·t … 2000·t + 1999 of the result. -/
theorem flushed_eq (t : Fin cfg3.N) :
    (dat3 V c).flushed 9 t = ((cfg3.win 9).blk t).view.read (Elt Ideal) (ofRows (resultRows V c)) := by
  obtain ⟨-, ⟨e0, e1⟩, -⟩ := block_indices t
  show (cfg3.win 9).cut (grid3.coords t) ((dat3 V c).after 9 t) = _
  rw [after3_9]
  funext y
  obtain ⟨r, j, rfl⟩ : ∃ (r : Fin 2000) (j : Fin 128), y = ix2 r j := ⟨y 0, y 1, eq_ix2 y⟩
  show out3_9 (iblk3 V c 0 t) (iblk3 V c 1 t) (iblk3 V c 2 t) (iblk3 V c 3 t) (iblk3 V c 4 t) (iblk3 V c 5 t)
      (iblk3 V c 6 t) (iblk3 V c 7 t) (iblk3 V c 8 t) (ix2 r j)
    = ofRows (resultRows V c) (((cfg3.win 9).blk t).view.emb (ix2 r j))
  have hemb : ((cfg3.win 9).blk t).view.emb (ix2 r j) = ix2 (tileRow t r) j := funext fun a => Fin.ext (by
    match a with
    | ⟨0, _⟩ => show win3_9.index t (0 : Fin 2) * 2000 + 1 * r.val = t.val * 2000 + r.val; rw [e0]; omega
    | ⟨1, _⟩ => show win3_9.index t (1 : Fin 2) * 128 + 1 * j.val = j.val; rw [e1]; omega)
  rw [hemb, ofRows_ix2]
  refine (Cert.FfnPayload.stored_apply (iblk3 V c 0 t) (iblk3 V c 1 t) (iblk3 V c 2 t) (iblk3 V c 3 t) (iblk3 V c 4 t)
    (iblk3 V c 5 t) (iblk3 V c 6 t) (iblk3 V c 7 t) (iblk3 V c 8 t) r j).trans ?_
  unfold resultRows
  simp only [input_block, mean_block, variance_block, gain_block, offset_block, weights1_block, bias1_block,
    weights2_block, bias2_block]

/-- An index of the result array is in tile t's block iff each coordinate is in the block's range on its axis. -/
theorem mem_block (t : Fin cfg3.N) (i : S50000x128.Idx) :
    i ∈ ((cfg3.win 9).blk t).view.set ↔ ∀ a : Fin 2, win3_9.index t a * S2000x128.size a ≤ (i a).val
      ∧ (i a).val < win3_9.index t a * S2000x128.size a + S2000x128.size a := by
  show i ∈ ((View.whole main_v52).slice (win3_9.rect t)).set ↔ _
  rw [View.set_slice_whole, Rect.mem_set_unit]
  exact Iff.rfl

/-- Row n of the result lies in the block of tile n / 2000: the tiles cover the array. -/
theorem covered (i : S50000x128.Idx) :
    ∃ t : Fin cfg3.N, (cfg3.win 9).flush t = true ∧ i ∈ ((cfg3.win 9).blk t).view.set := by
  have hi0 : (i 0).val < 50000 := (i 0).isLt
  have hi1 : (i 1).val < 128 := (i 1).isLt
  obtain ⟨t, ht⟩ : ∃ t : Fin cfg3.N, t.val = (i 0).val / 2000 :=
    ⟨⟨(i 0).val / 2000, Nat.lt_of_lt_of_eq (by omega) N_3.symm⟩, rfl⟩
  obtain ⟨-, ⟨e0, e1⟩, -⟩ := block_indices t
  refine ⟨t, flush3_9 t, ?_⟩
  rw [mem_block]
  intro a
  match a with
  | ⟨0, _⟩ =>
    show win3_9.index t (0 : Fin 2) * 2000 ≤ (i 0).val ∧ (i 0).val < win3_9.index t (0 : Fin 2) * 2000 + 2000
    rw [e0, ht]; omega
  | ⟨1, _⟩ =>
    show win3_9.index t (1 : Fin 2) * 128 ≤ (i 1).val ∧ (i 1).val < win3_9.index t (1 : Fin 2) * 128 + 128
    rw [e1]; omega

/-- THE ARRAY THE LAUNCH LEAVES is the result, whatever arrays it found. -/
theorem leaves : (dat3 V c).arrAt 9 cfg3.N = ofRows (resultRows V c) :=
  (dat3 V c).arrAt_eq_of_cover 9 (ofRows (resultRows V c)) (fun t _ => flushed_eq V c t) (covered)

end Cert.FfnBlocks

end
-- ==== Proof.FfnInputs.lean ====
/-
  The operands the feed-forward launch finds that no earlier launch wrote.

  The gain and offset rows, the two bias rows and the two weight matrices are prepared once, before the first launch:
  each vector is reshaped to a one-row matrix and each weight matrix is rounded to the narrower float type (the
  identity on the extended reals). No later host operation writes these buffers and no launch before the
  feed-forward one owns them, so at the feed-forward launch they still hold what the first host stretch left: the
  reshape, or the rounding, of the launch argument. The array to normalise is the previous launch's result, which
  the host stretch between the two launches reads but does not write.
-/
import proofs.«159312_j3624952397870_2_alg».proof.Proof.Gen.KernelIdeal.Frame
import Idealize.ShloMosaic.Lib.StableHlo.Run
import Idealize.ShloMosaic.PureOps.Ideal

noncomputable section

namespace Cert.FfnInputs

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- The gain row is the gain vector as one row. -/
theorem gain_row : V7 (F := Ideal) m ρ c main_v9
    = shapeCast S1x128 (m ((c : Thread nD τ).loc main_arg17)) shapeCasts_S128_S1x128 := by
  show StableHlo.after hostOps3 (W6 m ρ c) (Proc.devRef .tc main_v9) = _
  after_results
  rw [W6_of_ne m ρ c main_v9 (by decide)]
  show StableHlo.after hostOps2 (W4 m ρ c) (Proc.devRef .tc main_v9) = _
  after_results
  rw [W4_of_ne m ρ c main_v9 (by decide)]
  show StableHlo.after hostOps1 (W2 m ρ c) (Proc.devRef .tc main_v9) = _
  after_results
  rw [W2_of_ne m ρ c main_v9 (by decide)]
  show StableHlo.after hostOps0 (W0 m ρ c) (Proc.devRef .tc main_v9) = _
  after_results
  rfl

/-- The offset row is the offset vector as one row. -/
theorem offset_row : V7 (F := Ideal) m ρ c main_v10
    = shapeCast S1x128 (m ((c : Thread nD τ).loc main_arg18)) shapeCasts_S128_S1x128 := by
  show StableHlo.after hostOps3 (W6 m ρ c) (Proc.devRef .tc main_v10) = _
  after_results
  rw [W6_of_ne m ρ c main_v10 (by decide)]
  show StableHlo.after hostOps2 (W4 m ρ c) (Proc.devRef .tc main_v10) = _
  after_results
  rw [W4_of_ne m ρ c main_v10 (by decide)]
  show StableHlo.after hostOps1 (W2 m ρ c) (Proc.devRef .tc main_v10) = _
  after_results
  rw [W2_of_ne m ρ c main_v10 (by decide)]
  show StableHlo.after hostOps0 (W0 m ρ c) (Proc.devRef .tc main_v10) = _
  after_results
  rfl

/-- The first bias row is the first bias vector as one row. -/
theorem bias1_row : V7 (F := Ideal) m ρ c main_v7
    = shapeCast S1x256 (m ((c : Thread nD τ).loc main_arg14)) shapeCasts_S256_S1x256 := by
  show StableHlo.after hostOps3 (W6 m ρ c) (Proc.devRef .tc main_v7) = _
  after_results
  rw [W6_of_ne m ρ c main_v7 (by decide)]
  show StableHlo.after hostOps2 (W4 m ρ c) (Proc.devRef .tc main_v7) = _
  after_results
  rw [W4_of_ne m ρ c main_v7 (by decide)]
  show StableHlo.after hostOps1 (W2 m ρ c) (Proc.devRef .tc main_v7) = _
  after_results
  rw [W2_of_ne m ρ c main_v7 (by decide)]
  show StableHlo.after hostOps0 (W0 m ρ c) (Proc.devRef .tc main_v7) = _
  after_results
  rfl

/-- The second bias row is the second bias vector as one row. -/
theorem bias2_row : V7 (F := Ideal) m ρ c main_v8
    = shapeCast S1x128 (m ((c : Thread nD τ).loc main_arg16)) shapeCasts_S128_S1x128 := by
  show StableHlo.after hostOps3 (W6 m ρ c) (Proc.devRef .tc main_v8) = _
  after_results
  rw [W6_of_ne m ρ c main_v8 (by decide)]
  show StableHlo.after hostOps2 (W4 m ρ c) (Proc.devRef .tc main_v8) = _
  after_results
  rw [W4_of_ne m ρ c main_v8 (by decide)]
  show StableHlo.after hostOps1 (W2 m ρ c) (Proc.devRef .tc main_v8) = _
  after_results
  rw [W2_of_ne m ρ c main_v8 (by decide)]
  show StableHlo.after hostOps0 (W0 m ρ c) (Proc.devRef .tc main_v8) = _
  after_results
  rfl

/-- The first weight matrix, rounded to the narrower type. -/
theorem weights1 : V7 (F := Ideal) m ρ c main_v17
    = (truncf .bf16 (m ((c : Thread nD τ).loc main_arg13) : FVec Ideal S128x256 .f32) bitsLt_bf16_f32
        : FVec Ideal S128x256 .bf16) := by
  show StableHlo.after hostOps3 (W6 m ρ c) (Proc.devRef .tc main_v17) = _
  after_results
  rw [W6_of_ne m ρ c main_v17 (by decide)]
  show StableHlo.after hostOps2 (W4 m ρ c) (Proc.devRef .tc main_v17) = _
  after_results
  rw [W4_of_ne m ρ c main_v17 (by decide)]
  show StableHlo.after hostOps1 (W2 m ρ c) (Proc.devRef .tc main_v17) = _
  after_results
  rw [W2_of_ne m ρ c main_v17 (by decide)]
  show StableHlo.after hostOps0 (W0 m ρ c) (Proc.devRef .tc main_v17) = _
  after_results

/-- The second weight matrix, rounded to the narrower type. -/
theorem weights2 : V7 (F := Ideal) m ρ c main_v18
    = (truncf .bf16 (m ((c : Thread nD τ).loc main_arg15) : FVec Ideal S256x128 .f32) bitsLt_bf16_f32
        : FVec Ideal S256x128 .bf16) := by
  show StableHlo.after hostOps3 (W6 m ρ c) (Proc.devRef .tc main_v18) = _
  after_results
  rw [W6_of_ne m ρ c main_v18 (by decide)]
  show StableHlo.after hostOps2 (W4 m ρ c) (Proc.devRef .tc main_v18) = _
  after_results
  rw [W4_of_ne m ρ c main_v18 (by decide)]
  show StableHlo.after hostOps1 (W2 m ρ c) (Proc.devRef .tc main_v18) = _
  after_results
  rw [W2_of_ne m ρ c main_v18 (by decide)]
  show StableHlo.after hostOps0 (W0 m ρ c) (Proc.devRef .tc main_v18) = _
  after_results

/-- The array to normalise is what the previous launch left: the host stretch in between does not write it. -/
theorem input_array : V7 (F := Ideal) m ρ c main_v40 = W6 (F := Ideal) m ρ c (Proc.devRef .tc main_v40) := by
  show StableHlo.after hostOps3 (W6 m ρ c) (Proc.devRef .tc main_v40) = _
  after_results

end Cert.FfnInputs

end
-- ==== Proof.FfnReference.lean ====
/-
  The reference's feed-forward stage, entry by entry.

  The reference computes the stage on the whole array at once: the column sums of the array P from zero, divided
  by the count, are the mean vector; the column sums of the squared deviations, divided by the count, the variance
  vector; both are placed as rows and repeated down the 50000 rows; the centred array is divided by the square
  root of "variance plus epsilon", multiplied by the gain and shifted by the offset; then two matrix products with
  a rectifier between them, each plus its bias row, and the normalised array added back. Read at row n and column
  j, each broadcast reads its vector's entry j, each product is the sum of products along the contracted axis, and
  the result is the dividing form of the stage at (n, j).
-/
import proofs.«159312_j3624952397870_2_alg».proof.Proof.RefRead
import proofs.«159312_j3624952397870_2_alg».proof.Proof.FfnSpec
import Idealize.ShloMosaic.Lib.ValueIdx

noncomputable section

open scoped BigOperators

namespace Cert.FfnReference

open Idealize.ShloMosaic Idealize.ShloMosaic.ValueIdx
open Cert.ReferenceIdeal Cert.ReferenceIdeal.Read
open Cert.FfnSpec

/-! ## Where each layout operation reads: the generated index maps at explicit coordinates -/

theorem colsum_idx (j : Fin 128) (k : Fin 50000) : idx_main_v57 (ix1 j) k = ix2 k j :=
  funext fun a => Fin.ext (by match a with | ⟨0, _⟩ => rfl | ⟨1, _⟩ => rfl)
theorem sqsum_idx (j : Fin 128) (k : Fin 50000) : idx_main_v64 (ix1 j) k = ix2 k j :=
  funext fun a => Fin.ext (by match a with | ⟨0, _⟩ => rfl | ⟨1, _⟩ => rfl)
theorem row_idx60 (u : Fin 1) (j : Fin 128) : idx_main_v60 (ix2 u j) = ix1 j :=
  funext fun a => Fin.ext (by match a with | ⟨0, _⟩ => rfl)
theorem down_idx61 (n : Fin 50000) (j : Fin 128) : idx_main_v61 (ix2 n j) = ix2 (0 : Fin 1) j :=
  funext fun a => Fin.ext (by match a with | ⟨0, _⟩ => rfl | ⟨1, _⟩ => rfl)
theorem row_idx67 (u : Fin 1) (j : Fin 128) : idx_main_v67 (ix2 u j) = ix1 j :=
  funext fun a => Fin.ext (by match a with | ⟨0, _⟩ => rfl)
theorem down_idx68 (n : Fin 50000) (j : Fin 128) : idx_main_v68 (ix2 n j) = ix2 (0 : Fin 1) j :=
  funext fun a => Fin.ext (by match a with | ⟨0, _⟩ => rfl | ⟨1, _⟩ => rfl)
theorem row_idx73 (u : Fin 1) (j : Fin 128) : idx_main_v73 (ix2 u j) = ix1 j :=
  funext fun a => Fin.ext (by match a with | ⟨0, _⟩ => rfl)
theorem down_idx74 (n : Fin 50000) (j : Fin 128) : idx_main_v74 (ix2 n j) = ix2 (0 : Fin 1) j :=
  funext fun a => Fin.ext (by match a with | ⟨0, _⟩ => rfl | ⟨1, _⟩ => rfl)
theorem row_idx76 (u : Fin 1) (j : Fin 128) : idx_main_v76 (ix2 u j) = ix1 j :=
  funext fun a => Fin.ext (by match a with | ⟨0, _⟩ => rfl)
theorem down_idx77 (n : Fin 50000) (j : Fin 128) : idx_main_v77 (ix2 n j) = ix2 (0 : Fin 1) j :=
  funext fun a => Fin.ext (by match a with | ⟨0, _⟩ => rfl | ⟨1, _⟩ => rfl)
theorem row_idx79 (u : Fin 1) (j : Fin 128) : idx_main_v79 (ix2 u j) = ix1 j :=
  funext fun a => Fin.ext (by match a with | ⟨0, _⟩ => rfl)
theorem down_idx80 (n : Fin 50000) (j : Fin 128) : idx_main_v80 (ix2 n j) = ix2 (0 : Fin 1) j :=
  funext fun a => Fin.ext (by match a with | ⟨0, _⟩ => rfl | ⟨1, _⟩ => rfl)
theorem row_idx83 (u : Fin 1) (k : Fin 256) : idx_main_v83 (ix2 u k) = ix1 k :=
  funext fun a => Fin.ext (by match a with | ⟨0, _⟩ => rfl)
theorem down_idx84 (n : Fin 50000) (k : Fin 256) : idx_main_v84 (ix2 n k) = ix2 (0 : Fin 1) k :=
  funext fun a => Fin.ext (by match a with | ⟨0, _⟩ => rfl | ⟨1, _⟩ => rfl)
theorem row_idx88 (u : Fin 1) (j : Fin 128) : idx_main_v88 (ix2 u j) = ix1 j :=
  funext fun a => Fin.ext (by match a with | ⟨0, _⟩ => rfl)
theorem down_idx89 (n : Fin 50000) (j : Fin 128) : idx_main_v89 (ix2 n j) = ix2 (0 : Fin 1) j :=
  funext fun a => Fin.ext (by match a with | ⟨0, _⟩ => rfl | ⟨1, _⟩ => rfl)
theorem lidx82 (n : Fin 50000) (k : Fin 256) (l : Fin 128) : lidx_main_v82 (ix2 n k) l = ix2 n l :=
  funext fun a => Fin.ext (by match a with | ⟨0, _⟩ => rfl | ⟨1, _⟩ => rfl)
theorem ridx82 (n : Fin 50000) (k : Fin 256) (l : Fin 128) : ridx_main_v82 (ix2 n k) l = ix2 l k :=
  funext fun a => Fin.ext (by match a with | ⟨0, _⟩ => rfl | ⟨1, _⟩ => rfl)
theorem lidx87 (n : Fin 50000) (j : Fin 128) (k : Fin 256) : lidx_main_v87 (ix2 n j) k = ix2 n k :=
  funext fun a => Fin.ext (by match a with | ⟨0, _⟩ => rfl | ⟨1, _⟩ => rfl)
theorem ridx87 (n : Fin 50000) (j : Fin 128) (k : Fin 256) : ridx_main_v87 (ix2 n j) k = ix2 k j :=
  funext fun a => Fin.ext (by match a with | ⟨0, _⟩ => rfl | ⟨1, _⟩ => rfl)

/-! ## The stage's values -/

variable (x0 : (⟨S50000x125, .f32⟩ : BufTy).Contents (Elt Ideal)) (x1 : (⟨S600000x4, .f32⟩ : BufTy).Contents (Elt Ideal))
  (x2 : (⟨S50000x3, .f32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S4x128, .f32⟩ : BufTy).Contents (Elt Ideal))
  (x8 : (⟨S128, .f32⟩ : BufTy).Contents (Elt Ideal)) (x9 : (⟨S128x128, .f32⟩ : BufTy).Contents (Elt Ideal))
  (x10 x11 x12 : (⟨S128, .f32⟩ : BufTy).Contents (Elt Ideal)) (x13 : (⟨S128x256, .f32⟩ : BufTy).Contents (Elt Ideal))
  (x14 : (⟨S256, .f32⟩ : BufTy).Contents (Elt Ideal)) (x15 : (⟨S256x128, .f32⟩ : BufTy).Contents (Elt Ideal))
  (x16 x17 x18 : (⟨S128, .f32⟩ : BufTy).Contents (Elt Ideal)) (x21 : (⟨S2x600000, .i32⟩ : BufTy).Contents (Elt Ideal))

/-- The array the stage normalises, by rows and columns. -/
abbrev input (n : Fin 50000) (j : Fin 128) : EReal := val_main_v56 (F := Ideal) x0 x1 x2 x3 x4 x5 x6 x7 x8 x9 x10 x11 x12 x21 (ix2 n j)

/-- The mean vector is the column mean. -/
theorem mean_apply (j : Fin 128) :
    val_main_v59 (F := Ideal) x0 x1 x2 x3 x4 x5 x6 x7 x8 x9 x10 x11 x12 x21 (ix1 j) = colMean (input x0 x1 x2 x3 x4 x5 x6 x7 x8 x9 x10 x11 x12 x21) j := by
  unfold colMean
  rw [val_main_v59_apply, val_main_v57_apply, val_main_v58_apply]
  simp only [val_main_cst_5_apply, val_main_cst_6_apply, Ideal.hostDivf_def, Ideal.ofBits_def, colsum_idx]

/-- The variance vector is the column variance about the mean vector's entry. -/
theorem variance_apply (j : Fin 128) :
    val_main_v66 (F := Ideal) x0 x1 x2 x3 x4 x5 x6 x7 x8 x9 x10 x11 x12 x21 (ix1 j)
      = colVarAbout (input x0 x1 x2 x3 x4 x5 x6 x7 x8 x9 x10 x11 x12 x21) (val_main_v59 (F := Ideal) x0 x1 x2 x3 x4 x5 x6 x7 x8 x9 x10 x11 x12 x21 (ix1 j)) j := by
  unfold colVarAbout
  rw [val_main_v66_apply, val_main_v64_apply, val_main_v65_apply]
  simp only [val_main_v63_apply, val_main_v62_apply, val_main_v61_apply, val_main_v60_apply, sqsum_idx, down_idx61,
    row_idx60, val_main_cst_7_apply, val_main_cst_8_apply, Ideal.hostDivf_def, Ideal.ofBits_def, Ideal.mulf_def,
    Ideal.subf_def]

/-- The normalised array at (n, j): the dividing form. -/
theorem normalised_apply (n : Fin 50000) (j : Fin 128) :
    val_main_v81 (F := Ideal) x0 x1 x2 x3 x4 x5 x6 x7 x8 x9 x10 x11 x12 x17 x18 x21 (ix2 n j)
      = scaleDiv (input x0 x1 x2 x3 x4 x5 x6 x7 x8 x9 x10 x11 x12 x21 n j) (val_main_v59 (F := Ideal) x0 x1 x2 x3 x4 x5 x6 x7 x8 x9 x10 x11 x12 x21 (ix1 j))
          (val_main_v66 (F := Ideal) x0 x1 x2 x3 x4 x5 x6 x7 x8 x9 x10 x11 x12 x21 (ix1 j)) (x17 (ix1 j)) (x18 (ix1 j)) := by
  unfold scaleDiv
  rw [val_main_v81_apply, val_main_v78_apply, val_main_v75_apply, val_main_v69_apply, val_main_v68_apply,
    val_main_v67_apply, val_main_v74_apply, val_main_v73_apply, val_main_v72_apply, val_main_v71_apply,
    val_main_v70_apply, val_main_v77_apply, val_main_v76_apply, val_main_v80_apply, val_main_v79_apply]
  simp only [down_idx68, row_idx67, down_idx74, row_idx73, down_idx77, row_idx76, down_idx80, row_idx79,
    val_main_cst_9_apply, Ideal.hostDivf_def, Ideal.ofBits_def, Ideal.mulf_def, Ideal.subf_def, Ideal.addf_def,
    Ideal.hostUnary_sqrt_def]

/-- The stage's result at (n, j): the dense layers of the normalised row n, plus its entry j. -/
theorem result_apply (n : Fin 50000) (j : Fin 128) :
    val_main_v91 (F := Ideal) x0 x1 x2 x3 x4 x5 x6 x7 x8 x9 x10 x11 x12 x13 x14 x15 x16 x17 x18 x21 (ix2 n j)
      = ffn (fun l => val_main_v81 (F := Ideal) x0 x1 x2 x3 x4 x5 x6 x7 x8 x9 x10 x11 x12 x17 x18 x21 (ix2 n l)) (fun l k => x13 (ix2 l k)) (fun k => x14 (ix1 k))
          (fun k j' => x15 (ix2 k j')) (fun j' => x16 (ix1 j')) j := by
  unfold ffn
  rw [val_main_v91_apply, val_main_v90_apply, val_main_v87_apply, val_main_v89_apply, val_main_v88_apply]
  simp only [val_main_v86_apply, val_main_v85_apply, val_main_v82_apply, val_main_v84_apply, val_main_v83_apply,
    val_main_call2_v0_apply, val_main_call2_cst_apply, lidx87, ridx87, lidx82, ridx82, down_idx84, row_idx83,
    down_idx89, row_idx88, Ideal.ofBits_def, Ideal.addf_def, Ideal.maximumf_def]

/-- THE REFERENCE'S STAGE at (n, j) is the dividing form of the stage, with the column mean and the column variance
    about it. -/
theorem stage_apply (n : Fin 50000) (j : Fin 128) :
    val_main_v91 (F := Ideal) x0 x1 x2 x3 x4 x5 x6 x7 x8 x9 x10 x11 x12 x13 x14 x15 x16 x17 x18 x21 (ix2 n j)
      = stageDiv (input x0 x1 x2 x3 x4 x5 x6 x7 x8 x9 x10 x11 x12 x21) (colMean (input x0 x1 x2 x3 x4 x5 x6 x7 x8 x9 x10 x11 x12 x21))
          (fun l => colVarAbout (input x0 x1 x2 x3 x4 x5 x6 x7 x8 x9 x10 x11 x12 x21) (colMean (input x0 x1 x2 x3 x4 x5 x6 x7 x8 x9 x10 x11 x12 x21) l) l)
          (fun l => x17 (ix1 l)) (fun l => x18 (ix1 l)) (fun l k => x13 (ix2 l k)) (fun k => x14 (ix1 k))
          (fun k j' => x15 (ix2 k j')) (fun j' => x16 (ix1 j')) n j := by
  rw [result_apply]
  unfold stageDiv
  refine congrArg (fun h => ffn h _ _ _ _ j) (funext fun l => ?_)
  rw [normalised_apply, variance_apply, mean_apply]

end Cert.FfnReference

end
-- ==== Proof.FfnStage.lean ====
/-
  The feed-forward launch leaves the reference's stage.

  Given that the previous launch left the reference's input P of the first normalisation, the host stretch before
  the feed-forward launch computes P's column means and column variances as rows, and the launch finds them beside
  P, the gain and offset rows, the weights and the bias rows. It leaves, at (n, j), the feed-forward block of the
  row n normalised by MULTIPLYING with the reciprocal square root of "variance plus epsilon", plus that row's
  entry j. The reference's stage at (n, j) is the same expression with the centred entry DIVIDED by the square
  root. The variance row is a sum of squares from zero over a positive count, so "variance plus epsilon" is
  positive and the two forms agree on the extended reals, with no condition on the data.
-/
import proofs.«159312_j3624952397870_2_alg».proof.Proof.Stages
import proofs.«159312_j3624952397870_2_alg».proof.Proof.ColumnStats
import proofs.«159312_j3624952397870_2_alg».proof.Proof.FfnBlocks
import proofs.«159312_j3624952397870_2_alg».proof.Proof.FfnInputs
import proofs.«159312_j3624952397870_2_alg».proof.Proof.FfnReference
import Idealize.ShloMosaic.Lib.ValueLayout

noncomputable section

open scoped BigOperators

namespace Cert.FfnStage

open Idealize.ShloMosaic Idealize.ShloMosaic.TcCoe Idealize.ShloMosaic.ValueIdx Idealize.SL.Sem
open Cert.KernelIdeal Cert.KernelIdeal.Gen
open Cert.Stages Cert.FfnSpec

variable (m : Cert.Stages.KMem) (ρ : Dev nD → PrngReg) (c : Dev nD)

/-- The reference's input of the first normalisation, by rows and columns. -/
abbrev inputRows : Fin 50000 → Fin 128 → EReal :=
  Cert.FfnReference.input (x0 m c) (x1 m c) (x2 m c) (x3 m c) (x4 m c) (x5 m c) (x6 m c) (x7 m c) (x8 m c) (x9 m c) (x10 m c) (x11 m c) (x12 m c) (x21 m c)

/-- The launch's result at (n, j), once the previous launch is known to have left the reference's stage: the
    multiplying form of the stage at the reference's input, with its column mean and its column variance about
    that mean. -/
theorem launch_apply (h : AfterScale m ρ c) (n : Fin 50000) (j : Fin 128) :
    Cert.FfnBlocks.resultRows (V7 (F := Ideal) m ρ) c n j
      = stageMul (inputRows m c) (colMean (inputRows m c))
          (fun l => colVarAbout (inputRows m c) (colMean (inputRows m c) l) l)
          (fun l => x17 m c (ix1 l)) (fun l => x18 m c (ix1 l)) (fun l k => x13 m c (ix2 l k))
          (fun k => x14 m c (ix1 k)) (fun k j' => x15 m c (ix2 k j')) (fun j' => x16 m c (ix1 j')) n j := by
  have hP : V7 (F := Ideal) m ρ c main_v40 = refPre1 m c := (Cert.FfnInputs.input_array m ρ c).trans h
  have hmean : V7 (F := Ideal) m ρ c main_v44 = Cert.ColumnStats.meanRow (refPre1 m c) := by
    rw [Cert.ColumnStats.mean_first]; exact congrArg Cert.ColumnStats.meanRow h
  have hvar : V7 (F := Ideal) m ρ c main_v51 = Cert.ColumnStats.varRow (refPre1 m c) := by
    rw [Cert.ColumnStats.var_first]; exact congrArg Cert.ColumnStats.varRow h
  unfold Cert.FfnBlocks.resultRows stageMul colMean colVarAbout
  rw [hP, hmean, hvar, Cert.FfnInputs.gain_row, Cert.FfnInputs.offset_row, Cert.FfnInputs.bias1_row,
    Cert.FfnInputs.bias2_row, Cert.FfnInputs.weights1, Cert.FfnInputs.weights2]
  simp only [Cert.ColumnStats.meanRow_apply, Cert.ColumnStats.varRow_apply, shapeCast_a_1a_apply, truncf_apply]

/-- THE STAGE EQUATION: after the feed-forward launch its result array holds the reference's stage. -/
theorem afterFfn (h : AfterScale m ρ c) : AfterFfn m ρ c := by
  unfold AfterFfn
  refine ((W8_arr m ρ c 9).trans (Cert.FfnBlocks.leaves (V7 (F := Ideal) m ρ) c)).trans ?_
  funext i
  obtain ⟨n, j, rfl⟩ : ∃ (n : Fin 50000) (j : Fin 128), i = ix2 n j := ⟨i 0, i 1, eq_ix2 i⟩
  rw [Cert.FfnBlocks.ofRows_ix2, launch_apply m ρ c h n j]
  refine Eq.trans ?_ (Cert.FfnReference.stage_apply (x0 m c) (x1 m c) (x2 m c) (x3 m c) (x4 m c) (x5 m c) (x6 m c) (x7 m c) (x8 m c) (x9 m c) (x10 m c) (x11 m c) (x12 m c) (x13 m c) (x14 m c) (x15 m c) (x16 m c) (x17 m c) (x18 m c) (x21 m c) n j).symm
  exact (stageDiv_eq_stageMul (inputRows m c) (colMean (inputRows m c)) (colMean (inputRows m c)) _ _ _ _ _ _ n j).symm

end Cert.FfnStage

end
-- ==== Proof.NormBlocks.lean ====
/-
  The last launch (the second normalisation), from one tile's stored entry to the whole array.

  A tile loads a [2000,128] block of the array to be normalised and four [1,128] rows: the column means, the column
  variances, the scale and the shift. It stores ((x − mean) · rsqrt(var + ε)) · scale + shift, every row repeated
  down the tile's rows: the stored entry at (r, j) reads the block at (r, j) and each row at (0, j). The launch runs
  25 tiles; tile t holds rows 2000·t … 2000·t + 1999, every tile sees the four rows whole. So the array the launch
  leaves is one function `normArr` of the arrays it finds, read index by index, and row n lies in tile n / 2000.
-/
import proofs.«159312_j3624952397870_2_alg».proof.Proof.Gen.KernelIdeal.Frame
import Idealize.ShloMosaic.Lib.ValueLayout

noncomputable section

namespace Cert.NormPayload
open Idealize.ShloMosaic Idealize.ShloMosaic.ValueIdx Cert.KernelIdeal Cert.KernelIdeal.Gen

/-- The zero offset of a whole-block load or store. -/
theorem hz : (![0, 0] : Fin 2 → Nat) = fun _ => 0 := funext fun a => by fin_cases a <;> rfl

/-- A reciprocal square root taken entry by entry. -/
theorem rsqrt_apply {s : Shape} {φ : FTy} (a : FVec Ideal s φ) (i : s.Idx) : rsqrt a i = Ideal.rsqrt (a i) := rfl

/-- The stored entry at row `r`, column `j` of the tile:
    `((P (r, j) − mean (0, j)) · rsqrt (var (0, j) + ε)) · g (0, j) + be (0, j)`. -/
theorem out_apply (P : Vec Ideal S2000x128 .f32) (mean var g be : Vec Ideal S1x128 .f32) (r : Fin 2000) (j : Fin 128) :
    out4_5 P mean var g be (ix2 r j) =
      (P (ix2 r j) - mean (ix2 (0 : Fin 1) j)) * Ideal.rsqrt (var (ix2 (0 : Fin 1) j) + Ideal.ofBits .f32 0x3727C5AC#32)
        * g (ix2 (0 : Fin 1) j) + be (ix2 (0 : Fin 1) j) := by
  unfold out4_5
  rw [View.canon_unit_zero hz]
  simp only [View.ld_unit_zero (S := S2000x128) hz, View.ld_unit_zero (S := S1x128) hz]
  unfold k4_pay1
  simp only [shapeCast_self, addf_apply, mulf_apply, subf_apply, broadcastTo_1b_ab_apply, rsqrt_apply, broadcast_apply,
    Ideal.ofBits_def]

end Cert.NormPayload

namespace Cert.NormBlocks
open Idealize.ShloMosaic Idealize.ShloMosaic.TcCoe Idealize.SL.Sem Idealize.ShloMosaic.ValueIdx
open Cert.KernelIdeal Cert.KernelIdeal.Gen
open Idealize.ShloMosaic.Pipeline (Dat)

/-- The result as a function of whole arrays: at (n, j),
    `((P (n, j) − mean (0, j)) · rsqrt (var (0, j) + ε)) · g (0, j) + be (0, j)`. -/
def normArr (P : FVec Ideal S50000x128 .f32) (mean var g be : FVec Ideal S1x128 .f32) : FVec Ideal S50000x128 .f32 := fun i =>
  (P i - mean (ix2 (0 : Fin 1) (i 1))) * Ideal.rsqrt (var (ix2 (0 : Fin 1) (i 1)) + Ideal.ofBits .f32 0x3727C5AC#32)
    * g (ix2 (0 : Fin 1) (i 1)) + be (ix2 (0 : Fin 1) (i 1))

/-- `normArr` read at row `n`, column `j`. -/
theorem normArr_apply (P : FVec Ideal S50000x128 .f32) (mean var g be : FVec Ideal S1x128 .f32) (n : Fin 50000) (j : Fin 128) :
    normArr P mean var g be (ix2 n j) =
      (P (ix2 n j) - mean (ix2 (0 : Fin 1) j)) * Ideal.rsqrt (var (ix2 (0 : Fin 1) j) + Ideal.ofBits .f32 0x3727C5AC#32)
        * g (ix2 (0 : Fin 1) j) + be (ix2 (0 : Fin 1) j) := rfl

variable (V : (c : Dev nD) → (b : Ref sig .tc) → Buf (Elt Ideal) ((c : Thread nD τ).loc b))

/-- The block indices of the six windows at tile t: the row-tiled input and output sit at block row t, the four rows
    at block (0, 0). Decided over the 25 tiles. -/
theorem idx_facts : ∀ t : Fin cfg4.N,
    win4_0.index t (0 : Fin 2) = t.val ∧ win4_0.index t (1 : Fin 2) = 0
  ∧ win4_1.index t (0 : Fin 2) = 0 ∧ win4_1.index t (1 : Fin 2) = 0
  ∧ win4_2.index t (0 : Fin 2) = 0 ∧ win4_2.index t (1 : Fin 2) = 0
  ∧ win4_3.index t (0 : Fin 2) = 0 ∧ win4_3.index t (1 : Fin 2) = 0
  ∧ win4_4.index t (0 : Fin 2) = 0 ∧ win4_4.index t (1 : Fin 2) = 0
  ∧ win4_5.index t (0 : Fin 2) = t.val ∧ win4_5.index t (1 : Fin 2) = 0 :=
  (by decide +kernel : ∀ t : Fin grid4.N, _)

/-- Tile t's block of the input at (r, j) is the array's entry at row 2000·t + r, column j. -/
theorem blk_in (c : Dev nD) (t : Fin cfg4.N) (r : Fin 2000) (j : Fin 128) (i : S50000x128.Idx)
    (h0 : (i 0).val = 2000 * t.val + r.val) (h1 : (i 1).val = j.val) :
    iblk4 V c 0 t (ix2 r j) = V c main_v52 i := by
  obtain ⟨e0, e1, -⟩ := idx_facts t
  unfold iblk4
  rw [View.read_apply]
  show V c main_v52 _ = V c main_v52 _
  congr 1
  funext a
  apply Fin.ext
  match a with
  | ⟨0, _⟩ => show win4_0.index t (0 : Fin 2) * 2000 + 1 * r.val = (i 0).val; rw [e0, h0]; omega
  | ⟨1, _⟩ => show win4_0.index t (1 : Fin 2) * 128 + 1 * j.val = (i 1).val; rw [e1, h1]; omega

/-- Every tile's block of the mean row is the row itself. -/
theorem blk_mean (c : Dev nD) (t : Fin cfg4.N) (u : Fin 1) (j : Fin 128) (i : S1x128.Idx) (h1 : (i 1).val = j.val) :
    iblk4 V c 1 t (ix2 u j) = V c main_v56 i := by
  obtain ⟨-, -, e0, e1, -⟩ := idx_facts t
  unfold iblk4
  rw [View.read_apply]
  show V c main_v56 _ = V c main_v56 _
  congr 1
  funext a
  apply Fin.ext
  match a with
  | ⟨0, _⟩ =>
    show win4_1.index t (0 : Fin 2) * 1 + 1 * u.val = (i 0).val
    rw [e0]; have hi : (i 0).val < 1 := (i 0).isLt; have hu : u.val < 1 := u.isLt; omega
  | ⟨1, _⟩ => show win4_1.index t (1 : Fin 2) * 128 + 1 * j.val = (i 1).val; rw [e1, h1]; omega

/-- Every tile's block of the variance row is the row itself. -/
theorem blk_var (c : Dev nD) (t : Fin cfg4.N) (u : Fin 1) (j : Fin 128) (i : S1x128.Idx) (h1 : (i 1).val = j.val) :
    iblk4 V c 2 t (ix2 u j) = V c main_v63 i := by
  obtain ⟨-, -, -, -, e0, e1, -⟩ := idx_facts t
  unfold iblk4
  rw [View.read_apply]
  show V c main_v63 _ = V c main_v63 _
  congr 1
  funext a
  apply Fin.ext
  match a with
  | ⟨0, _⟩ =>
    show win4_2.index t (0 : Fin 2) * 1 + 1 * u.val = (i 0).val
    rw [e0]; have hi : (i 0).val < 1 := (i 0).isLt; have hu : u.val < 1 := u.isLt; omega
  | ⟨1, _⟩ => show win4_2.index t (1 : Fin 2) * 128 + 1 * j.val = (i 1).val; rw [e1, h1]; omega

/-- Every tile's block of the scale row is the row itself. -/
theorem blk_g (c : Dev nD) (t : Fin cfg4.N) (u : Fin 1) (j : Fin 128) (i : S1x128.Idx) (h1 : (i 1).val = j.val) :
    iblk4 V c 3 t (ix2 u j) = V c main_v11 i := by
  obtain ⟨-, -, -, -, -, -, e0, e1, -⟩ := idx_facts t
  unfold iblk4
  rw [View.read_apply]
  show V c main_v11 _ = V c main_v11 _
  congr 1
  funext a
  apply Fin.ext
  match a with
  | ⟨0, _⟩ =>
    show win4_3.index t (0 : Fin 2) * 1 + 1 * u.val = (i 0).val
    rw [e0]; have hi : (i 0).val < 1 := (i 0).isLt; have hu : u.val < 1 := u.isLt; omega
  | ⟨1, _⟩ => show win4_3.index t (1 : Fin 2) * 128 + 1 * j.val = (i 1).val; rw [e1, h1]; omega

/-- Every tile's block of the shift row is the row itself. -/
theorem blk_be (c : Dev nD) (t : Fin cfg4.N) (u : Fin 1) (j : Fin 128) (i : S1x128.Idx) (h1 : (i 1).val = j.val) :
    iblk4 V c 4 t (ix2 u j) = V c main_v12 i := by
  obtain ⟨-, -, -, -, -, -, -, -, e0, e1, -⟩ := idx_facts t
  unfold iblk4
  rw [View.read_apply]
  show V c main_v12 _ = V c main_v12 _
  congr 1
  funext a
  apply Fin.ext
  match a with
  | ⟨0, _⟩ =>
    show win4_4.index t (0 : Fin 2) * 1 + 1 * u.val = (i 0).val
    rw [e0]; have hi : (i 0).val < 1 := (i 0).isLt; have hu : u.val < 1 := u.isLt; omega
  | ⟨1, _⟩ => show win4_4.index t (1 : Fin 2) * 128 + 1 * j.val = (i 1).val; rw [e1, h1]; omega

/-- What tile t writes back is rows 2000·t … 2000·t + 1999 of `normArr` of the arrays the launch finds. -/
theorem flushed_eq (c : Dev nD) (t : Fin cfg4.N) :
    (dat4 V c).flushed 5 t = ((cfg4.win 5).blk t).view.read (Elt Ideal)
      (normArr (V c main_v52) (V c main_v56) (V c main_v63) (V c main_v11) (V c main_v12)) := by
  show (cfg4.win 5).cut (grid4.coords t) ((dat4 V c).after 5 t) = _
  rw [after4_5]
  funext y
  obtain ⟨r, j, rfl⟩ : ∃ (r : Fin 2000) (j : Fin 128), y = ix2 r j := ⟨y 0, y 1, eq_ix2 y⟩
  rw [View.read_apply]
  obtain ⟨-, -, -, -, -, -, -, -, -, -, e0, e1⟩ := idx_facts t
  generalize hi : ((cfg4.win 5).blk t).view.emb (ix2 r j) = i
  have h0 : (i 0).val = 2000 * t.val + r.val := by
    rw [← hi]; show win4_5.index t (0 : Fin 2) * 2000 + 1 * r.val = _; rw [e0]; omega
  have h1 : (i 1).val = j.val := by
    rw [← hi]; show win4_5.index t (1 : Fin 2) * 128 + 1 * j.val = _; rw [e1]; omega
  show out4_5 (iblk4 V c 0 t) (iblk4 V c 1 t) (iblk4 V c 2 t) (iblk4 V c 3 t) (iblk4 V c 4 t) (ix2 r j) = _
  rw [Cert.NormPayload.out_apply (iblk4 V c 0 t) (iblk4 V c 1 t) (iblk4 V c 2 t) (iblk4 V c 3 t) (iblk4 V c 4 t) r j,
    blk_in V c t r j i h0 h1, blk_mean V c t 0 j (ix2 (0 : Fin 1) (i 1)) h1, blk_var V c t 0 j (ix2 (0 : Fin 1) (i 1)) h1,
    blk_g V c t 0 j (ix2 (0 : Fin 1) (i 1)) h1, blk_be V c t 0 j (ix2 (0 : Fin 1) (i 1)) h1]
  rfl

/-- An index of the result lies in tile t's block iff each coordinate lies in the block's range on its axis. -/
theorem mem_blk (t : Fin cfg4.N) (i : S50000x128.Idx) :
    i ∈ ((cfg4.win 5).blk t).view.set ↔ ∀ a : Fin 2, win4_5.index t a * S2000x128.size a ≤ (i a).val
      ∧ (i a).val < win4_5.index t a * S2000x128.size a + S2000x128.size a := by
  show i ∈ ((View.whole main_v64).slice (win4_5.rect t)).set ↔ _
  rw [View.set_slice_whole, Rect.mem_set_unit]
  exact Iff.rfl

/-- Row n of the result lies in the block of tile n / 2000. -/
theorem cover (i : S50000x128.Idx) :
    ∃ t : Fin cfg4.N, (cfg4.win 5).flush t = true ∧ i ∈ ((cfg4.win 5).blk t).view.set := by
  have hi0 : (i 0).val < 50000 := (i 0).isLt
  have hi1 : (i 1).val < 128 := (i 1).isLt
  have hN : cfg4.N = 25 := N_4
  let t : Fin cfg4.N := ⟨(i 0).val / 2000, by rw [hN]; omega⟩
  obtain ⟨-, -, -, -, -, -, -, -, -, -, e0, e1⟩ := idx_facts t
  have ht : t.val = (i 0).val / 2000 := rfl
  refine ⟨t, flush4_5 t, ?_⟩
  rw [mem_blk]
  intro a
  match a with
  | ⟨0, _⟩ =>
    show win4_5.index t (0 : Fin 2) * 2000 ≤ (i 0).val ∧ (i 0).val < win4_5.index t (0 : Fin 2) * 2000 + 2000
    rw [e0, ht]; omega
  | ⟨1, _⟩ =>
    show win4_5.index t (1 : Fin 2) * 128 ≤ (i 1).val ∧ (i 1).val < win4_5.index t (1 : Fin 2) * 128 + 128
    rw [e1]; omega

/-- The array the launch leaves is `normArr` of the arrays it finds. -/
theorem arr_eq (c : Dev nD) :
    (dat4 V c).arrAt 5 cfg4.N = normArr (V c main_v52) (V c main_v56) (V c main_v63) (V c main_v11) (V c main_v12) :=
  (dat4 V c).arrAt_eq_of_cover 5 _ (fun t _ => flushed_eq V c t) cover

end Cert.NormBlocks
end
-- ==== Proof.NormInputs.lean ====
/-
  The arrays the last launch finds that earlier steps left untouched.

  The array to be normalised is what the fourth launch left; the host stretch before the last launch reads it to form
  the column means and variances and does not write it. The scale and shift rows are [128] arguments placed as
  [1, 128] rows before the first launch; no launch and no host stretch writes them afterwards.
-/
import proofs.«159312_j3624952397870_2_alg».proof.Proof.ScaleInputs

noncomputable section

namespace Cert.NormInputs
open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- The array to be normalised, as the last launch finds it: what the fourth launch left (the host stretch in
    between only reads it). -/
theorem in_entry : V9 (F := Ideal) m ρ c main_v52 = W8 (F := Ideal) m ρ c (Proc.devRef .tc main_v52) := by
  unwritten hostOps4

/-- The scale row the last launch finds: the [128] argument as a [1, 128] row, written before the first launch. -/
theorem g_entry : V9 (F := Ideal) m ρ c main_v11
    = shapeCast S1x128 (m ((c : Thread nD τ).loc main_arg19)) shapeCasts_S128_S1x128 :=
  calc V9 (F := Ideal) m ρ c main_v11
    _ = W8 (F := Ideal) m ρ c (Proc.devRef .tc main_v11) := by unwritten hostOps4
    _ = W7 (F := Ideal) m ρ c (Proc.devRef .tc main_v11) := W8_of_ne m ρ c main_v11 (by decide)
    _ = W6 (F := Ideal) m ρ c (Proc.devRef .tc main_v11) := by unwritten hostOps3
    _ = W5 (F := Ideal) m ρ c (Proc.devRef .tc main_v11) := W6_of_ne m ρ c main_v11 (by decide)
    _ = W4 (F := Ideal) m ρ c (Proc.devRef .tc main_v11) := by unwritten hostOps2
    _ = W3 (F := Ideal) m ρ c (Proc.devRef .tc main_v11) := W4_of_ne m ρ c main_v11 (by decide)
    _ = W2 (F := Ideal) m ρ c (Proc.devRef .tc main_v11) := by unwritten hostOps1
    _ = W1 (F := Ideal) m ρ c (Proc.devRef .tc main_v11) := W2_of_ne m ρ c main_v11 (by decide)
    _ = _ := by
        show StableHlo.after hostOps0 (W0 (F := Ideal) m ρ c) (Proc.devRef .tc main_v11) = _
        after_results
        rfl

/-- The shift row the last launch finds. -/
theorem be_entry : V9 (F := Ideal) m ρ c main_v12
    = shapeCast S1x128 (m ((c : Thread nD τ).loc main_arg20)) shapeCasts_S128_S1x128 :=
  calc V9 (F := Ideal) m ρ c main_v12
    _ = W8 (F := Ideal) m ρ c (Proc.devRef .tc main_v12) := by unwritten hostOps4
    _ = W7 (F := Ideal) m ρ c (Proc.devRef .tc main_v12) := W8_of_ne m ρ c main_v12 (by decide)
    _ = W6 (F := Ideal) m ρ c (Proc.devRef .tc main_v12) := by unwritten hostOps3
    _ = W5 (F := Ideal) m ρ c (Proc.devRef .tc main_v12) := W6_of_ne m ρ c main_v12 (by decide)
    _ = W4 (F := Ideal) m ρ c (Proc.devRef .tc main_v12) := by unwritten hostOps2
    _ = W3 (F := Ideal) m ρ c (Proc.devRef .tc main_v12) := W4_of_ne m ρ c main_v12 (by decide)
    _ = W2 (F := Ideal) m ρ c (Proc.devRef .tc main_v12) := by unwritten hostOps1
    _ = W1 (F := Ideal) m ρ c (Proc.devRef .tc main_v12) := W2_of_ne m ρ c main_v12 (by decide)
    _ = _ := by
        show StableHlo.after hostOps0 (W0 (F := Ideal) m ρ c) (Proc.devRef .tc main_v12) = _
        after_results
        rfl

end Cert.NormInputs

end
-- ==== Proof.NormRef.lean ====
/-
  The reference's second normalisation, read at an index, and its agreement with the kernel's specification of the
  last launch.

  The reference forms, for every column j, the mean of the column (its sum from zero over the count 50000) and the
  variance (the sum from zero of the squared deviations over the same count), and returns
  ((x − mean) / sqrt(var + ε)) · scale + shift. The kernel's host stretch forms the same two sums as [1,128] rows, and
  the launch multiplies by rsqrt(var + ε) instead of dividing by the square root. The two column statistics agree sum
  by sum. The quotient and the product agree because var + ε is positive: the variance is a sum of squares from zero
  over a positive count, whatever the data (infinite entries included), and ε is a positive number.
-/
import proofs.«159312_j3624952397870_2_alg».proof.Proof.Stages
import proofs.«159312_j3624952397870_2_alg».proof.Proof.NormBlocks
import proofs.«159312_j3624952397870_2_alg».proof.Proof.ColumnStats
import Idealize.ShloMosaic.Lib.ValueLayout

noncomputable section

open scoped BigOperators

namespace Cert.NormRef

open Idealize.ShloMosaic Idealize.ShloMosaic.ValueIdx
open Cert.ReferenceIdeal Cert.ReferenceIdeal.Read

variable (x0 : (⟨S50000x125, .f32⟩ : BufTy).Contents (Elt Ideal)) (x1 : (⟨S600000x4, .f32⟩ : BufTy).Contents (Elt Ideal))
  (x2 : (⟨S50000x3, .f32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S4x128, .f32⟩ : BufTy).Contents (Elt Ideal))
  (x8 : (⟨S128, .f32⟩ : BufTy).Contents (Elt Ideal)) (x9 : (⟨S128x128, .f32⟩ : BufTy).Contents (Elt Ideal))
  (x10 x11 x12 : (⟨S128, .f32⟩ : BufTy).Contents (Elt Ideal)) (x13 : (⟨S128x256, .f32⟩ : BufTy).Contents (Elt Ideal))
  (x14 : (⟨S256, .f32⟩ : BufTy).Contents (Elt Ideal)) (x15 : (⟨S256x128, .f32⟩ : BufTy).Contents (Elt Ideal))
  (x16 x17 x18 x19 x20 : (⟨S128, .f32⟩ : BufTy).Contents (Elt Ideal)) (x21 : (⟨S2x600000, .i32⟩ : BufTy).Contents (Elt Ideal))

/-- The reference's mean of column `j` is the column mean of the reference's own stage. -/
theorem mean_eq (j : Fin 128) :
    val_main_v94 (F := Ideal) x0 x1 x2 x3 x4 x5 x6 x7 x8 x9 x10 x11 x12 x13 x14 x15 x16 x17 x18 x21 (ix1 j)
      = Cert.ColumnStats.meanRow (val_main_v91 (F := Ideal) x0 x1 x2 x3 x4 x5 x6 x7 x8 x9 x10 x11 x12 x13 x14 x15 x16 x17 x18 x21) (ix2 (0 : Fin 1) j) := by
  have e : ∀ k : Fin 50000, idx_main_v92 (ix1 j) k = ix2 k j :=
    fun k => funext fun a => Fin.ext (by match a with | ⟨0, _⟩ => rfl | ⟨1, _⟩ => rfl)
  simp only [Cert.ColumnStats.meanRow_apply, val_main_v94_apply, val_main_v92_apply, val_main_v93_apply,
    val_main_cst_11_apply, val_main_cst_10_apply, e, Ideal.hostDivf_def, Ideal.ofBits_def]

/-- The reference's variance of column `j` is the column variance of the reference's own stage. -/
theorem var_eq (j : Fin 128) :
    val_main_v101 (F := Ideal) x0 x1 x2 x3 x4 x5 x6 x7 x8 x9 x10 x11 x12 x13 x14 x15 x16 x17 x18 x21 (ix1 j)
      = Cert.ColumnStats.varRow (val_main_v91 (F := Ideal) x0 x1 x2 x3 x4 x5 x6 x7 x8 x9 x10 x11 x12 x13 x14 x15 x16 x17 x18 x21) (ix2 (0 : Fin 1) j) := by
  have e99 : ∀ k : Fin 50000, idx_main_v99 (ix1 j) k = ix2 k j :=
    fun k => funext fun a => Fin.ext (by match a with | ⟨0, _⟩ => rfl | ⟨1, _⟩ => rfl)
  have e95 : ∀ k : Fin 50000, idx_main_v95 (idx_main_v96 (ix2 k j)) = ix1 j :=
    fun k => funext fun a => Fin.ext (by match a with | ⟨0, _⟩ => rfl)
  simp only [Cert.ColumnStats.varRow_apply, val_main_v101_apply, val_main_v99_apply, val_main_v100_apply,
    val_main_cst_13_apply, val_main_cst_12_apply, e99, val_main_v98_apply, val_main_v97_apply, val_main_v96_apply,
    val_main_v95_apply, e95, mean_eq, Ideal.hostDivf_def, Ideal.ofBits_def, Ideal.mulf_def, Ideal.subf_def]

/-- The reference's result at row `n`, column `j`. -/
theorem ref_apply (n : Fin 50000) (j : Fin 128) :
    val_main_v116 (F := Ideal) x0 x1 x2 x3 x4 x5 x6 x7 x8 x9 x10 x11 x12 x13 x14 x15 x16 x17 x18 x19 x20 x21 (ix2 n j) =
      Ideal.div (val_main_v91 (F := Ideal) x0 x1 x2 x3 x4 x5 x6 x7 x8 x9 x10 x11 x12 x13 x14 x15 x16 x17 x18 x21 (ix2 n j) - val_main_v94 (F := Ideal) x0 x1 x2 x3 x4 x5 x6 x7 x8 x9 x10 x11 x12 x13 x14 x15 x16 x17 x18 x21 (ix1 j))
          (Ideal.sqrt (val_main_v101 (F := Ideal) x0 x1 x2 x3 x4 x5 x6 x7 x8 x9 x10 x11 x12 x13 x14 x15 x16 x17 x18 x21 (ix1 j) + Ideal.ofBits .f32 0x3727C5AC#32))
        * x19 (ix1 j) + x20 (ix1 j) := by
  have e102 : idx_main_v102 (idx_main_v103 (ix2 n j)) = ix1 j := funext fun a => Fin.ext (by match a with | ⟨0, _⟩ => rfl)
  have e108 : idx_main_v108 (idx_main_v109 (ix2 n j)) = ix1 j := funext fun a => Fin.ext (by match a with | ⟨0, _⟩ => rfl)
  have e111 : idx_main_v111 (idx_main_v112 (ix2 n j)) = ix1 j := funext fun a => Fin.ext (by match a with | ⟨0, _⟩ => rfl)
  have e114 : idx_main_v114 (idx_main_v115 (ix2 n j)) = ix1 j := funext fun a => Fin.ext (by match a with | ⟨0, _⟩ => rfl)
  simp only [val_main_v116_apply, val_main_v113_apply, val_main_v115_apply, val_main_v114_apply, val_main_v112_apply,
    val_main_v111_apply, val_main_v110_apply, val_main_v109_apply, val_main_v108_apply, val_main_v107_apply,
    val_main_v106_apply, val_main_v105_apply, val_main_cst_14_apply, val_main_v104_apply, val_main_v103_apply,
    val_main_v102_apply, e102, e108, e111, e114, Ideal.addf_def, Ideal.mulf_def, Ideal.subf_def, Ideal.hostDivf_def,
    Ideal.hostUnary_sqrt_def, Ideal.ofBits_def]

/-- The kernel's specification at the reference's stage, its column means and variances, and the scale and shift
    rows is the reference's result. -/
theorem spec_eq :
    Cert.NormBlocks.normArr (val_main_v91 (F := Ideal) x0 x1 x2 x3 x4 x5 x6 x7 x8 x9 x10 x11 x12 x13 x14 x15 x16 x17 x18 x21)
      (Cert.ColumnStats.meanRow (val_main_v91 (F := Ideal) x0 x1 x2 x3 x4 x5 x6 x7 x8 x9 x10 x11 x12 x13 x14 x15 x16 x17 x18 x21))
      (Cert.ColumnStats.varRow (val_main_v91 (F := Ideal) x0 x1 x2 x3 x4 x5 x6 x7 x8 x9 x10 x11 x12 x13 x14 x15 x16 x17 x18 x21))
      (shapeCast Cert.KernelIdeal.S1x128 x19 Cert.KernelIdeal.Gen.shapeCasts_S128_S1x128)
      (shapeCast Cert.KernelIdeal.S1x128 x20 Cert.KernelIdeal.Gen.shapeCasts_S128_S1x128)
    = val_main_v116 (F := Ideal) x0 x1 x2 x3 x4 x5 x6 x7 x8 x9 x10 x11 x12 x13 x14 x15 x16 x17 x18 x19 x20 x21 := by
  funext i
  obtain ⟨n, j, rfl⟩ : ∃ (n : Fin 50000) (j : Fin 128), i = ix2 n j := ⟨i 0, i 1, eq_ix2 i⟩
  rw [ref_apply, Cert.NormBlocks.normArr_apply, shapeCast_a_1a_apply, shapeCast_a_1a_apply, mean_eq, var_eq,
    Cert.NormLaw.div_sqrt_eq_mul_rsqrt _ _ (Cert.ColumnStats.varRow_add_eps_pos _ (0 : Fin 1) j)]

end Cert.NormRef

end
-- ==== Proof.NormStage.lean ====
/-
  The last launch leaves the reference's result.

  The launch's result array is the specification `normArr` of the five arrays the launch finds: the array the fourth
  launch left (the reference's input of the second normalisation, by hypothesis), the rows of its column means and
  column variances formed by the host, and the scale and shift rows. The specification at those arrays is the
  reference's second normalisation.
-/
import proofs.«159312_j3624952397870_2_alg».proof.Proof.Stages
import proofs.«159312_j3624952397870_2_alg».proof.Proof.NormBlocks
import proofs.«159312_j3624952397870_2_alg».proof.Proof.NormInputs
import proofs.«159312_j3624952397870_2_alg».proof.Proof.ColumnStats
import proofs.«159312_j3624952397870_2_alg».proof.Proof.NormRef

noncomputable section

namespace Cert.NormStage

open Idealize.ShloMosaic Idealize.ShloMosaic.TcCoe Idealize.SL.Sem
open Cert.KernelIdeal Cert.KernelIdeal.Gen Cert.Stages

/-- If the fourth launch leaves the reference's input of the second normalisation, the last launch leaves the
    reference's result. -/
theorem afterNorm (m : KMem) (ρ : Dev nD → PrngReg) (c : Dev nD) (h : AfterFfn m ρ c) : AfterNorm m ρ c := by
  have hP : W8 (F := Ideal) m ρ c (Proc.devRef .tc main_v52) = refPre2 m c := h
  show W10 (F := Ideal) m ρ c (Proc.devRef .tc main_v64) = refOut m c
  refine (W10_arr m ρ c 5).trans ?_
  rw [Cert.NormBlocks.arr_eq (V9 (F := Ideal) m ρ) c, Cert.NormInputs.in_entry, Cert.ColumnStats.mean_second,
    Cert.ColumnStats.var_second, Cert.NormInputs.g_entry, Cert.NormInputs.be_entry, hP]
  exact Cert.NormRef.spec_eq (x0 m c) (x1 m c) (x2 m c) (x3 m c) (x4 m c) (x5 m c) (x6 m c) (x7 m c) (x8 m c) (x9 m c)
    (x10 m c) (x11 m c) (x12 m c) (x13 m c) (x14 m c) (x15 m c) (x16 m c) (x17 m c) (x18 m c) (x19 m c) (x20 m c) (x21 m c)

end Cert.NormStage

end
-- ==== Proof.lean ====
/-
  The kernel program and the reference compute the same layer of a message-passing network, as extended reals.

  Both programs take node features, pseudo-coordinates, per-edge encodings, an edge list and the layer's weights.
  The layer: join the features with the coordinates (h0); transform the nodes, h = relu(h0·Wd + bd)·Wp + bp; for
  every edge modulate the destination's row of h by a small network of the edge's encoding; sum the modulated rows
  by source node, divide by the clamped degree, scale by two learned rows (one of them weighted by the square
  root of the degree) and add h0; normalise every column by its mean and variance over the nodes; apply a
  two-layer feed-forward block with a residual; and normalise again.

  The reference does all of it with host array operations. The kernel program does the five dense pieces with five
  tiled launches — each launch cuts its array into tiles of rows and computes a tile from the same rows of its
  inputs, the weights whole — and leaves the gather, the segment sums and the column statistics to the same host
  operations the reference uses. At the exact instance a tile's matrix product into a zero tile and the host's
  product are the same finite sums, a change of float format is the identity, and a tiled row-wise map is the
  whole-array map; so each launch leaves, row for row, the reference's corresponding stage (the five stage
  modules, each from the previous stage's equation). The one place where the two programs spell different
  arithmetic is the normalisation: the reference divides by the square root of "variance plus epsilon", the
  kernel multiplies by its reciprocal square root. On the extended reals these agree because that argument is
  positive: the variance is a sum of squares from zero over a positive count, nonnegative whatever the data,
  and epsilon is positive. No finiteness of the inputs is used.

  The claims: the three frames are the programs' runs with the result forgotten; the idealisation rewrote
  nothing; the value claim is the two runs side by side, joined by the last stage's equation.
-/
import proofs.«159312_j3624952397870_2_alg».proof.Defs
import proofs.«159312_j3624952397870_2_alg».proof.Proof.Gen.Kernel
import proofs.«159312_j3624952397870_2_alg».proof.Proof.Gen.Kernel.Skeleton
import proofs.«159312_j3624952397870_2_alg».proof.Proof.Gen.Kernel.Launch
import proofs.«159312_j3624952397870_2_alg».proof.Proof.Gen.Kernel.Points
import proofs.«159312_j3624952397870_2_alg».proof.Proof.Gen.Kernel.Frame
import proofs.«159312_j3624952397870_2_alg».proof.Proof.Gen.KernelIdeal
import proofs.«159312_j3624952397870_2_alg».proof.Proof.Gen.KernelIdeal.Skeleton
import proofs.«159312_j3624952397870_2_alg».proof.Proof.Gen.KernelIdeal.Launch
import proofs.«159312_j3624952397870_2_alg».proof.Proof.Gen.KernelIdeal.Points
import proofs.«159312_j3624952397870_2_alg».proof.Proof.Gen.KernelIdeal.Frame
import proofs.«159312_j3624952397870_2_alg».proof.Proof.Gen.ReferenceIdeal
import proofs.«159312_j3624952397870_2_alg».proof.Proof.Gen.Pre_finite_inputs
import proofs.«159312_j3624952397870_2_alg».proof.Proof.Claims
import proofs.«159312_j3624952397870_2_alg».proof.Proof.NodeStage
import proofs.«159312_j3624952397870_2_alg».proof.Proof.EdgeStage
import proofs.«159312_j3624952397870_2_alg».proof.Proof.ScaleStage
import proofs.«159312_j3624952397870_2_alg».proof.Proof.FfnStage
import proofs.«159312_j3624952397870_2_alg».proof.Proof.NormStage
import Idealize.ShloMosaic.Adequacy
import Idealize.ShloMosaic.Init

noncomputable section

namespace Cert.Proof

open Idealize.ShloMosaic Idealize.SL.Sem

/-- On every core the five launches leave, one after the other, the reference's five stages. -/
theorem result_is_last_stage (m : Cert.Stages.KMem) (ρ : Dev Cert.KernelIdeal.nD → PrngReg) (c : Dev Cert.KernelIdeal.nD) :
    Cert.Stages.AfterNorm m ρ c :=
  Cert.NormStage.afterNorm m ρ c
    (Cert.FfnStage.afterFfn m ρ c
      (Cert.ScaleStage.afterScale m ρ c
        (Cert.EdgeStage.afterEdge m ρ c
          (Cert.NodeStage.afterNode m ρ c))))

theorem claim : Cert.Claim :=
  ⟨Cert.Kernel.Gen.facts, Cert.KernelIdeal.Gen.facts, Cert.ReferenceIdeal.Gen.facts, Cert.Pre_finite_inputs.Gen.facts,
    Cert.Claims.frame_kernel, Cert.Claims.frame_kernelIdeal, Cert.Claims.frame_reference, Cert.Claims.preserves,
    Cert.Claims.algebraic result_is_last_stage⟩

end Cert.Proof

end
